-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S8192 : Shape := ⟨1, ![8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10 : Shape := ⟨2, ![512, 10]⟩
abbrev S10 : Shape := ⟨1, ![10]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part3 {F : FTy → Type} [FloatOps F] (main_arg1 : FVec F S8192x8192 .f32) (main_v48 : IVec S_ 1) (main_v49 : IVec S8192x8192 32) (main_v50 : IVec S8192x8192 32) (main_c_18 : IVec S_ 32) : IVec S_ 1 :=
  let main_v51 : IVec S8192x8192 32 := broadcastInDim S8192x8192 ![] bcast_S_S8192x8192 main_c_18
  let main_v52 : IVec S8192x8192 32 := addi main_v49 main_v51
  let main_v53 : IVec S8192x8192 1 := cmpi .eq main_v52 main_v50
  let main_v54 : FVec F S8192x8192 .f32 := uitofp .f32 main_v53
  let main_v55 : FVec F S8192x8192 .f32 := addf main_arg1 main_v54
  let main_cst_19 : FVec F S_ .f32 := constant S_ .f32 0x00000000#32
  let main_v56 : FVec F S8192 .f32 := (fun x v => Host.reduceAdd x v reducesTo_S8192x8192_S8192_d1 h_S_) main_v55 main_cst_19
  let main_cst_20 : FVec F S_ .f32 := constant S_ .f32 0x00000000#32
  let main_v57 : FVec F S8192 .f32 := broadcastInDim S8192 ![] bcast_S_S8192 main_cst_20
  let main_v58 : IVec S8192 1 := cmpf .ogt main_v56 main_v57
  let main_c_21 : IVec S_ 1 := constantI S_ 1 1#1
  let main_v59 : IVec S_ 1 := (fun x v => Host.reduce IntOp.andi x v reducesTo_S8192_S_d0 h_S_) main_v58 main_c_21
  let main_v60 : IVec S_ 1 := andi main_v48 main_v59
  main_v60

def fn_part2 {F : FTy → Type} [FloatOps F] (main_arg1 : FVec F S8192x8192 .f32) (main_arg8 : FVec F S512 .f32) (main_arg9 : FVec F S512x10 .f32) (main_arg10 : FVec F S10 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x10 .f32 := Host.absf main_arg9
  let main_cst_14 : FVec F S_ .f32 := constant S_ .f32 0x7F800000#32
  let main_v40 : FVec F S512x10 .f32 := broadcastInDim S512x10 ![] bcast_S_S512x10 main_cst_14
  let main_v41 : IVec S512x10 1 := cmpf .olt main_v39 main_v40
  let main_c_15 : IVec S_ 1 := constantI S_ 1 1#1
  let main_v42 : IVec S_ 1 := (fun x v => Host.reduce IntOp.andi x v reducesTo_S512x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : IVec S8192x8192 32 := iotaInDim S8192x8192 32 0
  let main_v50 : IVec S8192x8192 32 := iotaInDim S8192x8192 32 1
  let main_c_18 : IVec S_ 32 := constantI S_ 32 0#32
  fn_part3 (F := F) main_arg1 main_v48 main_v49 main_v50 main_c_18

def fn_part1 {F : FTy → Type} [FloatOps F] (main_arg1 : FVec F S8192x8192 .f32) (main_arg5 : FVec F S512x256 .f32) (main_arg6 : FVec F S256 .f32) (main_arg7 : FVec F S256x512 .f32) (main_arg8 : FVec F S512 .f32) (main_arg9 : FVec F S512x10 .f32) (main_arg10 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S8192x512 .f32) (main_arg1 : FVec F S8192x8192 .f32) (main_arg2 : IVec S8192 32) (main_arg3 : FVec F S512x512 .f32) (main_arg4 : FVec F S512 .f32) (main_arg5 : FVec F S512x256 .f32) (main_arg6 : FVec F S256 .f32) (main_arg7 : FVec F S256x512 .f32) (main_arg8 : FVec F S512 .f32) (main_arg9 : FVec F S512x10 .f32) (main_arg10 : FVec F S10 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_arg9 main_arg10 main_v13 main_v16
-- ==== Kernel.lean ====
abbrev S8192x512 : Shape := ⟨2, ![8192, 512]⟩
abbrev S8192x8192 : Shape := ⟨2, ![8192, 8192]⟩
abbrev S8192 : Shape := ⟨1, ![8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10 : Shape := ⟨2, ![512, 10]⟩
abbrev S10 : Shape := ⟨1, ![10]⟩
abbrev S8192x1 : Shape := ⟨2, ![8192, 1]⟩
abbrev S128x8192 : Shape := ⟨2, ![128, 8192]⟩
abbrev S128x1 : Shape := ⟨2, ![128, 1]⟩
abbrev S128 : Shape := ⟨1, ![128]⟩
abbrev S2048x512 : Shape := ⟨2, ![2048, 512]⟩
abbrev S2048x1 : Shape := ⟨2, ![2048, 1]⟩
abbrev S1x512 : Shape := ⟨2, ![1, 512]⟩
abbrev S2048x1024 : Shape := ⟨2, ![2048, 1024]⟩
abbrev S1024x512 : Shape := ⟨2, ![1024, 512]⟩
abbrev S8192x256 : Shape := ⟨2, ![8192, 256]⟩
abbrev S2048x256 : Shape := ⟨2, ![2048, 256]⟩
abbrev S1x256 : Shape := ⟨2, ![1, 256]⟩
abbrev S1024x256 : Shape := ⟨2, ![1024, 256]⟩
abbrev S_ : Shape := ⟨0, ![]⟩
abbrev S64x256 : Shape := ⟨2, ![64, 256]⟩
abbrev S64 : Shape := ⟨1, ![64]⟩
abbrev S64x1 : Shape := ⟨2, ![64, 1]⟩
abbrev S64x512 : Shape := ⟨2, ![64, 512]⟩
abbrev S64x10 : Shape := ⟨2, ![64, 10]⟩
abbrev S1x10 : Shape := ⟨2, ![1, 10]⟩

abbrev nBuf : Space → Nat
  | .hbm => 49
  | .vmem => 42
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x10, .f32⟩
  | .hbm, ⟨10, _⟩ => ⟨S10, .f32⟩
  | .hbm, ⟨11, _⟩ => ⟨S8192x8192, .bf16⟩
  | .hbm, ⟨12, _⟩ => ⟨S8192x1, .f32⟩
  | .hbm, ⟨13, _⟩ => ⟨S8192x512, .bf16⟩
  | .hbm, ⟨14, _⟩ => ⟨S512x512, .bf16⟩
  | .hbm, ⟨15, _⟩ => ⟨S512x256, .bf16⟩
  | .hbm, ⟨16, _⟩ => ⟨S8192x512, .bf16⟩
  | .hbm, ⟨17, _⟩ => ⟨S1x512, .f32⟩
  | .hbm, ⟨18, _⟩ => ⟨S8192x512, .bf16⟩
  | .hbm, ⟨19, _⟩ => ⟨S8192x256, .bf16⟩
  | .hbm, ⟨20, _⟩ => ⟨S1x256, .f32⟩
  | .hbm, ⟨21, _⟩ => ⟨S8192x256, .f32⟩
  | .hbm, ⟨22, _⟩ => ⟨S_, .f32⟩
  | .hbm, ⟨23, _⟩ => ⟨S64x256, .f32⟩
  | .hbm, ⟨24, _⟩ => ⟨S8192x1, .i32⟩
  | .hbm, ⟨25, _⟩ => ⟨S64x256, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S64, .f32⟩
  | .hbm, ⟨30, _⟩ => ⟨S8192x1, .i32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x256, .f32⟩
  | .hbm, ⟨37, _⟩ => ⟨S64x256, .f32⟩
  | .hbm, ⟨38, _⟩ => ⟨S64x512, .f32⟩
  | .hbm, ⟨39, _⟩ => ⟨S1x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x10, .f32⟩
  | .hbm, ⟨46, _⟩ => ⟨S1x10, .f32⟩
  | .hbm, ⟨47, _⟩ => ⟨S64x10, .f32⟩
  | .hbm, ⟨48, _⟩ => ⟨S64x10, .f32⟩
  | .local _ .vmem, ⟨0, _⟩ => ⟨S128x8192, .f32⟩
  | .local _ .vmem, ⟨1, _⟩ => ⟨S128x8192, .f32⟩
  | .local _ .vmem, ⟨2, _⟩ => ⟨S128x8192, .bf16⟩
  | .local _ .vmem, ⟨3, _⟩ => ⟨S128x8192, .bf16⟩
  | .local _ .vmem, ⟨4, _⟩ => ⟨S128x1, .f32⟩
  | .local _ .vmem, ⟨5, _⟩ => ⟨S128x1, .f32⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S2048x1, .f32⟩
  | .local _ .vmem, ⟨10, _⟩ => ⟨S2048x1, .f32⟩
  | .local _ .vmem, ⟨11, _⟩ => ⟨S2048x512, .bf16⟩
  | .local _ .vmem, ⟨12, _⟩ => ⟨S2048x512, .bf16⟩
  | .local _ .vmem, ⟨13, _⟩ => ⟨S2048x512, .f32⟩
  | .local _ .vmem, ⟨14, _⟩ => ⟨S2048x1024, .bf16⟩
  | .local _ .vmem, ⟨15, _⟩ => ⟨S2048x1024, .bf16⟩
  | .local _ .vmem, ⟨16, _⟩ => ⟨S1024x512, .bf16⟩
  | .local _ .vmem, ⟨17, _⟩ => ⟨S1024x512, .bf16⟩
  | .local _ .vmem, ⟨18, _⟩ => ⟨S2048x1, .f32⟩
  | .local _ .vmem, ⟨19, _⟩ => ⟨S2048x1, .f32⟩
  | .local _ .vmem, ⟨20, _⟩ => ⟨S1x512, .f32⟩
  | .local _ .vmem, ⟨21, _⟩ => ⟨S2048x512, .bf16⟩
  | .local _ .vmem, ⟨22, _⟩ => ⟨S2048x512, .bf16⟩
  | .local _ .vmem, ⟨23, _⟩ => ⟨S2048x512, .f32⟩
  | .local _ .vmem, ⟨24, _⟩ => ⟨S2048x512, .bf16⟩
  | .local _ .vmem, ⟨25, _⟩ => ⟨S2048x512, .bf16⟩
  | .local _ .vmem, ⟨26, _⟩ => ⟨S512x256, .bf16⟩
  | .local _ .vmem, ⟨27, _⟩ => ⟨S2048x1, .f32⟩
  | .local _ .vmem, ⟨28, _⟩ => ⟨S2048x1, .f32⟩
  | .local _ .vmem, ⟨29, _⟩ => ⟨S2048x256, .bf16⟩
  | .local _ .vmem, ⟨30, _⟩ => ⟨S2048x256, .bf16⟩
  | .local _ .vmem, ⟨31, _⟩ => ⟨S2048x256, .f32⟩
  | .local _ .vmem, ⟨32, _⟩ => ⟨S2048x1024, .bf16⟩
  | .local _ .vmem, ⟨33, _⟩ => ⟨S2048x1024, .bf16⟩
  | .local _ .vmem, ⟨34, _⟩ => ⟨S1024x256, .bf16⟩
  | .local _ .vmem, ⟨35, _⟩ => ⟨S1024x256, .bf16⟩
  | .local _ .vmem, ⟨36, _⟩ => ⟨S2048x1, .f32⟩
  | .local _ .vmem, ⟨37, _⟩ => ⟨S2048x1, .f32⟩
  | .local _ .vmem, ⟨38, _⟩ => ⟨S1x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 1], ![false, false]⟩

def k3_cond2 (i : grid3.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S512x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  iota_S128x8192_d0_w32 : S128x8192.Iotas .tc 32 [0]
  iota_S128x8192_d1_w32 : S128x8192.Iotas .tc 32 [1]
  natLt_1_32 : 1 < 32
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  bitsLt_bf16_f32 : FTy.bits .bf16 < FTy.bits .f32
  packedbf16_S128x8192_S128x8192_0_0 : (Rect.unit (s := S128x8192) ![0, 0] S128x8192.size inb_S128x8192_S128x8192_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  packedbf16_S2048x512_S2048x512_0_0 : (Rect.unit (s := S2048x512) ![0, 0] S2048x512.size inb_S2048x512_S2048x512_0_0).PackedRows (EltTy.packing .bf16)
  shapeCasts_S512_S1x512 : S512.ShapeCasts S1x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S64x256 : S_.BroadcastsInDim S64x256 (![] : Fin 0 → Fin S64x256.rank)
  bcast_S8192_S8192x1_0 : S8192.BroadcastsInDim S8192x1 (![0] : Fin 1 → Fin S8192x1.rank)
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S2048x512_S512x512_S2048x512_1_0_0_1_n_n_wf : DotDims.WF S2048x512 S512x512 S2048x512 [1] [0] [0] [1] [] []
  dot_S2048x1024_S1024x512_S2048x512_1_0_0_1_n_n_wf : DotDims.WF S2048x1024 S1024x512 S2048x512 [1] [0] [0] [1] [] []
  dot_S2048x512_S512x256_S2048x256_1_0_0_1_n_n_wf : DotDims.WF S2048x512 S512x256 S2048x256 [1] [0] [0] [1] [] []
  dot_S2048x1024_S1024x256_S2048x256_1_0_0_1_n_n_wf : DotDims.WF S2048x1024 S1024x256 S2048x256 [1] [0] [0] [1] [] []
  scatter_S64x256_S8192x1_S8192x256_1_0_0_1_wf : ScatterDims.WF S64x256 S8192x1 S8192x256 [1] [0] [0] 1
  scatter_S64_S8192x1_S8192_n_0_0_1_wf : ScatterDims.WF S64 S8192x1 S8192 [] [0] [0] 1
  dot_S64x256_S256x512_S64x512_1_0_0_1_n_n_wf : DotDims.WF S64x256 S256x512 S64x512 [1] [0] [0] [1] [] []
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .bf16 = 32 ∨ (Rect.block (s := S8192x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .bf16 = 32 ∨ (Rect.block (s := S8192x512) S2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S8192x512.size a
  hwx2_4 : ∀ i : grid2.Coords, EltTy.bits .bf16 = 32 ∨ (Rect.block (s := S8192x512) S2048x512.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x512.size a
  hwx3_0 : ∀ i : grid3.Coords, EltTy.bits .bf16 = 32 ∨ (Rect.block (s := S8192x512) S2048x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .bf16 = 32 ∨ (Rect.block (s := S512x256) S512x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S8192x1.size a
  hwx3_2 : ∀ i : grid3.Coords, EltTy.bits .f32 = 32 ∨ (Rect.block (s := S8192x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S8192x256.size a
  hwx3_3 : ∀ i : grid3.Coords, EltTy.bits .bf16 = 32 ∨ (Rect.block (s := S8192x256) S2048x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x8192.size a
  hwx4_0 : ∀ i : grid4.Coords, EltTy.bits .bf16 = 32 ∨ (Rect.block (s := S8192x8192) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S8192x256.size a
  hwx4_1 : ∀ i : grid4.Coords, EltTy.bits .bf16 = 32 ∨ (Rect.block (s := S8192x256) S1024x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S8192x1.size a
  hwx4_2 : ∀ i : grid4.Coords, EltTy.bits .f32 = 32 ∨ (Rect.block (s := S8192x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S8192x256.size a
  hwx4_4 : ∀ i : grid4.Coords, EltTy.bits .f32 = 32 ∨ (Rect.block (s := S8192x256) S2048x256.size (cc4_transform_4 i) (hinb4_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def scatter_S64x256_S8192x1_S8192x256_1_0_0_1 : ScatterDims S64x256 S8192x1 S8192x256 where
  updateWindowDims := [1]
  insertedWindowDims := [0]
  scatterDimsToOperandDims := [0]
  indexVectorDim := 1
  wf := scatter_S64x256_S8192x1_S8192x256_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_arg1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x8192.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v6) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0_1) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v0_0) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0_1) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S8192 : Shape := ⟨1, ![8192]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10 : Shape := ⟨2, ![512, 10]⟩
abbrev S10 : Shape := ⟨1, ![10]⟩
abbrev S_ : Shape := ⟨0, ![]⟩
abbrev S8192x1 : Shape := ⟨2, ![8192, 1]⟩
abbrev S1x8192 : Shape := ⟨2, ![1, 8192]⟩
abbrev S1x512 : Shape := ⟨2, ![1, 512]⟩
abbrev S8192x256 : Shape := ⟨2, ![8192, 256]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x512 : Shape := ⟨2, ![64, 512]⟩
abbrev S64x10 : Shape := ⟨2, ![64, 10]⟩
abbrev S1x10 : Shape := ⟨2, ![1, 10]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x10, .f32⟩
  | .hbm, ⟨10, _⟩ => ⟨S10, .f32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x256, .f32⟩
  | .hbm, ⟨37, _⟩ => ⟨S8192x256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S64x256, .f32⟩
  | .hbm, ⟨43, _⟩ => ⟨S8192x1, .i32⟩
  | .hbm, ⟨44, _⟩ => ⟨S64x256, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S64, .f32⟩
  | .hbm, ⟨49, _⟩ => ⟨S8192x1, .i32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x1, .f32⟩
  | .hbm, ⟨55, _⟩ => ⟨S64x256, .f32⟩
  | .hbm, ⟨56, _⟩ => ⟨S64x256, .f32⟩
  | .hbm, ⟨57, _⟩ => ⟨S64x512, .f32⟩
  | .hbm, ⟨58, _⟩ => ⟨S1x512, .f32⟩
  | .hbm, ⟨59, _⟩ => ⟨S64x512, .f32⟩
  | .hbm, ⟨60, _⟩ => ⟨S64x512, .f32⟩
  | .hbm, ⟨61, _⟩ => ⟨S_, .f32⟩
  | .hbm, ⟨62, _⟩ => ⟨S64x512, .f32⟩
  | .hbm, ⟨63, _⟩ => ⟨S64x512, .f32⟩
  | .hbm, ⟨64, _⟩ => ⟨S64x10, .f32⟩
  | .hbm, ⟨65, _⟩ => ⟨S1x10, .f32⟩
  | .hbm, ⟨66, _⟩ => ⟨S64x10, .f32⟩
  | .hbm, ⟨67, _⟩ => ⟨S64x10, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S64x256 : S_.BroadcastsInDim S64x256 (![] : Fin 0 → Fin S64x256.rank)
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  scatter_S64x256_S8192x1_S8192x256_1_0_0_1_wf : ScatterDims.WF S64x256 S8192x1 S8192x256 [1] [0] [0] 1
  scatter_S64_S8192x1_S8192_n_0_0_1_wf : ScatterDims.WF S64 S8192x1 S8192 [] [0] [0] 1
  dot_S64x256_S256x512_S64x512_1_0_0_1_n_n_wf : DotDims.WF S64x256 S256x512 S64x512 [1] [0] [0] [1] [] []
  dot_S64x512_S512x10_S64x10_1_0_0_1_n_n_wf : DotDims.WF S64x512 S512x10 S64x10 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def scatter_S64x256_S8192x1_S8192x256_1_0_0_1 : ScatterDims S64x256 S8192x1 S8192x256 where
  updateWindowDims := [1]
  insertedWindowDims := [0]
  scatterDimsToOperandDims := [0]
  indexVectorDim := 1
  wf := scatter_S64x256_S8192x1_S8192x256_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.KRegion0.lean ====
/-
  The first pallas_call: one pass over a 128-row band of the adjacency matrix. At grid point t the band is rows
  128·t … 128·t+127 of adj; the body adds the matching band of the identity (built from two iotas and a compare),
  stores the band of A + I, and stores the reciprocal square root of each row's sum. This module gives, for any
  contents V of the buffers at the region's entry: what each output's staging buffer holds after the body, the body's
  triple, the pipeline's proof data and the body obligation at every grid point.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band is in its staging buffer at every point, for any proof data whose array is V's and whose
    body leaves the band in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rBand : Rect S128x8192 := Rect.unit (s := S128x8192) ![0, 0] S128x8192.size inb_S128x8192_S128x8192_0_0
abbrev rCol : Rect S128x1 := Rect.unit (s := S128x1) ![0, 0] S128x1.size inb_S128x1_S128x1_0_0

/-! ## What the body leaves in each output's buffer -/

/-- The band of A + I (window 1) after the body at grid coordinates i, from the adjacency band x0. -/
def out0_1 (i : grid0.Coords) (x0 : Vec F S128x8192 .f32) : Vec F S128x8192 .bf16 :=
  View.canon [⟨rBand, k0_pay3 i (View.ld x0 rBand)⟩]

/-- The column of reciprocal square roots of the row sums (window 2) after the body. -/
def out0_2 (i : grid0.Coords) (x0 : Vec F S128x8192 .f32) : Vec F S128x1 .f32 :=
  View.canon [⟨rCol, k0_pay2 i (View.ld x0 rBand)⟩]

theorem cover0_1 (p0 : Vec F S128x8192 .bf16) (y : S128x8192.Idx) :
    ∃ pc ∈ ([⟨rBand, p0⟩] : List (View.Piece (Elt F) S128x8192 .bf16)), y ∈ pc.1.set :=
  View.cover_of_tiled [⟨rBand, p0⟩] S128x8192.size (by rfl) y

theorem cover0_2 (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 1000000 in
/-- The body on whole staging memrefs: the adjacency band is kept, the two outputs end at out0_1 and out0_2 of it
    whatever they held (the body reads them only to overwrite them whole). -/
theorem sound_kernel0 (c : Dev nD) (E : Set ℕ) (i : grid0.Coords)
    (arg1 : Memref sig .tc .vmem S128x8192 .f32) (harg1 : arg1.IsWhole)
    (arg2 : Memref sig .tc .vmem S128x8192 .bf16) (harg2 : arg2.IsWhole)
    (arg3 : Memref sig .tc .vmem S128x1 .f32) (harg3 : arg3.IsWhole)
    (x0 : Vec F S128x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 i x0)
            ∗ owns (c : Thread nD τ) arg3 fullShare (out0_2 i x0)) -∗ K ⟨⟩))
      ⊢ wp frame (wpE (defs₀ (F := F)) Variants.none c none) E (cc0__ai_deg_kernel i arg1 harg1 arg2 harg2 arg3 harg3) K := by
  simp only [cc0__ai_deg_kernel_eq_skeleton]; unfold cc0__ai_deg_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- On core c: the arrays as the region finds them; after the body at point t the adjacency band in place and each
    output at its function of the band; the invariant is the untouched scoped rest and generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second pallas_call: t = (x · W1) scaled row by row by the reciprocal square roots of the degrees, 2048 rows at a time.
  The grid is 4 row blocks by ONE step of the contraction, so at every point the accumulator is reset, receives the
  one block product, and is scaled row by row by the column of reciprocal square roots and stored: both of the body's
  conditionals on the contraction step hold at every point. The accumulator is a scratch buffer of the call's own; it
  is written before it is read at each point, so nothing is carried between points. This module gives, for any contents
  V of the buffers at the region's entry: the body's run, what it leaves in the output's staging buffer, the
  pipeline's proof data and the body obligation at every grid point.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import proofs.«124667_j47708496724388_2_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals: both hold at every point (the contraction axis has one step) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at any point: every input is read and the output is stored at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The staging memrefs and the accumulator -/

abbrev VO1_3 : View sig .tc .vmem S2048x512 .bf16 := (Memref.whole cc1_stg3_0 : Memref sig .tc .vmem S2048x512 .bf16).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .bf16 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1 : Memref sig .tc .vmem S2048x512 .f32 := Memref.whole cc1_scratch0

/-- The region invariant with the accumulator taken out of the scoped rest, owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run: the pieces each buffer ends with, found by the run itself -/

set_option maxHeartbeats 1000000 in
/-- On whole staging memrefs, the three inputs at their contents, the output and the accumulator at anything: the body
    runs to the continuation with the inputs as they were and the output's and the accumulator's buffers written
    with the pieces L3 and LS (last first). -/
noncomputable def kernelRun1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) :
    Σ' (L3 : List (View.Piece (Elt F) S2048x512 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__proj_kernel i arg2 harg2 arg3 harg3 arg4 harg4 arg5 harg5 arg6 harg6) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The output's pieces tile its block, so they cover it. -/
theorem cover1_3 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) (y : S2048x512.Idx) :
    ∃ pc ∈ (kernelRun1 c i arg2 harg2 arg3 harg3 arg4 harg4 arg5 harg5 arg6 harg6 hc0 hc1 x0 x1 x2).1, y ∈ pc.1.set :=
  View.cover_of_tiledL (kernelRun1 c i arg2 harg2 arg3 harg3 arg4 harg4 arg5 harg5 arg6 harg6 hc0 hc1 x0 x1 x2).1 S2048x512.size (by sl_kernel_rfl) y

/-- What the body leaves in the output's staging buffer: its pieces read back. -/
def out1_3 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) : Vec F S2048x512 .bf16 :=
  VO1_3.read (Elt F) (VO1_3.writes (Elt F) VO1_3.junk (kernelRun1 c i arg2 harg2 arg3 harg3 arg4 harg4 arg5 harg5 arg6 harg6 hc0 hc1 x0 x1 x2).1)

/-! ## The pipeline's proof data -/

/-- On core c: the arrays as the region finds them; after the body at point t each input's buffer at its block and
    the output's at what the run leaves; the invariant the untouched scoped rest (the accumulator inside it, at
    anything) and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) scM1 (Memref.isWhole_whole _) (hcond1_0 t) (hcond1_1 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) scM1 (Memref.isWhole_whole _) (hcond1_0 t) (hcond1_1 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' memrefs hold their blocks, the invariant lends the accumulator at anything
    and takes it back at anything, the output's buffer ends at what the run leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).Φ t.castSucc = Pipeline.ΦA spec1 c from rfl, PhiA1_eq]
  unfold out1_3
  iintro ⟨⟨⟨HS, Hrest⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The third pallas_call: h = max((A + I) · t1 · dinv + b1, 0), rows in four bands of 2048, the contraction in eight
  blocks of 1024. Grid point t has coordinates (i, k), k the fast axis: the body zeroes the f32 accumulator when k = 0,
  adds the product of the (i, k) block of A + I with the k-th block of t1, and when k = 7 stores the scaled, biased,
  clamped accumulator, rounded to bf16, into the output band. The accumulator is carried from point to point; the
  output band is stored only at k = 7 and left as found elsewhere. This module gives, for any contents V of the
  buffers at the region's entry: the accumulator after each point, the body's triple in each of the three cases of
  k, the pipeline's proof data and the body obligation at every grid point.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block is in its staging buffer at every point, fetched there or not, for any proof data whose array
    is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S2048x1024 := Rect.unit (s := S2048x1024) ![0, 0] S2048x1024.size inb_S2048x1024_S2048x1024_0_0
abbrev rB2 : Rect S1024x512 := Rect.unit (s := S1024x512) ![0, 0] S1024x512.size inb_S1024x512_S1024x512_0_0
abbrev rAcc2 : Rect S2048x512 := Rect.unit (s := S2048x512) ![0, 0] S2048x512.size inb_S2048x512_S2048x512_0_0
abbrev rD2 : Rect S2048x1 := Rect.unit (s := S2048x1) ![0, 0] S2048x1.size inb_S2048x1_S2048x1_0_0
abbrev rBias2 : Rect S1x512 := Rect.unit (s := S1x512) ![0, 0] S1x512.size inb_S1x512_S1x512_0_0

/-! ## The body's two conditions on the coordinates, in closed form over the grid -/

/-- k = 0: the accumulator is zeroed first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- k = 7: the output band is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where k ≠ 7 the output band is idle and not written back; where k = 7 it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## What the body leaves in the accumulator and in the output band -/

/-- The accumulator zeroed. -/
def zero2 : Vec F S2048x512 .f32 := View.canon [⟨rAcc2, k2_pay1 (F := F)⟩]

/-- The accumulator xs after one more block product a · b is added to it. -/
def step2 (xs : Vec F S2048x512 .f32) (a : Vec F S2048x1024 .bf16) (b : Vec F S1024x512 .bf16) : Vec F S2048x512 .f32 :=
  View.canon [⟨rAcc2, k2_pay2 (View.ld xs rAcc2) (View.ld a rA2) (View.ld b rB2)⟩]

/-- The output band from the finished accumulator, the band of dinv and the bias row. -/
def out2 (acc : Vec F S2048x512 .f32) (d : Vec F S2048x1 .f32) (bias : Vec F S1x512 .f32) : Vec F S2048x512 .bf16 :=
  View.canon [⟨rAcc2, k2_pay3 (View.ld acc rAcc2) (View.ld d rD2) (View.ld bias rBias2)⟩]

theorem coverAcc2 {e : EltTy} (p0 : rAcc2.shape.Idx → Elt F e) (y : S2048x512.Idx) :
    ∃ pc ∈ ([⟨rAcc2, p0⟩] : List (View.Piece (Elt F) S2048x512 e)), y ∈ pc.1.set :=
  View.cover_of_tiled [⟨rAcc2, p0⟩] S2048x512.size (by rfl) y

/-- Two stores in a row through one rectangle that holds every index: the buffer reads as the later store's payload. -/
theorem read_writes2_of_cover {sg : RefSig} {κ : Kind} {sp : Space} {s : Shape} {e : EltTy} (v : View sg κ sp s e) (f : v.ty.Contents (Elt F))
    (r : Rect s) (w1 w2 : r.shape.Idx → Elt F e)
    (hc : ∀ y : s.Idx, ∃ pc ∈ ([⟨r, w1⟩] : List (View.Piece (Elt F) s e)), y ∈ pc.1.set) :
    v.read (Elt F) (v.writes (Elt F) f [⟨r, w1⟩, ⟨r, w2⟩]) = View.canon [⟨r, w1⟩] := by
  funext y
  obtain ⟨pc, hm, hy⟩ := hc y
  rw [List.mem_singleton] at hm; subst hm
  obtain ⟨x, rfl⟩ : ∃ x, r.emb x = y := r.exists_idx_of_mem hy
  rw [View.read_writes_cons_emb, View.canon_cons_emb]

/-! ## The body's triple, case by case -/

set_option maxHeartbeats 1000000 in
/-- k = 0 (and k ≠ 7): whatever the accumulator held, it ends at the first block product over zero; the two matrix
    blocks are kept. The other three buffers are not touched. -/
theorem sound_kernel2_A (c : Dev nD) (E : Set ℕ) (i : grid2.Coords) (hc0 : cond2_0 i) (hc1 : ¬cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (K : PUnit → sProp 𝕄) :
    iprop(owns (c : Thread nD τ) arg2 fullShare a ∗ owns (c : Thread nD τ) arg3 fullShare b ∗ (∃ d, owns (c : Thread nD τ) arg7 fullShare d)
        ∗ (iprop(owns (c : Thread nD τ) arg2 fullShare a ∗ owns (c : Thread nD τ) arg3 fullShare b
            ∗ owns (c : Thread nD τ) arg7 fullShare (step2 zero2 a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel2_A.sl.v3 sound_kernel2_A.sl.HS_1
  rw [View.readCov_eq_canon_ld _ _ _ (coverAcc2 _)]
  exact read_writes2_of_cover _ _ _ _ _ (coverAcc2 _)

set_option maxHeartbeats 1000000 in
/-- 0 < k < 7: the accumulator gains one block product; the two matrix blocks are kept. The other three buffers are
    not touched. -/
theorem sound_kernel2_B (c : Dev nD) (E : Set ℕ) (i : grid2.Coords) (hc0 : ¬cond2_0 i) (hc1 : ¬cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (xs : Vec F S2048x512 .f32) (K : PUnit → sProp 𝕄) :
    iprop(owns (c : Thread nD τ) arg2 fullShare a ∗ owns (c : Thread nD τ) arg3 fullShare b ∗ owns (c : Thread nD τ) arg7 fullShare xs
        ∗ (iprop(owns (c : Thread nD τ) arg2 fullShare a ∗ owns (c : Thread nD τ) arg3 fullShare b
            ∗ owns (c : Thread nD τ) arg7 fullShare (step2 xs a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverAcc2 _)

set_option maxHeartbeats 1000000 in
/-- k = 7 (and k ≠ 0): the accumulator gains the last block product, and the output band, whatever it held, ends at
    out2 of the finished accumulator; the four inputs are kept. -/
theorem sound_kernel2_C (c : Dev nD) (E : Set ℕ) (i : grid2.Coords) (hc0 : ¬cond2_0 i) (hc1 : cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (xd : Vec F S2048x1 .f32) (xb : Vec F S1x512 .f32)
    (xs : Vec F S2048x512 .f32) (K : PUnit → sProp 𝕄) :
    iprop(owns (c : Thread nD τ) arg2 fullShare a ∗ owns (c : Thread nD τ) arg3 fullShare b ∗ owns (c : Thread nD τ) arg4 fullShare xd
        ∗ owns (c : Thread nD τ) arg5 fullShare xb ∗ (∃ d, owns (c : Thread nD τ) arg6 fullShare d) ∗ owns (c : Thread nD τ) arg7 fullShare xs
        ∗ (iprop(owns (c : Thread nD τ) arg2 fullShare a ∗ owns (c : Thread nD τ) arg3 fullShare b ∗ owns (c : Thread nD τ) arg4 fullShare xd
            ∗ owns (c : Thread nD τ) arg5 fullShare xb ∗ owns (c : Thread nD τ) arg6 fullShare (out2 (step2 xs a b) xd xb)
            ∗ owns (c : Thread nD τ) arg7 fullShare (step2 xs a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel2_C.sl.v16 sound_kernel2_C.sl.HS_1
    rw [View.readCov_eq_canon_ld _ _ _ (coverAcc2 _)]
    exact View.read_writes_eq_canon _ _ _ (coverAcc2 _)
  iexists _; isplitr
  swap; · iexact HS
  ipureintro
  unfold sound_kernel2_C.sl.HS_1
  exact View.read_writes_eq_canon _ _ _ (coverAcc2 _)

/-! ## The accumulator after each point -/

/-- The scratch accumulator after the body at position n: restarted from zero where k = 0, else the point before's
    with this point's block product added. -/
def accAt2 (c : Dev nD) : (n : ℕ) → n < cfg2.N → Vec F S2048x512 .f32
  | 0, hn => step2 zero2 (iblk2 V c 0 ⟨0, hn⟩) (iblk2 V c 1 ⟨0, hn⟩)
  | n + 1, hn =>
    if (n + 1) % 8 = 0 then step2 zero2 (iblk2 V c 0 ⟨n + 1, hn⟩) (iblk2 V c 1 ⟨n + 1, hn⟩)
    else step2 (accAt2 c n (Nat.lt_of_succ_lt hn)) (iblk2 V c 0 ⟨n + 1, hn⟩) (iblk2 V c 1 ⟨n + 1, hn⟩)

/-- At a point with k = 0. -/
theorem accAt2_A (c : Dev nD) (t : Fin cfg2.N) (h0 : t.val % 8 = 0) :
    accAt2 V c t.val t.isLt = step2 zero2 (iblk2 V c 0 t) (iblk2 V c 1 t) := by
  obtain ⟨n, hn⟩ := t
  cases n with
  | zero => exact rfl
  | succ n => exact if_pos h0

/-- At a point with k ≠ 0: over what the point before left. -/
theorem accAt2_B (c : Dev nD) (t : Fin cfg2.N) (h0 : ¬t.val % 8 = 0) :
    accAt2 V c t.val t.isLt
      = step2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The invariant: the carried accumulator -/

/-- The call's scratch accumulator, a whole scoped buffer passed beside the windows. -/
abbrev scM2 : Memref sig .tc .vmem S2048x512 .f32 := Memref.whole cc2_scratch0

/-- The region's invariant with the accumulator taken out of the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-- The invariant before position n: before the first point the scoped rest and the generator register as the launch
    hands them; afterwards the accumulator at what the point before left, the other scoped buffers and the
    generator register. -/
def Phi2 (c : Dev nD) : (n : ℕ) → n ≤ cfg2.N → sProp 𝕄
  | 0, _ => Pipeline.ΦA spec2 c
  | n + 1, hn => iprop(iprop(owns (c : Thread nD τ) scM2 fullShare (accAt2 V c n hn)
      ∗ Pipeline.scopedRestBut (Ix := Unit) (Name := ℕ) (U := UR sig nD τ) (Lvl := ℕ) (Val := Elt F) spec2 c [cc2_scratch0])
    ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (accAt2 V c n hn)
      ∗ Pipeline.scopedRestBut (Ix := Unit) (Name := ℕ) (U := UR sig nD τ) (Lvl := ℕ) (Val := Elt F) spec2 c [cc2_scratch0])
    ∗ (∃ r, prngReg c r)) := rfl

theorem Phi2_pos (c : Dev nD) (n : ℕ) (h : n ≤ cfg2.N) (hz : n ≠ 0) :
    Phi2 V c n h = iprop(iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0])
    ∗ (∃ r, prngReg c r)) := by
  cases n with
  | zero => exact absurd rfl hz
  | succ n => rfl

/-! ## The pipeline's proof data -/

/-- On core c: the arrays as the region finds them; after the body at point t each input's block in place and the
    output band at out2 of the accumulator there (what the band holds where k = 7; elsewhere the band is idle and
    this is not consulted); the invariant carries the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (accAt2 V c t.val t.isLt) (iblk2 V c 2 t) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
/-- The output band after the body at point t (read where k = 7, the points that write it back). -/
theorem after2_4 (c : Dev nD) (t : Fin cfg2.N) :
    (dat2 V c).after 4 t = out2 (accAt2 V c t.val t.isLt) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
/-- Where k = 7 the output band is left at out2 of the accumulator there. -/
theorem leaves2_4_live (c : Dev nD) (t : Fin cfg2.N) (h : cond2_1 (grid2.coords t)) :
    (dat2 V c).leavesExact 4 t
      = owns (c : Thread nD τ) (st2_4 t) fullShare (out2 (accAt2 V c t.val t.isLt) (iblk2 V c 2 t) (iblk2 V c 3 t)) := by
  unfold Dat.leavesExact; rw [liveAt2_4 t h, after2_4]

set_option maxHeartbeats 4000000 in
/-- The body at any point: the inputs' buffers hold their blocks; the closed forms say which case the point is in;
    the invariant hands the body the accumulator at what the point before left (at anything before the first point)
    and takes it back at this point's contents; where k ≠ 7 the output band is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3]
  have hN : t.val < 32 := lt_of_lt_of_eq t.isLt (show cfg2.N = 32 from N_2)
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt2_A V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply (sound_kernel2_A c Set.univ (grid2.coords t) ((hcond2_0 t).mpr h0) (fun h => h1 ((hcond2_1 t).mp h)) _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_A c Set.univ (grid2.coords t) ((hcond2_0 t).mpr h0) (fun h => h1 ((hcond2_1 t).mp h)) _ _ _ _ _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [Phi2_castSucc V c t, Phi2_pos V c _ _ hz, accAt2_B V c t h0]
    by_cases h1 : t.val % 8 = 7
    · rw [leaves2_4_live V c t ((hcond2_1 t).mpr h1), accAt2_B V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) (fun h => h0 ((hcond2_0 t).mp h)) ((hcond2_1 t).mpr h1) _ _ _ _ _ _ _ _ _ _ _ _ (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) (fun h => h0 ((hcond2_0 t).mp h)) (fun h => h1 ((hcond2_1 t).mp h)) _ _ _ _ _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After any point the invariant gives the launch's back: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 32 := N_2; omega)

end Cert.Kernel.Hand

end
-- ==== Proof.KRegion3.lean ====
/-
  The fourth pallas_call: t = (h · W2) scaled row by row by the reciprocal square roots of the degrees, 2048 rows at a time.
  The grid is 4 row blocks by ONE step of the contraction, so at every point the accumulator is reset, receives the
  one block product, and is scaled row by row by the column of reciprocal square roots and stored: both of the body's
  conditionals on the contraction step hold at every point. The accumulator is a scratch buffer of the call's own; it
  is written before it is read at each point, so nothing is carried between points. This module gives, for any contents
  V of the buffers at the region's entry: the body's run, what it leaves in the output's staging buffer, the
  pipeline's proof data and the body obligation at every grid point.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import proofs.«124667_j47708496724388_2_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals: both hold at every point (the contraction axis has one step) -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any point: every input is read and the output is stored at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-! ## The staging memrefs and the accumulator -/

abbrev VO3_3 : View sig .tc .vmem S2048x256 .bf16 := (Memref.whole cc3_stg3_0 : Memref sig .tc .vmem S2048x256 .bf16).view
abbrev ms3_0 (t : Fin cfg3.N) : Memref sig .tc .vmem S2048x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .bf16 := win3_3.stage (cfg3.slots t 3)
abbrev hs3_3 (t : Fin cfg3.N) : (ms3_3 t).IsWhole := hstage3_3 ((cfg3.slots t 3).cast nbuf3_3)
/-- The accumulator: a whole scoped buffer of the call's own. -/
abbrev scM3 : Memref sig .tc .vmem S2048x256 .f32 := Memref.whole cc3_scratch0

/-- The region invariant with the accumulator taken out of the scoped rest, owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run: the pieces each buffer ends with, found by the run itself -/

set_option maxHeartbeats 1000000 in
/-- On whole staging memrefs, the three inputs at their contents, the output and the accumulator at anything: the body
    runs to the continuation with the inputs as they were and the output's and the accumulator's buffers written
    with the pieces L3 and LS (last first). -/
noncomputable def kernelRun3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) :
    Σ' (L3 : List (View.Piece (Elt F) S2048x256 .bf16)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc3__proj_kernel i arg2 harg2 arg3 harg3 arg4 harg4 arg5 harg5 arg6 harg6) K } := by
  refine ⟨?_, ?_, fun E K => ?run⟩
  case run =>
    simp only [cc3__proj_kernel_eq_skeleton]; unfold cc3__proj_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The output's pieces tile its block, so they cover it. -/
theorem cover3_3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) (y : S2048x256.Idx) :
    ∃ pc ∈ (kernelRun3 c i arg2 harg2 arg3 harg3 arg4 harg4 arg5 harg5 arg6 harg6 hc0 hc1 x0 x1 x2).1, y ∈ pc.1.set :=
  View.cover_of_tiledL (kernelRun3 c i arg2 harg2 arg3 harg3 arg4 harg4 arg5 harg5 arg6 harg6 hc0 hc1 x0 x1 x2).1 S2048x256.size (by sl_kernel_rfl) y

/-- What the body leaves in the output's staging buffer: its pieces read back. -/
def out3_3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) : Vec F S2048x256 .bf16 :=
  VO3_3.read (Elt F) (VO3_3.writes (Elt F) VO3_3.junk (kernelRun3 c i arg2 harg2 arg3 harg3 arg4 harg4 arg5 harg5 arg6 harg6 hc0 hc1 x0 x1 x2).1)

/-! ## The pipeline's proof data -/

/-- On core c: the arrays as the region finds them; after the body at point t each input's buffer at its block and
    the output's at what the run leaves; the invariant the untouched scoped rest (the accumulator inside it, at
    anything) and generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
/-- The body at any point: the inputs' memrefs hold their blocks, the invariant lends the accumulator at anything
    and takes it back at anything, the output's buffer ends at what the run leaves. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).Φ t.castSucc = Pipeline.ΦA spec3 c from rfl, PhiA3_eq]
  unfold out3_3
  iintro ⟨⟨⟨HS, Hrest⟩, Hg⟩, Ho, ⟨%d0, H0⟩, ⟨%d1, H1⟩, ⟨%d2, H2⟩, ⟨%d3, H3⟩⟩
  iapply ((kernelRun3 c (grid3.coords t) _ _ _ _ _ _ _ _ _ _ (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4.lean ====
/-
  The fifth pallas_call: h2 = (A + I) · t2 · dinv + b2, rows in four bands of 2048, the contraction in eight blocks of
  1024. Grid point t has coordinates (i, k), k the fast axis: the body zeroes the f32 accumulator when k = 0, adds the
  product of the (i, k) block of A + I with the k-th block of t2, and when k = 7 stores the scaled, biased accumulator
  into the f32 output band. The accumulator is carried from point to point; the output band is stored only at k = 7
  and left as found elsewhere. This module gives, for any contents V of the buffers at the region's entry: the
  accumulator after each point, the body's triple in each of the three cases of k, the pipeline's proof data and the
  body obligation at every grid point.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block is in its staging buffer at every point, fetched there or not, for any proof data whose array
    is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S2048x1024 := Rect.unit (s := S2048x1024) ![0, 0] S2048x1024.size inb_S2048x1024_S2048x1024_0_0
abbrev rB4 : Rect S1024x256 := Rect.unit (s := S1024x256) ![0, 0] S1024x256.size inb_S1024x256_S1024x256_0_0
abbrev rAcc4 : Rect S2048x256 := Rect.unit (s := S2048x256) ![0, 0] S2048x256.size inb_S2048x256_S2048x256_0_0
abbrev rD4 : Rect S2048x1 := Rect.unit (s := S2048x1) ![0, 0] S2048x1.size inb_S2048x1_S2048x1_0_0
abbrev rBias4 : Rect S1x256 := Rect.unit (s := S1x256) ![0, 0] S1x256.size inb_S1x256_S1x256_0_0

/-! ## The body's two conditions on the coordinates, in closed form over the grid -/

/-- k = 0: the accumulator is zeroed first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- k = 7: the output band is stored. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Where k ≠ 7 the output band is idle and not written back; where k = 7 it is live. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## What the body leaves in the accumulator and in the output band -/

/-- The accumulator zeroed. -/
def zero4 : Vec F S2048x256 .f32 := View.canon [⟨rAcc4, k4_pay1 (F := F)⟩]

/-- The accumulator xs after one more block product a · b is added to it. -/
def step4 (xs : Vec F S2048x256 .f32) (a : Vec F S2048x1024 .bf16) (b : Vec F S1024x256 .bf16) : Vec F S2048x256 .f32 :=
  View.canon [⟨rAcc4, k4_pay2 (View.ld xs rAcc4) (View.ld a rA4) (View.ld b rB4)⟩]

/-- The output band from the finished accumulator, the band of dinv and the bias row. -/
def out4 (acc : Vec F S2048x256 .f32) (d : Vec F S2048x1 .f32) (bias : Vec F S1x256 .f32) : Vec F S2048x256 .f32 :=
  View.canon [⟨rAcc4, k4_pay3 (View.ld acc rAcc4) (View.ld d rD4) (View.ld bias rBias4)⟩]

theorem coverAcc4 {e : EltTy} (p0 : rAcc4.shape.Idx → Elt F e) (y : S2048x256.Idx) :
    ∃ pc ∈ ([⟨rAcc4, p0⟩] : List (View.Piece (Elt F) S2048x256 e)), y ∈ pc.1.set :=
  View.cover_of_tiled [⟨rAcc4, p0⟩] S2048x256.size (by rfl) y

/-- Two stores in a row through one rectangle that holds every index: the buffer reads as the later store's payload. -/
theorem read_writes4_of_cover {sg : RefSig} {κ : Kind} {sp : Space} {s : Shape} {e : EltTy} (v : View sg κ sp s e) (f : v.ty.Contents (Elt F))
    (r : Rect s) (w1 w2 : r.shape.Idx → Elt F e)
    (hc : ∀ y : s.Idx, ∃ pc ∈ ([⟨r, w1⟩] : List (View.Piece (Elt F) s e)), y ∈ pc.1.set) :
    v.read (Elt F) (v.writes (Elt F) f [⟨r, w1⟩, ⟨r, w2⟩]) = View.canon [⟨r, w1⟩] := by
  funext y
  obtain ⟨pc, hm, hy⟩ := hc y
  rw [List.mem_singleton] at hm; subst hm
  obtain ⟨x, rfl⟩ : ∃ x, r.emb x = y := r.exists_idx_of_mem hy
  rw [View.read_writes_cons_emb, View.canon_cons_emb]

/-! ## The body's triple, case by case -/

set_option maxHeartbeats 1000000 in
/-- k = 0 (and k ≠ 7): whatever the accumulator held, it ends at the first block product over zero; the two matrix
    blocks are kept. The other three buffers are not touched. -/
theorem sound_kernel4_A (c : Dev nD) (E : Set ℕ) (i : grid4.Coords) (hc0 : cond4_0 i) (hc1 : ¬cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (K : PUnit → sProp 𝕄) :
    iprop(owns (c : Thread nD τ) arg2 fullShare a ∗ owns (c : Thread nD τ) arg3 fullShare b ∗ (∃ d, owns (c : Thread nD τ) arg7 fullShare d)
        ∗ (iprop(owns (c : Thread nD τ) arg2 fullShare a ∗ owns (c : Thread nD τ) arg3 fullShare b
            ∗ owns (c : Thread nD τ) arg7 fullShare (step4 zero4 a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel4_A.sl.v3 sound_kernel4_A.sl.HS_1
  rw [View.readCov_eq_canon_ld _ _ _ (coverAcc4 _)]
  exact read_writes4_of_cover _ _ _ _ _ (coverAcc4 _)

set_option maxHeartbeats 1000000 in
/-- 0 < k < 7: the accumulator gains one block product; the two matrix blocks are kept. The other three buffers are
    not touched. -/
theorem sound_kernel4_B (c : Dev nD) (E : Set ℕ) (i : grid4.Coords) (hc0 : ¬cond4_0 i) (hc1 : ¬cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (xs : Vec F S2048x256 .f32) (K : PUnit → sProp 𝕄) :
    iprop(owns (c : Thread nD τ) arg2 fullShare a ∗ owns (c : Thread nD τ) arg3 fullShare b ∗ owns (c : Thread nD τ) arg7 fullShare xs
        ∗ (iprop(owns (c : Thread nD τ) arg2 fullShare a ∗ owns (c : Thread nD τ) arg3 fullShare b
            ∗ owns (c : Thread nD τ) arg7 fullShare (step4 xs a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverAcc4 _)

set_option maxHeartbeats 1000000 in
/-- k = 7 (and k ≠ 0): the accumulator gains the last block product, and the output band, whatever it held, ends at
    out4 of the finished accumulator; the four inputs are kept. -/
theorem sound_kernel4_C (c : Dev nD) (E : Set ℕ) (i : grid4.Coords) (hc0 : ¬cond4_0 i) (hc1 : cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (xd : Vec F S2048x1 .f32) (xb : Vec F S1x256 .f32)
    (xs : Vec F S2048x256 .f32) (K : PUnit → sProp 𝕄) :
    iprop(owns (c : Thread nD τ) arg2 fullShare a ∗ owns (c : Thread nD τ) arg3 fullShare b ∗ owns (c : Thread nD τ) arg4 fullShare xd
        ∗ owns (c : Thread nD τ) arg5 fullShare xb ∗ (∃ d, owns (c : Thread nD τ) arg6 fullShare d) ∗ owns (c : Thread nD τ) arg7 fullShare xs
        ∗ (iprop(owns (c : Thread nD τ) arg2 fullShare a ∗ owns (c : Thread nD τ) arg3 fullShare b ∗ owns (c : Thread nD τ) arg4 fullShare xd
            ∗ owns (c : Thread nD τ) arg5 fullShare xb ∗ owns (c : Thread nD τ) arg6 fullShare (out4 (step4 xs a b) xd xb)
            ∗ owns (c : Thread nD τ) arg7 fullShare (step4 xs a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel4_C.sl.v16 sound_kernel4_C.sl.HS_1
    rw [View.readCov_eq_canon_ld _ _ _ (coverAcc4 _)]
    exact View.read_writes_eq_canon _ _ _ (coverAcc4 _)
  iexists _; isplitr
  swap; · iexact HS
  ipureintro
  unfold sound_kernel4_C.sl.HS_1
  exact View.read_writes_eq_canon _ _ _ (coverAcc4 _)

/-! ## The accumulator after each point -/

/-- The scratch accumulator after the body at position n: restarted from zero where k = 0, else the point before's
    with this point's block product added. -/
def accAt4 (c : Dev nD) : (n : ℕ) → n < cfg4.N → Vec F S2048x256 .f32
  | 0, hn => step4 zero4 (iblk4 V c 0 ⟨0, hn⟩) (iblk4 V c 1 ⟨0, hn⟩)
  | n + 1, hn =>
    if (n + 1) % 8 = 0 then step4 zero4 (iblk4 V c 0 ⟨n + 1, hn⟩) (iblk4 V c 1 ⟨n + 1, hn⟩)
    else step4 (accAt4 c n (Nat.lt_of_succ_lt hn)) (iblk4 V c 0 ⟨n + 1, hn⟩) (iblk4 V c 1 ⟨n + 1, hn⟩)

/-- At a point with k = 0. -/
theorem accAt4_A (c : Dev nD) (t : Fin cfg4.N) (h0 : t.val % 8 = 0) :
    accAt4 V c t.val t.isLt = step4 zero4 (iblk4 V c 0 t) (iblk4 V c 1 t) := by
  obtain ⟨n, hn⟩ := t
  cases n with
  | zero => exact rfl
  | succ n => exact if_pos h0

/-- At a point with k ≠ 0: over what the point before left. -/
theorem accAt4_B (c : Dev nD) (t : Fin cfg4.N) (h0 : ¬t.val % 8 = 0) :
    accAt4 V c t.val t.isLt
      = step4 (accAt4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-! ## The invariant: the carried accumulator -/

/-- The call's scratch accumulator, a whole scoped buffer passed beside the windows. -/
abbrev scM4 : Memref sig .tc .vmem S2048x256 .f32 := Memref.whole cc4_scratch0

/-- The region's invariant with the accumulator taken out of the scoped rest. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- The invariant before position n: before the first point the scoped rest and the generator register as the launch
    hands them; afterwards the accumulator at what the point before left, the other scoped buffers and the
    generator register. -/
def Phi4 (c : Dev nD) : (n : ℕ) → n ≤ cfg4.N → sProp 𝕄
  | 0, _ => Pipeline.ΦA spec4 c
  | n + 1, hn => iprop(iprop(owns (c : Thread nD τ) scM4 fullShare (accAt4 V c n hn)
      ∗ Pipeline.scopedRestBut (Ix := Unit) (Name := ℕ) (U := UR sig nD τ) (Lvl := ℕ) (Val := Elt F) spec4 c [cc4_scratch0])
    ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (accAt4 V c n hn)
      ∗ Pipeline.scopedRestBut (Ix := Unit) (Name := ℕ) (U := UR sig nD τ) (Lvl := ℕ) (Val := Elt F) spec4 c [cc4_scratch0])
    ∗ (∃ r, prngReg c r)) := rfl

theorem Phi4_pos (c : Dev nD) (n : ℕ) (h : n ≤ cfg4.N) (hz : n ≠ 0) :
    Phi4 V c n h = iprop(iprop(owns (c : Thread nD τ) scM4 fullShare (accAt4 V c (n - 1) (by omega))
      ∗ Pipeline.scopedRestBut (Ix := Unit) (Name := ℕ) (U := UR sig nD τ) (Lvl := ℕ) (Val := Elt F) spec4 c [cc4_scratch0])
    ∗ (∃ r, prngReg c r)) := by
  cases n with
  | zero => exact absurd rfl hz
  | succ n => rfl

/-! ## The pipeline's proof data -/

/-- On core c: the arrays as the region finds them; after the body at point t each input's block in place and the
    output band at out4 of the accumulator there (what the band holds where k = 7; elsewhere the band is idle and
    this is not consulted); the invariant carries the accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (accAt4 V c t.val t.isLt) (iblk4 V c 2 t) (iblk4 V c 3 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- The output band after the body at point t (read where k = 7, the points that write it back). -/
theorem after4_4 (c : Dev nD) (t : Fin cfg4.N) :
    (dat4 V c).after 4 t = out4 (accAt4 V c t.val t.isLt) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]
/-- Where k = 7 the output band is left at out4 of the accumulator there. -/
theorem leaves4_4_live (c : Dev nD) (t : Fin cfg4.N) (h : cond4_1 (grid4.coords t)) :
    (dat4 V c).leavesExact 4 t
      = owns (c : Thread nD τ) (st4_4 t) fullShare (out4 (accAt4 V c t.val t.isLt) (iblk4 V c 2 t) (iblk4 V c 3 t)) := by
  unfold Dat.leavesExact; rw [liveAt4_4 t h, after4_4]

set_option maxHeartbeats 4000000 in
/-- The body at any point: the inputs' buffers hold their blocks; the closed forms say which case the point is in;
    the invariant hands the body the accumulator at what the point before left (at anything before the first point)
    and takes it back at this point's contents; where k ≠ 7 the output band is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3]
  have hN : t.val < 32 := lt_of_lt_of_eq t.isLt (show cfg4.N = 32 from N_4)
  by_cases h0 : t.val % 8 = 0
  · have h1 : ¬t.val % 8 = 7 := by omega
    rw [Dat.leavesExact_idle (dat4 V c) 4 t (idleAt4_4 t (fun h => h1 ((hcond4_1 t).mp h))) (noFlush4_4 t (fun h => h1 ((hcond4_1 t).mp h)))]
    rw [accAt4_A V c t h0]
    by_cases hz : t.val = 0
    · rw [Phi4_castSucc V c t, Phi4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ (grid4.coords t) ((hcond4_0 t).mpr h0) (fun h => h1 ((hcond4_1 t).mp h)) _ _ _ _ _ _ _ _ _ _ _ _ (iblk4 V c 0 t) (iblk4 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi4_castSucc V c t, Phi4_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ (grid4.coords t) ((hcond4_0 t).mpr h0) (fun h => h1 ((hcond4_1 t).mp h)) _ _ _ _ _ _ _ _ _ _ _ _ (iblk4 V c 0 t) (iblk4 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [Phi4_castSucc V c t, Phi4_pos V c _ _ hz, accAt4_B V c t h0]
    by_cases h1 : t.val % 8 = 7
    · rw [leaves4_4_live V c t ((hcond4_1 t).mpr h1), accAt4_B V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel4_C c Set.univ (grid4.coords t) (fun h => h0 ((hcond4_0 t).mp h)) ((hcond4_1 t).mpr h1) _ _ _ _ _ _ _ _ _ _ _ _ (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      iintro ⟨⟨⟨HS, HR⟩, Hg⟩, Ho, ⟨%d0, H0⟩, ⟨%d1, H1⟩, ⟨%d2, H2⟩, ⟨%d3, H3⟩, ⟨%d4, H4⟩⟩
      iapply (sound_kernel4_B c Set.univ (grid4.coords t) (fun h => h0 ((hcond4_0 t).mp h)) (fun h => h1 ((hcond4_1 t).mp h)) _ _ _ _ _ _ _ _ _ _ _ _ (iblk4 V c 0 t) (iblk4 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]

/-- After any point the invariant gives the launch's back: the accumulator's contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

theorem hout4 (c : Dev nD) : (dat4 V c).Φ (Fin.last cfg4.N) ⊢ Pipeline.ΦA spec4 c :=
  Phi4_out V c _ (by rw [Fin.val_last]; have : cfg4.N = 32 := N_4; omega)

end Cert.Kernel.Hand

end
-- ==== Proof.KRun.lean ====
/-
  The run of @main through its eleven segments — five pallas_calls among six stretches of host operations — from the
  launch memory to the return: the buffers' contents at each boundary as a fold from the launch memory, each call
  entered from the contents the segment before it left and left with its arrays at what its pipeline computes; every
  execution terminates without a fault, the final memory holds every buffer at the last boundary's contents, and in
  particular every argument array as launched.
-/
import proofs.«124667_j47708496724388_2_alg».proof.Proof.Gen.Kernel.Launch
import proofs.«124667_j47708496724388_2_alg».proof.Proof.Gen.Kernel.Skeleton
import proofs.«124667_j47708496724388_2_alg».proof.Proof.Gen.Kernel.Points
import proofs.«124667_j47708496724388_2_alg».proof.Proof.KRegion0
import proofs.«124667_j47708496724388_2_alg».proof.Proof.KRegion1
import proofs.«124667_j47708496724388_2_alg».proof.Proof.KRegion2
import proofs.«124667_j47708496724388_2_alg».proof.Proof.KRegion3
import proofs.«124667_j47708496724388_2_alg».proof.Proof.KRegion4
import proofs.«124667_j47708496724388_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

section Run

variable (m : (ℓ : Loc nD τ sig) → Buf (Elt F) ℓ) (ρ : Dev nD → PrngReg)

/-! ## The buffers' contents at each boundary of @main: a fold from the launch memory -/

/-- Core c's buffers at launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- At pallas_call 0's exit: its arrays at what the pipeline leaves (the inputs as entered, each output's write-backs
    folded), every other buffer as entered. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)
/-- After the host stretch hostOps1. -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
theorem W2_keep (c : Dev nD) (r : Ref sig .tc) (h : r ∉ hostOps1_W) : W2 m ρ c r = W1 m ρ c r :=
  StableHlo.after_of_writes_sub hostOps1 _ hostOps1_writes h
/-- At pallas_call 1's exit: its arrays at what the pipeline leaves (the inputs as entered, each output's write-backs
    folded), every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)
/-- After the host stretch hostOps2. -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b
theorem W4_keep (c : Dev nD) (r : Ref sig .tc) (h : r ∉ hostOps2_W) : W4 m ρ c r = W3 m ρ c r :=
  StableHlo.after_of_writes_sub hostOps2 _ hostOps2_writes h
/-- At pallas_call 2's exit: its arrays at what the pipeline leaves (the inputs as entered, each output's write-backs
    folded), every other buffer as entered. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)
/-- At pallas_call 3's exit: its arrays at what the pipeline leaves (the inputs as entered, each output's write-backs
    folded), every other buffer as entered. -/
def W6 (c : Dev nD) : Valuation τ sig (Elt F) :=
  Pipeline.withArrays spec3 c (W5 m ρ c) fun w => (dat3 (Vr5 m ρ) c).arrAt w cfg3.N
theorem W6_arr (c : Dev nD) (w : Fin cfg3.W) :
    W6 m ρ c (Proc.devRef .tc (Pipeline.arrRef spec3 w)) = (dat3 (Vr5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev Vr6 : (c : Dev nD) → (b : Ref sig .tc) → Buf (Elt F) ((c : Thread nD τ).loc b) := fun c b => W6 m ρ c b
theorem hF3 (c : Dev nD) (w : Fin cfg3.W) : (dat3 (Vr5 m ρ) c).arrAt w cfg3.N = Vr6 m ρ c (Pipeline.arrRef spec3 w) :=
  (W6_arr m ρ c w).symm
theorem hrest3 (c : Dev nD) : ∀ b, b ∉ Finset.univ.image (Pipeline.arrRef spec3) → Vr6 m ρ c b = Vr5 m ρ c b :=
  fun b hb => W6_of_ne m ρ c b fun w e => hb (Finset.mem_image.mpr ⟨w, Finset.mem_univ _, e⟩)
/-- After the host stretch hostOps4. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b
theorem W7_keep (c : Dev nD) (r : Ref sig .tc) (h : r ∉ hostOps4_W) : W7 m ρ c r = W6 m ρ c r :=
  StableHlo.after_of_writes_sub hostOps4 _ hostOps4_writes h
/-- At pallas_call 4's exit: its arrays at what the pipeline leaves (the inputs as entered, each output's write-backs
    folded), every other buffer as entered. -/
def W8 (c : Dev nD) : Valuation τ sig (Elt F) :=
  Pipeline.withArrays spec4 c (W7 m ρ c) fun w => (dat4 (Vr7 m ρ) c).arrAt w cfg4.N
theorem W8_arr (c : Dev nD) (w : Fin cfg4.W) :
    W8 m ρ c (Proc.devRef .tc (Pipeline.arrRef spec4 w)) = (dat4 (Vr7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev Vr8 : (c : Dev nD) → (b : Ref sig .tc) → Buf (Elt F) ((c : Thread nD τ).loc b) := fun c b => W8 m ρ c b
theorem hF4 (c : Dev nD) (w : Fin cfg4.W) : (dat4 (Vr7 m ρ) c).arrAt w cfg4.N = Vr8 m ρ c (Pipeline.arrRef spec4 w) :=
  (W8_arr m ρ c w).symm
theorem hrest4 (c : Dev nD) : ∀ b, b ∉ Finset.univ.image (Pipeline.arrRef spec4) → Vr8 m ρ c b = Vr7 m ρ c b :=
  fun b hb => W8_of_ne m ρ c b fun w e => hb (Finset.mem_image.mpr ⟨w, Finset.mem_univ _, e⟩)
/-- After the host stretch hostOps5. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b
theorem W9_keep (c : Dev nD) (r : Ref sig .tc) (h : r ∉ hostOps5_W) : W9 m ρ c r = W8 m ρ c r :=
  StableHlo.after_of_writes_sub hostOps5 _ hostOps5_writes h
/-- After the host stretch hostOps5_1. -/
abbrev W10 : Dev nD → Valuation τ sig (Elt F) := fun c => StableHlo.after hostOps5_1 (W9 m ρ c)
abbrev Vr10 : (c : Dev nD) → (b : Ref sig .tc) → Buf (Elt F) ((c : Thread nD τ).loc b) := fun c b => W10 m ρ c b
theorem W10_keep (c : Dev nD) (r : Ref sig .tc) (h : r ∉ hostOps5_1_W) : W10 m ρ c r = W9 m ρ c r :=
  StableHlo.after_of_writes_sub hostOps5_1 _ hostOps5_1_writes h
/-- After the host stretch hostOps5_2. -/
abbrev W11 : Dev nD → Valuation τ sig (Elt F) := fun c => StableHlo.after hostOps5_2 (W10 m ρ c)
abbrev Vr11 : (c : Dev nD) → (b : Ref sig .tc) → Buf (Elt F) ((c : Thread nD τ).loc b) := fun c b => W11 m ρ c b
theorem W11_keep (c : Dev nD) (r : Ref sig .tc) (h : r ∉ hostOps5_2_W) : W11 m ρ c r = W10 m ρ c r :=
  StableHlo.after_of_writes_sub hostOps5_2 _ hostOps5_2_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
  | ⟨2, _⟩ => fun c => dat2 (Vr4 m ρ) c
  | ⟨3, _⟩ => fun c => dat3 (Vr5 m ρ) c
  | ⟨4, _⟩ => fun c => dat4 (Vr7 m ρ) c
abbrev Vn : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tlast (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- pallas_call 0 over the thread state: entered from every unscoped buffer at W0, left at W1. Its arrays are split
    out of the unscoped buffers and put back at the exit contents; the generator register goes into the region
    invariant and comes out; nothing is owed; the kernel has no semaphore of its own. -/
def reg0 : Pipeline.RegionSeg (pcfgs (F := F)) adm (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ Lz lvz 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at W2, left at W3. Its arrays are split
    out of the unscoped buffers and put back at the exit contents; the generator register goes into the region
    invariant and comes out; nothing is owed; the kernel has no semaphore of its own. -/
def reg1 : Pipeline.RegionSeg (pcfgs (F := F)) adm (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ Lz lvz 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 over the thread state: entered from every unscoped buffer at W4, left at W5. Its arrays are split
    out of the unscoped buffers and put back at the exit contents; the generator register goes into the region
    invariant and comes out; nothing is owed; the kernel has no semaphore of its own. -/
def reg2 : Pipeline.RegionSeg (pcfgs (F := F)) adm (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ Lz lvz 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr4 m ρ) c
    unfold Pipeline.ΦA at h
    rw [show (pdats m ρ 2 c).Φ 0 = (dat2 (Vr4 m ρ) c).Φ 0 from rfl]
    iintro ⟨Hp, -, Hr⟩
    iapply h
    isplitl [Hr]; · iexact Hr
    iexact Hp
  hout c := by
    have h := hout2 (Vr4 m ρ) c
    unfold Pipeline.ΦA at h
    rw [Pipeline.ownSems0_none, show (pdats m ρ 2 c).Φ (Fin.last _) = (dat2 (Vr4 m ρ) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3 over the thread state: entered from every unscoped buffer at W5, left at W6. Its arrays are split
    out of the unscoped buffers and put back at the exit contents; the generator register goes into the region
    invariant and comes out; nothing is owed; the kernel has no semaphore of its own. -/
def reg3 : Pipeline.RegionSeg (pcfgs (F := F)) adm (pdats m ρ) () defs₀ Vn Lz lvz 3 where
  win := launch3.win.to₀
  block_pos := launch3.block_pos
  stage_whole := launch3.stage_whole
  K := PEmpty
  osem k := k.elim
  ho := Pipeline.OwnSemFacts.none _
  hbody c := (body_obligation3 (Vr5 m ρ) c).loose
  hwaits := Pipeline.hwaits_of_owed_zero _ _ _ _ Lz lvz 3 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr5 m ρ c) (Vr6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 4 over the thread state: entered from every unscoped buffer at W7, left at W8. Its arrays are split
    out of the unscoped buffers and put back at the exit contents; the generator register goes into the region
    invariant and comes out; nothing is owed; the kernel has no semaphore of its own. -/
def reg4 : Pipeline.RegionSeg (pcfgs (F := F)) adm (pdats m ρ) () defs₀ Vn Lz lvz 4 where
  win := launch4.win.to₀
  block_pos := launch4.block_pos
  stage_whole := launch4.stage_whole
  K := PEmpty
  osem k := k.elim
  ho := Pipeline.OwnSemFacts.none _
  hbody c := (body_obligation4 (Vr7 m ρ) c).loose
  hwaits := Pipeline.hwaits_of_owed_zero _ _ _ _ Lz lvz 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vr7 m ρ) c
    unfold Pipeline.ΦA at h
    rw [show (pdats m ρ 4 c).Φ 0 = (dat4 (Vr7 m ρ) c).Φ 0 from rfl]
    iintro ⟨Hp, -, Hr⟩
    iapply h
    isplitl [Hr]; · iexact Hr
    iexact Hp
  hout c := by
    have h := hout4 (Vr7 m ρ) c
    unfold Pipeline.ΦA at h
    rw [Pipeline.ownSems0_none, show (pdats m ρ 4 c).Φ (Fin.last _) = (dat4 (Vr7 m ρ) c).Φ (Fin.last cfg4.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr7 m ρ c) (Vr8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev mainSegs : List (Pipeline.Seg (pcfgs (F := F)) adm (pdats m ρ) () defs₀ Vn Lz lvz) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .host (hseg hostOps5 hostOps5_sub hostOps5_fresh (W8 m ρ)),
    .host (hseg hostOps5_1 hostOps5_1_sub hostOps5_1_fresh (W9 m ρ)),
    .host (hseg hostOps5_2 hostOps5_2_sub hostOps5_2_fresh (W10 m ρ)) ]
/-- @main IS the run of the segments. -/
theorem main_run (c : Dev nD) : main (F := F) c = Pipeline.Seg.run (mainSegs m ρ) := (main_chain c).trans (by chain_rfl)

set_option backward.isDefEq.respectTransparency.types false in
/-- THE RUN. From any memory with zero counters every weakly fair execution of @main on the TensorCores terminates,
    nothing faulting, and every final state holds every unscoped buffer at the last boundary's contents W11. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ Vn Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => (show (iprop(StableHlo.held (c : Thread nD τ) (Pipeline.ucRefs τ sig) (W11 m ρ c) ∗ Rr c) : sProp 𝕄)
        ⊢ iprop(Tlast m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-! ## The arguments end as launched: no host stretch and no region writes one -/
theorem W11_main_arg0 (c : Dev nD) : W11 m ρ c (Proc.devRef .tc main_arg0) = m ((c : Thread nD τ).loc main_arg0) :=
  (W11_keep m ρ c main_arg0 (by decide)).trans <| (W10_keep m ρ c main_arg0 (by decide)).trans <| (W9_keep m ρ c main_arg0 (by decide)).trans <| (W8_of_ne m ρ c main_arg0 (by decide)).trans <| (W7_keep m ρ c main_arg0 (by decide)).trans <| (W6_of_ne m ρ c main_arg0 (by decide)).trans <| (W5_of_ne m ρ c main_arg0 (by decide)).trans <| (W4_keep m ρ c main_arg0 (by decide)).trans <| (W3_of_ne m ρ c main_arg0 (by decide)).trans <| (W2_keep m ρ c main_arg0 (by decide)).trans <| (W1_of_ne m ρ c main_arg0 (by decide)).trans rfl
theorem W11_main_arg1 (c : Dev nD) : W11 m ρ c (Proc.devRef .tc main_arg1) = m ((c : Thread nD τ).loc main_arg1) :=
  (W11_keep m ρ c main_arg1 (by decide)).trans <| (W10_keep m ρ c main_arg1 (by decide)).trans <| (W9_keep m ρ c main_arg1 (by decide)).trans <| (W8_of_ne m ρ c main_arg1 (by decide)).trans <| (W7_keep m ρ c main_arg1 (by decide)).trans <| (W6_of_ne m ρ c main_arg1 (by decide)).trans <| (W5_of_ne m ρ c main_arg1 (by decide)).trans <| (W4_keep m ρ c main_arg1 (by decide)).trans <| (W3_of_ne m ρ c main_arg1 (by decide)).trans <| (W2_keep m ρ c main_arg1 (by decide)).trans <| ((W1_arr m ρ c 0).trans (((dat0 (Vr0 m ρ) c).arrAt_in 0 rfl _).trans (A_eq0 (Vr0 m ρ) c 0))).trans rfl
theorem W11_main_arg2 (c : Dev nD) : W11 m ρ c (Proc.devRef .tc main_arg2) = m ((c : Thread nD τ).loc main_arg2) :=
  (W11_keep m ρ c main_arg2 (by decide)).trans <| (W10_keep m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_of_ne m ρ c main_arg2 (by decide)).trans <| (W4_keep m ρ c main_arg2 (by decide)).trans <| (W3_of_ne m ρ c main_arg2 (by decide)).trans <| (W2_keep m ρ c main_arg2 (by decide)).trans <| (W1_of_ne m ρ c main_arg2 (by decide)).trans rfl
theorem W11_main_arg3 (c : Dev nD) : W11 m ρ c (Proc.devRef .tc main_arg3) = m ((c : Thread nD τ).loc main_arg3) :=
  (W11_keep m ρ c main_arg3 (by decide)).trans <| (W10_keep m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_of_ne m ρ c main_arg3 (by decide)).trans <| (W4_keep m ρ c main_arg3 (by decide)).trans <| (W3_of_ne m ρ c main_arg3 (by decide)).trans <| (W2_keep m ρ c main_arg3 (by decide)).trans <| (W1_of_ne m ρ c main_arg3 (by decide)).trans rfl
theorem W11_main_arg4 (c : Dev nD) : W11 m ρ c (Proc.devRef .tc main_arg4) = m ((c : Thread nD τ).loc main_arg4) :=
  (W11_keep m ρ c main_arg4 (by decide)).trans <| (W10_keep m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_of_ne m ρ c main_arg4 (by decide)).trans <| (W4_keep m ρ c main_arg4 (by decide)).trans <| (W3_of_ne m ρ c main_arg4 (by decide)).trans <| (W2_keep m ρ c main_arg4 (by decide)).trans <| (W1_of_ne m ρ c main_arg4 (by decide)).trans rfl
theorem W11_main_arg5 (c : Dev nD) : W11 m ρ c (Proc.devRef .tc main_arg5) = m ((c : Thread nD τ).loc main_arg5) :=
  (W11_keep m ρ c main_arg5 (by decide)).trans <| (W10_keep m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_of_ne m ρ c main_arg5 (by decide)).trans <| (W4_keep m ρ c main_arg5 (by decide)).trans <| (W3_of_ne m ρ c main_arg5 (by decide)).trans <| (W2_keep m ρ c main_arg5 (by decide)).trans <| (W1_of_ne m ρ c main_arg5 (by decide)).trans rfl
theorem W11_main_arg6 (c : Dev nD) : W11 m ρ c (Proc.devRef .tc main_arg6) = m ((c : Thread nD τ).loc main_arg6) :=
  (W11_keep m ρ c main_arg6 (by decide)).trans <| (W10_keep m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_of_ne m ρ c main_arg6 (by decide)).trans <| (W4_keep m ρ c main_arg6 (by decide)).trans <| (W3_of_ne m ρ c main_arg6 (by decide)).trans <| (W2_keep m ρ c main_arg6 (by decide)).trans <| (W1_of_ne m ρ c main_arg6 (by decide)).trans rfl
theorem W11_main_arg7 (c : Dev nD) : W11 m ρ c (Proc.devRef .tc main_arg7) = m ((c : Thread nD τ).loc main_arg7) :=
  (W11_keep m ρ c main_arg7 (by decide)).trans <| (W10_keep m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_of_ne m ρ c main_arg7 (by decide)).trans <| (W4_keep m ρ c main_arg7 (by decide)).trans <| (W3_of_ne m ρ c main_arg7 (by decide)).trans <| (W2_keep m ρ c main_arg7 (by decide)).trans <| (W1_of_ne m ρ c main_arg7 (by decide)).trans rfl
theorem W11_main_arg8 (c : Dev nD) : W11 m ρ c (Proc.devRef .tc main_arg8) = m ((c : Thread nD τ).loc main_arg8) :=
  (W11_keep m ρ c main_arg8 (by decide)).trans <| (W10_keep m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_of_ne m ρ c main_arg8 (by decide)).trans <| (W4_keep m ρ c main_arg8 (by decide)).trans <| (W3_of_ne m ρ c main_arg8 (by decide)).trans <| (W2_keep m ρ c main_arg8 (by decide)).trans <| (W1_of_ne m ρ c main_arg8 (by decide)).trans rfl
theorem W11_main_arg9 (c : Dev nD) : W11 m ρ c (Proc.devRef .tc main_arg9) = m ((c : Thread nD τ).loc main_arg9) :=
  (W11_keep m ρ c main_arg9 (by decide)).trans <| (W10_keep m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_of_ne m ρ c main_arg9 (by decide)).trans <| (W4_keep m ρ c main_arg9 (by decide)).trans <| (W3_of_ne m ρ c main_arg9 (by decide)).trans <| (W2_keep m ρ c main_arg9 (by decide)).trans <| (W1_of_ne m ρ c main_arg9 (by decide)).trans rfl
theorem W11_main_arg10 (c : Dev nD) : W11 m ρ c (Proc.devRef .tc main_arg10) = m ((c : Thread nD τ).loc main_arg10) :=
  (W11_keep m ρ c main_arg10 (by decide)).trans <| (W10_keep m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_of_ne m ρ c main_arg10 (by decide)).trans <| (W4_keep m ρ c main_arg10 (by decide)).trans <| (W3_of_ne m ρ c main_arg10 (by decide)).trans <| (W2_keep m ρ c main_arg10 (by decide)).trans <| (W1_of_ne m ρ c main_arg10 (by decide)).trans rfl

/-- THE FRAME: from any memory with zero counters every weakly fair execution of @main terminates, nothing faulting,
    and every final state has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c)⟩) (run_all m ρ)

end Run

end Cert.Kernel.Hand

end
-- ==== Proof.Region0.lean ====
/-
  The first pallas_call: one pass over a 128-row band of the adjacency matrix. At grid point t the band is rows
  128·t … 128·t+127 of adj; the body adds the matching band of the identity (built from two iotas and a compare),
  stores the band of A + I, and stores the reciprocal square root of each row's sum. This module gives, for any
  contents V of the buffers at the region's entry: what each output's staging buffer holds after the body, the body's
  triple, the pipeline's proof data and the body obligation at every grid point.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band is in its staging buffer at every point, for any proof data whose array is V's and whose
    body leaves the band in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rBand : Rect S128x8192 := Rect.unit (s := S128x8192) ![0, 0] S128x8192.size inb_S128x8192_S128x8192_0_0
abbrev rCol : Rect S128x1 := Rect.unit (s := S128x1) ![0, 0] S128x1.size inb_S128x1_S128x1_0_0

/-! ## What the body leaves in each output's buffer -/

/-- The band of A + I (window 1) after the body at grid coordinates i, from the adjacency band x0. -/
def out0_1 (i : grid0.Coords) (x0 : Vec F S128x8192 .f32) : Vec F S128x8192 .bf16 :=
  View.canon [⟨rBand, k0_pay3 i (View.ld x0 rBand)⟩]

/-- The column of reciprocal square roots of the row sums (window 2) after the body. -/
def out0_2 (i : grid0.Coords) (x0 : Vec F S128x8192 .f32) : Vec F S128x1 .f32 :=
  View.canon [⟨rCol, k0_pay2 i (View.ld x0 rBand)⟩]

theorem cover0_1 (p0 : Vec F S128x8192 .bf16) (y : S128x8192.Idx) :
    ∃ pc ∈ ([⟨rBand, p0⟩] : List (View.Piece (Elt F) S128x8192 .bf16)), y ∈ pc.1.set :=
  View.cover_of_tiled [⟨rBand, p0⟩] S128x8192.size (by rfl) y

theorem cover0_2 (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 1000000 in
/-- The body on whole staging memrefs: the adjacency band is kept, the two outputs end at out0_1 and out0_2 of it
    whatever they held (the body reads them only to overwrite them whole). -/
theorem sound_kernel0 (c : Dev nD) (E : Set ℕ) (i : grid0.Coords)
    (arg1 : Memref sig .tc .vmem S128x8192 .f32) (harg1 : arg1.IsWhole)
    (arg2 : Memref sig .tc .vmem S128x8192 .bf16) (harg2 : arg2.IsWhole)
    (arg3 : Memref sig .tc .vmem S128x1 .f32) (harg3 : arg3.IsWhole)
    (x0 : Vec F S128x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 i x0)
            ∗ owns (c : Thread nD τ) arg3 fullShare (out0_2 i x0)) -∗ K ⟨⟩))
      ⊢ wp frame (wpE (defs₀ (F := F)) Variants.none c none) E (cc0__ai_deg_kernel i arg1 harg1 arg2 harg2 arg3 harg3) K := by
  simp only [cc0__ai_deg_kernel_eq_skeleton]; unfold cc0__ai_deg_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- On core c: the arrays as the region finds them; after the body at point t the adjacency band in place and each
    output at its function of the band; the invariant is the untouched scoped rest and generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second pallas_call: t = (x · W1) scaled row by row by the reciprocal square roots of the degrees, 2048 rows at a time.
  The grid is 4 row blocks by ONE step of the contraction, so at every point the accumulator is reset, receives the
  one block product, and is scaled row by row by the column of reciprocal square roots and stored: both of the body's
  conditionals on the contraction step hold at every point. The accumulator is a scratch buffer of the call's own; it
  is written before it is read at each point, so nothing is carried between points. This module gives, for any contents
  V of the buffers at the region's entry: the body's run, what it leaves in the output's staging buffer, the
  pipeline's proof data and the body obligation at every grid point.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import proofs.«124667_j47708496724388_2_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals: both hold at every point (the contraction axis has one step) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at any point: every input is read and the output is stored at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The staging memrefs and the accumulator -/

abbrev VO1_3 : View sig .tc .vmem S2048x512 .bf16 := (Memref.whole cc1_stg3_0 : Memref sig .tc .vmem S2048x512 .bf16).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .bf16 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1 : Memref sig .tc .vmem S2048x512 .f32 := Memref.whole cc1_scratch0

/-- The region invariant with the accumulator taken out of the scoped rest, owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's run: the pieces each buffer ends with, found by the run itself -/

set_option maxHeartbeats 1000000 in
/-- On whole staging memrefs, the three inputs at their contents, the output and the accumulator at anything: the body
    runs to the continuation with the inputs as they were and the output's and the accumulator's buffers written
    with the pieces L3 and LS (last first). -/
noncomputable def kernelRun1 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) :
    Σ' (L3 : List (View.Piece (Elt F) S2048x512 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__proj_kernel i arg2 harg2 arg3 harg3 arg4 harg4 arg5 harg5 arg6 harg6) K } := by
  refine ⟨?_, ?_, fun E K => ?run⟩
  case run =>
    simp only [cc1__proj_kernel_eq_skeleton]; unfold cc1__proj_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The output's pieces tile its block, so they cover it. -/
theorem cover1_3 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) (y : S2048x512.Idx) :
    ∃ pc ∈ (kernelRun1 c i arg2 harg2 arg3 harg3 arg4 harg4 arg5 harg5 arg6 harg6 hc0 hc1 x0 x1 x2).1, y ∈ pc.1.set :=
  View.cover_of_tiledL (kernelRun1 c i arg2 harg2 arg3 harg3 arg4 harg4 arg5 harg5 arg6 harg6 hc0 hc1 x0 x1 x2).1 S2048x512.size (by sl_kernel_rfl) y

/-- What the body leaves in the output's staging buffer: its pieces read back. -/
def out1_3 (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec F S2048x512 .bf16) (x1 : Vec F S512x512 .bf16) (x2 : Vec F S2048x1 .f32) : Vec F S2048x512 .bf16 :=
  VO1_3.read (Elt F) (VO1_3.writes (Elt F) VO1_3.junk (kernelRun1 c i arg2 harg2 arg3 harg3 arg4 harg4 arg5 harg5 arg6 harg6 hc0 hc1 x0 x1 x2).1)

/-! ## The pipeline's proof data -/

/-- On core c: the arrays as the region finds them; after the body at point t each input's buffer at its block and
    the output's at what the run leaves; the invariant the untouched scoped rest (the accumulator inside it, at
    anything) and generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) scM1 (Memref.isWhole_whole _) (hcond1_0 t) (hcond1_1 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) scM1 (Memref.isWhole_whole _) (hcond1_0 t) (hcond1_1 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' memrefs hold their blocks, the invariant lends the accumulator at anything
    and takes it back at anything, the output's buffer ends at what the run leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).Φ t.castSucc = Pipeline.ΦA spec1 c from rfl, PhiA1_eq]
  unfold out1_3
  iintro ⟨⟨⟨HS, Hrest⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  The third pallas_call: h = max((A + I) · t1 · dinv + b1, 0), rows in four bands of 2048, the contraction in eight
  blocks of 1024. Grid point t has coordinates (i, k), k the fast axis: the body zeroes the f32 accumulator when k = 0,
  adds the product of the (i, k) block of A + I with the k-th block of t1, and when k = 7 stores the scaled, biased,
  clamped accumulator, rounded to bf16, into the output band. The accumulator is carried from point to point; the
  output band is stored only at k = 7 and left as found elsewhere. This module gives, for any contents V of the
  buffers at the region's entry: the accumulator after each point, the body's triple in each of the three cases of
  k, the pipeline's proof data and the body obligation at every grid point.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block is in its staging buffer at every point, fetched there or not, for any proof data whose array
    is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rA2 : Rect S2048x1024 := Rect.unit (s := S2048x1024) ![0, 0] S2048x1024.size inb_S2048x1024_S2048x1024_0_0
abbrev rB2 : Rect S1024x512 := Rect.unit (s := S1024x512) ![0, 0] S1024x512.size inb_S1024x512_S1024x512_0_0
abbrev rAcc2 : Rect S2048x512 := Rect.unit (s := S2048x512) ![0, 0] S2048x512.size inb_S2048x512_S2048x512_0_0
abbrev rD2 : Rect S2048x1 := Rect.unit (s := S2048x1) ![0, 0] S2048x1.size inb_S2048x1_S2048x1_0_0
abbrev rBias2 : Rect S1x512 := Rect.unit (s := S1x512) ![0, 0] S1x512.size inb_S1x512_S1x512_0_0

/-! ## The body's two conditions on the coordinates, in closed form over the grid -/

/-- k = 0: the accumulator is zeroed first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- k = 7: the output band is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where k ≠ 7 the output band is idle and not written back; where k = 7 it is live. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## What the body leaves in the accumulator and in the output band -/

/-- The accumulator zeroed. -/
def zero2 : Vec F S2048x512 .f32 := View.canon [⟨rAcc2, k2_pay1 (F := F)⟩]

/-- The accumulator xs after one more block product a · b is added to it. -/
def step2 (xs : Vec F S2048x512 .f32) (a : Vec F S2048x1024 .bf16) (b : Vec F S1024x512 .bf16) : Vec F S2048x512 .f32 :=
  View.canon [⟨rAcc2, k2_pay2 (View.ld xs rAcc2) (View.ld a rA2) (View.ld b rB2)⟩]

/-- The output band from the finished accumulator, the band of dinv and the bias row. -/
def out2 (acc : Vec F S2048x512 .f32) (d : Vec F S2048x1 .f32) (bias : Vec F S1x512 .f32) : Vec F S2048x512 .bf16 :=
  View.canon [⟨rAcc2, k2_pay3 (View.ld acc rAcc2) (View.ld d rD2) (View.ld bias rBias2)⟩]

theorem coverAcc2 {e : EltTy} (p0 : rAcc2.shape.Idx → Elt F e) (y : S2048x512.Idx) :
    ∃ pc ∈ ([⟨rAcc2, p0⟩] : List (View.Piece (Elt F) S2048x512 e)), y ∈ pc.1.set :=
  View.cover_of_tiled [⟨rAcc2, p0⟩] S2048x512.size (by rfl) y

/-- Two stores in a row through one rectangle that holds every index: the buffer reads as the later store's payload. -/
theorem read_writes2_of_cover {sg : RefSig} {κ : Kind} {sp : Space} {s : Shape} {e : EltTy} (v : View sg κ sp s e) (f : v.ty.Contents (Elt F))
    (r : Rect s) (w1 w2 : r.shape.Idx → Elt F e)
    (hc : ∀ y : s.Idx, ∃ pc ∈ ([⟨r, w1⟩] : List (View.Piece (Elt F) s e)), y ∈ pc.1.set) :
    v.read (Elt F) (v.writes (Elt F) f [⟨r, w1⟩, ⟨r, w2⟩]) = View.canon [⟨r, w1⟩] := by
  funext y
  obtain ⟨pc, hm, hy⟩ := hc y
  rw [List.mem_singleton] at hm; subst hm
  obtain ⟨x, rfl⟩ : ∃ x, r.emb x = y := r.exists_idx_of_mem hy
  rw [View.read_writes_cons_emb, View.canon_cons_emb]

/-! ## The body's triple, case by case -/

set_option maxHeartbeats 1000000 in
/-- k = 0 (and k ≠ 7): whatever the accumulator held, it ends at the first block product over zero; the two matrix
    blocks are kept. The other three buffers are not touched. -/
theorem sound_kernel2_A (c : Dev nD) (E : Set ℕ) (i : grid2.Coords) (hc0 : cond2_0 i) (hc1 : ¬cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (K : PUnit → sProp 𝕄) :
    iprop(owns (c : Thread nD τ) arg2 fullShare a ∗ owns (c : Thread nD τ) arg3 fullShare b ∗ (∃ d, owns (c : Thread nD τ) arg7 fullShare d)
        ∗ (iprop(owns (c : Thread nD τ) arg2 fullShare a ∗ owns (c : Thread nD τ) arg3 fullShare b
            ∗ owns (c : Thread nD τ) arg7 fullShare (step2 zero2 a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel2_A.sl.v3 sound_kernel2_A.sl.HS_1
  rw [View.readCov_eq_canon_ld _ _ _ (coverAcc2 _)]
  exact read_writes2_of_cover _ _ _ _ _ (coverAcc2 _)

set_option maxHeartbeats 1000000 in
/-- 0 < k < 7: the accumulator gains one block product; the two matrix blocks are kept. The other three buffers are
    not touched. -/
theorem sound_kernel2_B (c : Dev nD) (E : Set ℕ) (i : grid2.Coords) (hc0 : ¬cond2_0 i) (hc1 : ¬cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (xs : Vec F S2048x512 .f32) (K : PUnit → sProp 𝕄) :
    iprop(owns (c : Thread nD τ) arg2 fullShare a ∗ owns (c : Thread nD τ) arg3 fullShare b ∗ owns (c : Thread nD τ) arg7 fullShare xs
        ∗ (iprop(owns (c : Thread nD τ) arg2 fullShare a ∗ owns (c : Thread nD τ) arg3 fullShare b
            ∗ owns (c : Thread nD τ) arg7 fullShare (step2 xs a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverAcc2 _)

set_option maxHeartbeats 1000000 in
/-- k = 7 (and k ≠ 0): the accumulator gains the last block product, and the output band, whatever it held, ends at
    out2 of the finished accumulator; the four inputs are kept. -/
theorem sound_kernel2_C (c : Dev nD) (E : Set ℕ) (i : grid2.Coords) (hc0 : ¬cond2_0 i) (hc1 : cond2_1 i)
    (arg2 : Memref sig .tc .vmem S2048x1024 .bf16) (harg2 : arg2.IsWhole)
    (arg3 : Memref sig .tc .vmem S1024x512 .bf16) (harg3 : arg3.IsWhole)
    (arg4 : Memref sig .tc .vmem S2048x1 .f32) (harg4 : arg4.IsWhole)
    (arg5 : Memref sig .tc .vmem S1x512 .f32) (harg5 : arg5.IsWhole)
    (arg6 : Memref sig .tc .vmem S2048x512 .bf16) (harg6 : arg6.IsWhole)
    (arg7 : Memref sig .tc .vmem S2048x512 .f32) (harg7 : arg7.IsWhole)
    (a : Vec F S2048x1024 .bf16) (b : Vec F S1024x512 .bf16) (xd : Vec F S2048x1 .f32) (xb : Vec F S1x512 .f32)
    (xs : Vec F S2048x512 .f32) (K : PUnit → sProp 𝕄) :
    iprop(owns (c : Thread nD τ) arg2 fullShare a ∗ owns (c : Thread nD τ) arg3 fullShare b ∗ owns (c : Thread nD τ) arg4 fullShare xd
        ∗ owns (c : Thread nD τ) arg5 fullShare xb ∗ (∃ d, owns (c : Thread nD τ) arg6 fullShare d) ∗ owns (c : Thread nD τ) arg7 fullShare xs
        ∗ (iprop(owns (c : Thread nD τ) arg2 fullShare a ∗ owns (c : Thread nD τ) arg3 fullShare b ∗ owns (c : Thread nD τ) arg4 fullShare xd
            ∗ owns (c : Thread nD τ) arg5 fullShare xb ∗ owns (c : Thread nD τ) arg6 fullShare (out2 (step2 xs a b) xd xb)
            ∗ owns (c : Thread nD τ) arg7 fullShare (step2 xs a b)) -∗ K ⟨⟩))
      ⊢ wp frame (wpE (defs₀ (F := F)) Variants.none c none) E (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel2_C.sl.v16 sound_kernel2_C.sl.HS_1
    rw [View.readCov_eq_canon_ld _ _ _ (coverAcc2 _)]
    exact View.read_writes_eq_canon _ _ _ (coverAcc2 _)
  iexists _; isplitr
  swap; · iexact HS
  ipureintro
  unfold sound_kernel2_C.sl.HS_1
  exact View.read_writes_eq_canon _ _ _ (coverAcc2 _)

/-! ## The accumulator after each point -/

/-- The scratch accumulator after the body at position n: restarted from zero where k = 0, else the point before's
    with this point's block product added. -/
def accAt2 (c : Dev nD) : (n : ℕ) → n < cfg2.N → Vec F S2048x512 .f32
  | 0, hn => step2 zero2 (iblk2 V c 0 ⟨0, hn⟩) (iblk2 V c 1 ⟨0, hn⟩)
  | n + 1, hn =>
    if (n + 1) % 8 = 0 then step2 zero2 (iblk2 V c 0 ⟨n + 1, hn⟩) (iblk2 V c 1 ⟨n + 1, hn⟩)
    else step2 (accAt2 c n (Nat.lt_of_succ_lt hn)) (iblk2 V c 0 ⟨n + 1, hn⟩) (iblk2 V c 1 ⟨n + 1, hn⟩)

/-- At a point with k = 0. -/
theorem accAt2_A (c : Dev nD) (t : Fin cfg2.N) (h0 : t.val % 8 = 0) :
    accAt2 V c t.val t.isLt = step2 zero2 (iblk2 V c 0 t) (iblk2 V c 1 t) := by
  obtain ⟨n, hn⟩ := t
  cases n with
  | zero => exact rfl
  | succ n => exact if_pos h0

/-- At a point with k ≠ 0: over what the point before left. -/
theorem accAt2_B (c : Dev nD) (t : Fin cfg2.N) (h0 : ¬t.val % 8 = 0) :
    accAt2 V c t.val t.isLt
      = step2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The invariant: the carried accumulator -/

/-- The call's scratch accumulator, a whole scoped buffer passed beside the windows. -/
abbrev scM2 : Memref sig .tc .vmem S2048x512 .f32 := Memref.whole cc2_scratch0

/-- The region's invariant with the accumulator taken out of the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

/-- The invariant before position n: before the first point the scoped rest and the generator register as the launch
    hands them; afterwards the accumulator at what the point before left, the other scoped buffers and the
    generator register. -/
def Phi2 (c : Dev nD) : (n : ℕ) → n ≤ cfg2.N → sProp 𝕄
  | 0, _ => Pipeline.ΦA spec2 c
  | n + 1, hn => iprop(iprop(owns (c : Thread nD τ) scM2 fullShare (accAt2 V c n hn)
      ∗ Pipeline.scopedRestBut (Ix := Unit) (Name := ℕ) (U := UR sig nD τ) (Lvl := ℕ) (Val := Elt F) spec2 c [cc2_scratch0])
    ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (accAt2 V c n hn)
      ∗ Pipeline.scopedRestBut (Ix := Unit) (Name := ℕ) (U := UR sig nD τ) (Lvl := ℕ) (Val := Elt F) spec2 c [cc2_scratch0])
    ∗ (∃ r, prngReg c r)) := rfl

theorem Phi2_pos (c : Dev nD) (n : ℕ) (h : n ≤ cfg2.N) (hz : n ≠ 0) :
    Phi2 V c n h = iprop(iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0])
    ∗ (∃ r, prngReg c r)) := by
  cases n with
  | zero => exact absurd rfl hz
  | succ n => rfl

/-! ## The pipeline's proof data -/

/-- On core c: the arrays as the region finds them; after the body at point t each input's block in place and the
    output band at out2 of the accumulator there (what the band holds where k = 7; elsewhere the band is idle and
    this is not consulted); the invariant carries the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 (accAt2 V c t.val t.isLt) (iblk2 V c 2 t) (iblk2 V c 3 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
/-- The output band after the body at point t (read where k = 7, the points that write it back). -/
theorem after2_4 (c : Dev nD) (t : Fin cfg2.N) :
    (dat2 V c).after 4 t = out2 (accAt2 V c t.val t.isLt) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (st2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (st2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (st2_3 t) fullShare (iblk2 V c 3 t) := by
  unfold Dat.leavesExact; rw [liveAt2_3 t, after2_3]
/-- Where k = 7 the output band is left at out2 of the accumulator there. -/
theorem leaves2_4_live (c : Dev nD) (t : Fin cfg2.N) (h : cond2_1 (grid2.coords t)) :
    (dat2 V c).leavesExact 4 t
      = owns (c : Thread nD τ) (st2_4 t) fullShare (out2 (accAt2 V c t.val t.isLt) (iblk2 V c 2 t) (iblk2 V c 3 t)) := by
  unfold Dat.leavesExact; rw [liveAt2_4 t h, after2_4]

set_option maxHeartbeats 4000000 in
/-- The body at any point: the inputs' buffers hold their blocks; the closed forms say which case the point is in;
    the invariant hands the body the accumulator at what the point before left (at anything before the first point)
    and takes it back at this point's contents; where k ≠ 7 the output band is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3]
  have hN : t.val < 32 := lt_of_lt_of_eq t.isLt (show cfg2.N = 32 from N_2)
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt2_A V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply (sound_kernel2_A c Set.univ (grid2.coords t) ((hcond2_0 t).mpr h0) (fun h => h1 ((hcond2_1 t).mp h)) _ _ _ _ _ _ _ _ _ _ _ _ (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel2_A c Set.univ (grid2.coords t) ((hcond2_0 t).mpr h0) (fun h => h1 ((hcond2_1 t).mp h)) _ _ _ _ _ _ _ _ _ _ _ _ (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [Phi2_castSucc V c t, Phi2_pos V c _ _ hz, accAt2_B V c t h0]
    by_cases h1 : t.val % 8 = 7
    · rw [leaves2_4_live V c t ((hcond2_1 t).mpr h1), accAt2_B V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel2_C c Set.univ (grid2.coords t) (fun h => h0 ((hcond2_0 t).mp h)) ((hcond2_1 t).mpr h1) _ _ _ _ _ _ _ _ _ _ _ _ (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      iintro ⟨⟨⟨HS, HR⟩, Hg⟩, Ho, ⟨%d0, H0⟩, ⟨%d1, H1⟩, ⟨%d2, H2⟩, ⟨%d3, H3⟩, ⟨%d4, H4⟩⟩
      iapply (sound_kernel2_B c Set.univ (grid2.coords t) (fun h => h0 ((hcond2_0 t).mp h)) (fun h => h1 ((hcond2_1 t).mp h)) _ _ _ _ _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After any point the invariant gives the launch's back: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 32 := N_2; omega)

end Cert.KernelIdeal.Hand

end
-- ==== Proof.Region3.lean ====
/-
  The fourth pallas_call: t = (h · W2) scaled row by row by the reciprocal square roots of the degrees, 2048 rows at a time.
  The grid is 4 row blocks by ONE step of the contraction, so at every point the accumulator is reset, receives the
  one block product, and is scaled row by row by the column of reciprocal square roots and stored: both of the body's
  conditionals on the contraction step hold at every point. The accumulator is a scratch buffer of the call's own; it
  is written before it is read at each point, so nothing is carried between points. This module gives, for any contents
  V of the buffers at the region's entry: the body's run, what it leaves in the output's staging buffer, the
  pipeline's proof data and the body obligation at every grid point.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import proofs.«124667_j47708496724388_2_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals: both hold at every point (the contraction axis has one step) -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-- No window is idle at any point: every input is read and the output is stored at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-! ## The staging memrefs and the accumulator -/

abbrev VO3_3 : View sig .tc .vmem S2048x256 .bf16 := (Memref.whole cc3_stg3_0 : Memref sig .tc .vmem S2048x256 .bf16).view
abbrev ms3_0 (t : Fin cfg3.N) : Memref sig .tc .vmem S2048x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .bf16 := win3_3.stage (cfg3.slots t 3)
abbrev hs3_3 (t : Fin cfg3.N) : (ms3_3 t).IsWhole := hstage3_3 ((cfg3.slots t 3).cast nbuf3_3)
/-- The accumulator: a whole scoped buffer of the call's own. -/
abbrev scM3 : Memref sig .tc .vmem S2048x256 .f32 := Memref.whole cc3_scratch0

/-- The region invariant with the accumulator taken out of the scoped rest, owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run: the pieces each buffer ends with, found by the run itself -/

set_option maxHeartbeats 1000000 in
/-- On whole staging memrefs, the three inputs at their contents, the output and the accumulator at anything: the body
    runs to the continuation with the inputs as they were and the output's and the accumulator's buffers written
    with the pieces L3 and LS (last first). -/
noncomputable def kernelRun3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) :
    Σ' (L3 : List (View.Piece (Elt F) S2048x256 .bf16)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc3__proj_kernel i arg2 harg2 arg3 harg3 arg4 harg4 arg5 harg5 arg6 harg6) K } := by
  refine ⟨?_, ?_, fun E K => ?run⟩
  case run =>
    simp only [cc3__proj_kernel_eq_skeleton]; unfold cc3__proj_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The output's pieces tile its block, so they cover it. -/
theorem cover3_3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) (y : S2048x256.Idx) :
    ∃ pc ∈ (kernelRun3 c i arg2 harg2 arg3 harg3 arg4 harg4 arg5 harg5 arg6 harg6 hc0 hc1 x0 x1 x2).1, y ∈ pc.1.set :=
  View.cover_of_tiledL (kernelRun3 c i arg2 harg2 arg3 harg3 arg4 harg4 arg5 harg5 arg6 harg6 hc0 hc1 x0 x1 x2).1 S2048x256.size (by sl_kernel_rfl) y

/-- What the body leaves in the output's staging buffer: its pieces read back. -/
def out3_3 (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec F S2048x512 .bf16) (x1 : Vec F S512x256 .bf16) (x2 : Vec F S2048x1 .f32) : Vec F S2048x256 .bf16 :=
  VO3_3.read (Elt F) (VO3_3.writes (Elt F) VO3_3.junk (kernelRun3 c i arg2 harg2 arg3 harg3 arg4 harg4 arg5 harg5 arg6 harg6 hc0 hc1 x0 x1 x2).1)

/-! ## The pipeline's proof data -/

/-- On core c: the arrays as the region finds them; after the body at point t each input's buffer at its block and
    the output's at what the run leaves; the invariant the untouched scoped rest (the accumulator inside it, at
    anything) and generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 c (grid3.coords t) (ms3_0 t) (hs3_0 t) (ms3_1 t) (hs3_1 t) (ms3_2 t) (hs3_2 t) (ms3_3 t) (hs3_3 t) scM3 (Memref.isWhole_whole _) (hcond3_0 t) (hcond3_1 t) (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1000000 in
/-- The body at any point: the inputs' memrefs hold their blocks, the invariant lends the accumulator at anything
    and takes it back at anything, the output's buffer ends at what the run leaves. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).Φ t.castSucc = Pipeline.ΦA spec3 c from rfl, PhiA3_eq]
  unfold out3_3
  iintro ⟨⟨⟨HS, Hrest⟩, Hg⟩, Ho, ⟨%d0, H0⟩, ⟨%d1, H1⟩, ⟨%d2, H2⟩, ⟨%d3, H3⟩⟩
  iapply ((kernelRun3 c (grid3.coords t) _ _ _ _ _ _ _ _ _ _ (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region4.lean ====
/-
  The fifth pallas_call: h2 = (A + I) · t2 · dinv + b2, rows in four bands of 2048, the contraction in eight blocks of
  1024. Grid point t has coordinates (i, k), k the fast axis: the body zeroes the f32 accumulator when k = 0, adds the
  product of the (i, k) block of A + I with the k-th block of t2, and when k = 7 stores the scaled, biased accumulator
  into the f32 output band. The accumulator is carried from point to point; the output band is stored only at k = 7
  and left as found elsewhere. This module gives, for any contents V of the buffers at the region's entry: the
  accumulator after each point, the body's triple in each of the three cases of k, the pipeline's proof data and the
  body obligation at every grid point.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block is in its staging buffer at every point, fetched there or not, for any proof data whose array
    is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rA4 : Rect S2048x1024 := Rect.unit (s := S2048x1024) ![0, 0] S2048x1024.size inb_S2048x1024_S2048x1024_0_0
abbrev rB4 : Rect S1024x256 := Rect.unit (s := S1024x256) ![0, 0] S1024x256.size inb_S1024x256_S1024x256_0_0
abbrev rAcc4 : Rect S2048x256 := Rect.unit (s := S2048x256) ![0, 0] S2048x256.size inb_S2048x256_S2048x256_0_0
abbrev rD4 : Rect S2048x1 := Rect.unit (s := S2048x1) ![0, 0] S2048x1.size inb_S2048x1_S2048x1_0_0
abbrev rBias4 : Rect S1x256 := Rect.unit (s := S1x256) ![0, 0] S1x256.size inb_S1x256_S1x256_0_0

/-! ## The body's two conditions on the coordinates, in closed form over the grid -/

/-- k = 0: the accumulator is zeroed first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- k = 7: the output band is stored. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Where k ≠ 7 the output band is idle and not written back; where k = 7 it is live. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## What the body leaves in the accumulator and in the output band -/

/-- The accumulator zeroed. -/
def zero4 : Vec F S2048x256 .f32 := View.canon [⟨rAcc4, k4_pay1 (F := F)⟩]

/-- The accumulator xs after one more block product a · b is added to it. -/
def step4 (xs : Vec F S2048x256 .f32) (a : Vec F S2048x1024 .bf16) (b : Vec F S1024x256 .bf16) : Vec F S2048x256 .f32 :=
  View.canon [⟨rAcc4, k4_pay2 (View.ld xs rAcc4) (View.ld a rA4) (View.ld b rB4)⟩]

/-- The output band from the finished accumulator, the band of dinv and the bias row. -/
def out4 (acc : Vec F S2048x256 .f32) (d : Vec F S2048x1 .f32) (bias : Vec F S1x256 .f32) : Vec F S2048x256 .f32 :=
  View.canon [⟨rAcc4, k4_pay3 (View.ld acc rAcc4) (View.ld d rD4) (View.ld bias rBias4)⟩]

theorem coverAcc4 {e : EltTy} (p0 : rAcc4.shape.Idx → Elt F e) (y : S2048x256.Idx) :
    ∃ pc ∈ ([⟨rAcc4, p0⟩] : List (View.Piece (Elt F) S2048x256 e)), y ∈ pc.1.set :=
  View.cover_of_tiled [⟨rAcc4, p0⟩] S2048x256.size (by rfl) y

/-- Two stores in a row through one rectangle that holds every index: the buffer reads as the later store's payload. -/
theorem read_writes4_of_cover {sg : RefSig} {κ : Kind} {sp : Space} {s : Shape} {e : EltTy} (v : View sg κ sp s e) (f : v.ty.Contents (Elt F))
    (r : Rect s) (w1 w2 : r.shape.Idx → Elt F e)
    (hc : ∀ y : s.Idx, ∃ pc ∈ ([⟨r, w1⟩] : List (View.Piece (Elt F) s e)), y ∈ pc.1.set) :
    v.read (Elt F) (v.writes (Elt F) f [⟨r, w1⟩, ⟨r, w2⟩]) = View.canon [⟨r, w1⟩] := by
  funext y
  obtain ⟨pc, hm, hy⟩ := hc y
  rw [List.mem_singleton] at hm; subst hm
  obtain ⟨x, rfl⟩ : ∃ x, r.emb x = y := r.exists_idx_of_mem hy
  rw [View.read_writes_cons_emb, View.canon_cons_emb]

/-! ## The body's triple, case by case -/

set_option maxHeartbeats 1000000 in
/-- k = 0 (and k ≠ 7): whatever the accumulator held, it ends at the first block product over zero; the two matrix
    blocks are kept. The other three buffers are not touched. -/
theorem sound_kernel4_A (c : Dev nD) (E : Set ℕ) (i : grid4.Coords) (hc0 : cond4_0 i) (hc1 : ¬cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (K : PUnit → sProp 𝕄) :
    iprop(owns (c : Thread nD τ) arg2 fullShare a ∗ owns (c : Thread nD τ) arg3 fullShare b ∗ (∃ d, owns (c : Thread nD τ) arg7 fullShare d)
        ∗ (iprop(owns (c : Thread nD τ) arg2 fullShare a ∗ owns (c : Thread nD τ) arg3 fullShare b
            ∗ owns (c : Thread nD τ) arg7 fullShare (step4 zero4 a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel4_A.sl.v3 sound_kernel4_A.sl.HS_1
  rw [View.readCov_eq_canon_ld _ _ _ (coverAcc4 _)]
  exact read_writes4_of_cover _ _ _ _ _ (coverAcc4 _)

set_option maxHeartbeats 1000000 in
/-- 0 < k < 7: the accumulator gains one block product; the two matrix blocks are kept. The other three buffers are
    not touched. -/
theorem sound_kernel4_B (c : Dev nD) (E : Set ℕ) (i : grid4.Coords) (hc0 : ¬cond4_0 i) (hc1 : ¬cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (xs : Vec F S2048x256 .f32) (K : PUnit → sProp 𝕄) :
    iprop(owns (c : Thread nD τ) arg2 fullShare a ∗ owns (c : Thread nD τ) arg3 fullShare b ∗ owns (c : Thread nD τ) arg7 fullShare xs
        ∗ (iprop(owns (c : Thread nD τ) arg2 fullShare a ∗ owns (c : Thread nD τ) arg3 fullShare b
            ∗ owns (c : Thread nD τ) arg7 fullShare (step4 xs a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverAcc4 _)

set_option maxHeartbeats 1000000 in
/-- k = 7 (and k ≠ 0): the accumulator gains the last block product, and the output band, whatever it held, ends at
    out4 of the finished accumulator; the four inputs are kept. -/
theorem sound_kernel4_C (c : Dev nD) (E : Set ℕ) (i : grid4.Coords) (hc0 : ¬cond4_0 i) (hc1 : cond4_1 i)
    (arg2 : Memref sig .tc .vmem S2048x1024 .bf16) (harg2 : arg2.IsWhole)
    (arg3 : Memref sig .tc .vmem S1024x256 .bf16) (harg3 : arg3.IsWhole)
    (arg4 : Memref sig .tc .vmem S2048x1 .f32) (harg4 : arg4.IsWhole)
    (arg5 : Memref sig .tc .vmem S1x256 .f32) (harg5 : arg5.IsWhole)
    (arg6 : Memref sig .tc .vmem S2048x256 .f32) (harg6 : arg6.IsWhole)
    (arg7 : Memref sig .tc .vmem S2048x256 .f32) (harg7 : arg7.IsWhole)
    (a : Vec F S2048x1024 .bf16) (b : Vec F S1024x256 .bf16) (xd : Vec F S2048x1 .f32) (xb : Vec F S1x256 .f32)
    (xs : Vec F S2048x256 .f32) (K : PUnit → sProp 𝕄) :
    iprop(owns (c : Thread nD τ) arg2 fullShare a ∗ owns (c : Thread nD τ) arg3 fullShare b ∗ owns (c : Thread nD τ) arg4 fullShare xd
        ∗ owns (c : Thread nD τ) arg5 fullShare xb ∗ (∃ d, owns (c : Thread nD τ) arg6 fullShare d) ∗ owns (c : Thread nD τ) arg7 fullShare xs
        ∗ (iprop(owns (c : Thread nD τ) arg2 fullShare a ∗ owns (c : Thread nD τ) arg3 fullShare b ∗ owns (c : Thread nD τ) arg4 fullShare xd
            ∗ owns (c : Thread nD τ) arg5 fullShare xb ∗ owns (c : Thread nD τ) arg6 fullShare (out4 (step4 xs a b) xd xb)
            ∗ owns (c : Thread nD τ) arg7 fullShare (step4 xs a b)) -∗ K ⟨⟩))
      ⊢ wp frame (wpE (defs₀ (F := F)) Variants.none c none) E (cc4_kernel i arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold sound_kernel4_C.sl.v16 sound_kernel4_C.sl.HS_1
    rw [View.readCov_eq_canon_ld _ _ _ (coverAcc4 _)]
    exact View.read_writes_eq_canon _ _ _ (coverAcc4 _)
  iexists _; isplitr
  swap; · iexact HS
  ipureintro
  unfold sound_kernel4_C.sl.HS_1
  exact View.read_writes_eq_canon _ _ _ (coverAcc4 _)

/-! ## The accumulator after each point -/

/-- The scratch accumulator after the body at position n: restarted from zero where k = 0, else the point before's
    with this point's block product added. -/
def accAt4 (c : Dev nD) : (n : ℕ) → n < cfg4.N → Vec F S2048x256 .f32
  | 0, hn => step4 zero4 (iblk4 V c 0 ⟨0, hn⟩) (iblk4 V c 1 ⟨0, hn⟩)
  | n + 1, hn =>
    if (n + 1) % 8 = 0 then step4 zero4 (iblk4 V c 0 ⟨n + 1, hn⟩) (iblk4 V c 1 ⟨n + 1, hn⟩)
    else step4 (accAt4 c n (Nat.lt_of_succ_lt hn)) (iblk4 V c 0 ⟨n + 1, hn⟩) (iblk4 V c 1 ⟨n + 1, hn⟩)

/-- At a point with k = 0. -/
theorem accAt4_A (c : Dev nD) (t : Fin cfg4.N) (h0 : t.val % 8 = 0) :
    accAt4 V c t.val t.isLt = step4 zero4 (iblk4 V c 0 t) (iblk4 V c 1 t) := by
  obtain ⟨n, hn⟩ := t
  cases n with
  | zero => exact rfl
  | succ n => exact if_pos h0

/-- At a point with k ≠ 0: over what the point before left. -/
theorem accAt4_B (c : Dev nD) (t : Fin cfg4.N) (h0 : ¬t.val % 8 = 0) :
    accAt4 V c t.val t.isLt
      = step4 (accAt4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h0
  | succ n => exact if_neg h0

/-! ## The invariant: the carried accumulator -/

/-- The call's scratch accumulator, a whole scoped buffer passed beside the windows. -/
abbrev scM4 : Memref sig .tc .vmem S2048x256 .f32 := Memref.whole cc4_scratch0

/-- The region's invariant with the accumulator taken out of the scoped rest. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- The invariant before position n: before the first point the scoped rest and the generator register as the launch
    hands them; afterwards the accumulator at what the point before left, the other scoped buffers and the
    generator register. -/
def Phi4 (c : Dev nD) : (n : ℕ) → n ≤ cfg4.N → sProp 𝕄
  | 0, _ => Pipeline.ΦA spec4 c
  | n + 1, hn => iprop(iprop(owns (c : Thread nD τ) scM4 fullShare (accAt4 V c n hn)
      ∗ Pipeline.scopedRestBut (Ix := Unit) (Name := ℕ) (U := UR sig nD τ) (Lvl := ℕ) (Val := Elt F) spec4 c [cc4_scratch0])
    ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (accAt4 V c n hn)
      ∗ Pipeline.scopedRestBut (Ix := Unit) (Name := ℕ) (U := UR sig nD τ) (Lvl := ℕ) (Val := Elt F) spec4 c [cc4_scratch0])
    ∗ (∃ r, prngReg c r)) := rfl

theorem Phi4_pos (c : Dev nD) (n : ℕ) (h : n ≤ cfg4.N) (hz : n ≠ 0) :
    Phi4 V c n h = iprop(iprop(owns (c : Thread nD τ) scM4 fullShare (accAt4 V c (n - 1) (by omega))
      ∗ Pipeline.scopedRestBut (Ix := Unit) (Name := ℕ) (U := UR sig nD τ) (Lvl := ℕ) (Val := Elt F) spec4 c [cc4_scratch0])
    ∗ (∃ r, prngReg c r)) := by
  cases n with
  | zero => exact absurd rfl hz
  | succ n => rfl

/-! ## The pipeline's proof data -/

/-- On core c: the arrays as the region finds them; after the body at point t each input's block in place and the
    output band at out4 of the accumulator there (what the band holds where k = 7; elsewhere the band is idle and
    this is not consulted); the invariant carries the accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (accAt4 V c t.val t.isLt) (iblk4 V c 2 t) (iblk4 V c 3 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
/-- The output band after the body at point t (read where k = 7, the points that write it back). -/
theorem after4_4 (c : Dev nD) (t : Fin cfg4.N) :
    (dat4 V c).after 4 t = out4 (accAt4 V c t.val t.isLt) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]
/-- Where k = 7 the output band is left at out4 of the accumulator there. -/
theorem leaves4_4_live (c : Dev nD) (t : Fin cfg4.N) (h : cond4_1 (grid4.coords t)) :
    (dat4 V c).leavesExact 4 t
      = owns (c : Thread nD τ) (st4_4 t) fullShare (out4 (accAt4 V c t.val t.isLt) (iblk4 V c 2 t) (iblk4 V c 3 t)) := by
  unfold Dat.leavesExact; rw [liveAt4_4 t h, after4_4]

set_option maxHeartbeats 4000000 in
/-- The body at any point: the inputs' buffers hold their blocks; the closed forms say which case the point is in;
    the invariant hands the body the accumulator at what the point before left (at anything before the first point)
    and takes it back at this point's contents; where k ≠ 7 the output band is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3]
  have hN : t.val < 32 := lt_of_lt_of_eq t.isLt (show cfg4.N = 32 from N_4)
  by_cases h0 : t.val % 8 = 0
  · have h1 : ¬t.val % 8 = 7 := by omega
    rw [Dat.leavesExact_idle (dat4 V c) 4 t (idleAt4_4 t (fun h => h1 ((hcond4_1 t).mp h))) (noFlush4_4 t (fun h => h1 ((hcond4_1 t).mp h)))]
    rw [accAt4_A V c t h0]
    by_cases hz : t.val = 0
    · rw [Phi4_castSucc V c t, Phi4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ (grid4.coords t) ((hcond4_0 t).mpr h0) (fun h => h1 ((hcond4_1 t).mp h)) _ _ _ _ _ _ _ _ _ _ _ _ (iblk4 V c 0 t) (iblk4 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi4_castSucc V c t, Phi4_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ (grid4.coords t) ((hcond4_0 t).mpr h0) (fun h => h1 ((hcond4_1 t).mp h)) _ _ _ _ _ _ _ _ _ _ _ _ (iblk4 V c 0 t) (iblk4 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [Phi4_castSucc V c t, Phi4_pos V c _ _ hz, accAt4_B V c t h0]
    by_cases h1 : t.val % 8 = 7
    · rw [leaves4_4_live V c t ((hcond4_1 t).mpr h1), accAt4_B V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel4_C c Set.univ (grid4.coords t) (fun h => h0 ((hcond4_0 t).mp h)) ((hcond4_1 t).mpr h1) _ _ _ _ _ _ _ _ _ _ _ _ (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      iintro ⟨⟨⟨HS, HR⟩, Hg⟩, Ho, ⟨%d0, H0⟩, ⟨%d1, H1⟩, ⟨%d2, H2⟩, ⟨%d3, H3⟩, ⟨%d4, H4⟩⟩
      iapply (sound_kernel4_B c Set.univ (grid4.coords t) (fun h => h0 ((hcond4_0 t).mp h)) (fun h => h1 ((hcond4_1 t).mp h)) _ _ _ _ _ _ _ _ _ _ _ _ (iblk4 V c 0 t) (iblk4 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]

/-- After any point the invariant gives the launch's back: the accumulator's contents are forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]; · iexists _; iexact HS
    iexact HR
  iexact Hg

theorem hout4 (c : Dev nD) : (dat4 V c).Φ (Fin.last cfg4.N) ⊢ Pipeline.ΦA spec4 c :=
  Phi4_out V c _ (by rw [Fin.val_last]; have : cfg4.N = 32 := N_4; omega)

end Cert.KernelIdeal.Hand

end
-- ==== Proof.Run.lean ====
/-
  The run of @main through its eleven segments — five pallas_calls among six stretches of host operations — from the
  launch memory to the return: the buffers' contents at each boundary as a fold from the launch memory, each call
  entered from the contents the segment before it left and left with its arrays at what its pipeline computes; every
  execution terminates without a fault, the final memory holds every buffer at the last boundary's contents, and in
  particular every argument array as launched.
-/
import proofs.«124667_j47708496724388_2_alg».proof.Proof.Gen.KernelIdeal.Launch
import proofs.«124667_j47708496724388_2_alg».proof.Proof.Gen.KernelIdeal.Skeleton
import proofs.«124667_j47708496724388_2_alg».proof.Proof.Gen.KernelIdeal.Points
import proofs.«124667_j47708496724388_2_alg».proof.Proof.Region0
import proofs.«124667_j47708496724388_2_alg».proof.Proof.Region1
import proofs.«124667_j47708496724388_2_alg».proof.Proof.Region2
import proofs.«124667_j47708496724388_2_alg».proof.Proof.Region3
import proofs.«124667_j47708496724388_2_alg».proof.Proof.Region4
import proofs.«124667_j47708496724388_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

section Run

variable (m : (ℓ : Loc nD τ sig) → Buf (Elt F) ℓ) (ρ : Dev nD → PrngReg)

/-! ## The buffers' contents at each boundary of @main: a fold from the launch memory -/

/-- Core c's buffers at launch. -/
abbrev W0 : Dev nD → Valuation τ sig (Elt F) := fun c b => (s₀ m ρ).mem ((c : Dev nD), b)
abbrev Vr0 : (c : Dev nD) → (b : Ref sig .tc) → Buf (Elt F) ((c : Thread nD τ).loc b) := fun c b => W0 m ρ c b
/-- At pallas_call 0's exit: its arrays at what the pipeline leaves (the inputs as entered, each output's write-backs
    folded), every other buffer as entered. -/
def W1 (c : Dev nD) : Valuation τ sig (Elt F) :=
  Pipeline.withArrays spec0 c (W0 m ρ c) fun w => (dat0 (Vr0 m ρ) c).arrAt w cfg0.N
theorem W1_arr (c : Dev nD) (w : Fin cfg0.W) :
    W1 m ρ c (Proc.devRef .tc (Pipeline.arrRef spec0 w)) = (dat0 (Vr0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vr1 : (c : Dev nD) → (b : Ref sig .tc) → Buf (Elt F) ((c : Thread nD τ).loc b) := fun c b => W1 m ρ c b
theorem hF0 (c : Dev nD) (w : Fin cfg0.W) : (dat0 (Vr0 m ρ) c).arrAt w cfg0.N = Vr1 m ρ c (Pipeline.arrRef spec0 w) :=
  (W1_arr m ρ c w).symm
theorem hrest0 (c : Dev nD) : ∀ b, b ∉ Finset.univ.image (Pipeline.arrRef spec0) → Vr1 m ρ c b = Vr0 m ρ c b :=
  fun b hb => W1_of_ne m ρ c b fun w e => hb (Finset.mem_image.mpr ⟨w, Finset.mem_univ _, e⟩)
/-- After the host stretch hostOps1. -/
abbrev W2 : Dev nD → Valuation τ sig (Elt F) := fun c => StableHlo.after hostOps1 (W1 m ρ c)
abbrev Vr2 : (c : Dev nD) → (b : Ref sig .tc) → Buf (Elt F) ((c : Thread nD τ).loc b) := fun c b => W2 m ρ c b
theorem W2_keep (c : Dev nD) (r : Ref sig .tc) (h : r ∉ hostOps1_W) : W2 m ρ c r = W1 m ρ c r :=
  StableHlo.after_of_writes_sub hostOps1 _ hostOps1_writes h
/-- At pallas_call 1's exit: its arrays at what the pipeline leaves (the inputs as entered, each output's write-backs
    folded), every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)
/-- After the host stretch hostOps2. -/
abbrev W4 : Dev nD → Valuation τ sig (Elt F) := fun c => StableHlo.after hostOps2 (W3 m ρ c)
abbrev Vr4 : (c : Dev nD) → (b : Ref sig .tc) → Buf (Elt F) ((c : Thread nD τ).loc b) := fun c b => W4 m ρ c b
theorem W4_keep (c : Dev nD) (r : Ref sig .tc) (h : r ∉ hostOps2_W) : W4 m ρ c r = W3 m ρ c r :=
  StableHlo.after_of_writes_sub hostOps2 _ hostOps2_writes h
/-- At pallas_call 2's exit: its arrays at what the pipeline leaves (the inputs as entered, each output's write-backs
    folded), every other buffer as entered. -/
def W5 (c : Dev nD) : Valuation τ sig (Elt F) :=
  Pipeline.withArrays spec2 c (W4 m ρ c) fun w => (dat2 (Vr4 m ρ) c).arrAt w cfg2.N
theorem W5_arr (c : Dev nD) (w : Fin cfg2.W) :
    W5 m ρ c (Proc.devRef .tc (Pipeline.arrRef spec2 w)) = (dat2 (Vr4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev Vr5 : (c : Dev nD) → (b : Ref sig .tc) → Buf (Elt F) ((c : Thread nD τ).loc b) := fun c b => W5 m ρ c b
theorem hF2 (c : Dev nD) (w : Fin cfg2.W) : (dat2 (Vr4 m ρ) c).arrAt w cfg2.N = Vr5 m ρ c (Pipeline.arrRef spec2 w) :=
  (W5_arr m ρ c w).symm
theorem hrest2 (c : Dev nD) : ∀ b, b ∉ Finset.univ.image (Pipeline.arrRef spec2) → Vr5 m ρ c b = Vr4 m ρ c b :=
  fun b hb => W5_of_ne m ρ c b fun w e => hb (Finset.mem_image.mpr ⟨w, Finset.mem_univ _, e⟩)
/-- At pallas_call 3's exit: its arrays at what the pipeline leaves (the inputs as entered, each output's write-backs
    folded), every other buffer as entered. -/
def W6 (c : Dev nD) : Valuation τ sig (Elt F) :=
  Pipeline.withArrays spec3 c (W5 m ρ c) fun w => (dat3 (Vr5 m ρ) c).arrAt w cfg3.N
theorem W6_arr (c : Dev nD) (w : Fin cfg3.W) :
    W6 m ρ c (Proc.devRef .tc (Pipeline.arrRef spec3 w)) = (dat3 (Vr5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev Vr6 : (c : Dev nD) → (b : Ref sig .tc) → Buf (Elt F) ((c : Thread nD τ).loc b) := fun c b => W6 m ρ c b
theorem hF3 (c : Dev nD) (w : Fin cfg3.W) : (dat3 (Vr5 m ρ) c).arrAt w cfg3.N = Vr6 m ρ c (Pipeline.arrRef spec3 w) :=
  (W6_arr m ρ c w).symm
theorem hrest3 (c : Dev nD) : ∀ b, b ∉ Finset.univ.image (Pipeline.arrRef spec3) → Vr6 m ρ c b = Vr5 m ρ c b :=
  fun b hb => W6_of_ne m ρ c b fun w e => hb (Finset.mem_image.mpr ⟨w, Finset.mem_univ _, e⟩)
/-- After the host stretch hostOps4. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b
theorem W7_keep (c : Dev nD) (r : Ref sig .tc) (h : r ∉ hostOps4_W) : W7 m ρ c r = W6 m ρ c r :=
  StableHlo.after_of_writes_sub hostOps4 _ hostOps4_writes h
/-- At pallas_call 4's exit: its arrays at what the pipeline leaves (the inputs as entered, each output's write-backs
    folded), every other buffer as entered. -/
def W8 (c : Dev nD) : Valuation τ sig (Elt F) :=
  Pipeline.withArrays spec4 c (W7 m ρ c) fun w => (dat4 (Vr7 m ρ) c).arrAt w cfg4.N
theorem W8_arr (c : Dev nD) (w : Fin cfg4.W) :
    W8 m ρ c (Proc.devRef .tc (Pipeline.arrRef spec4 w)) = (dat4 (Vr7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev Vr8 : (c : Dev nD) → (b : Ref sig .tc) → Buf (Elt F) ((c : Thread nD τ).loc b) := fun c b => W8 m ρ c b
theorem hF4 (c : Dev nD) (w : Fin cfg4.W) : (dat4 (Vr7 m ρ) c).arrAt w cfg4.N = Vr8 m ρ c (Pipeline.arrRef spec4 w) :=
  (W8_arr m ρ c w).symm
theorem hrest4 (c : Dev nD) : ∀ b, b ∉ Finset.univ.image (Pipeline.arrRef spec4) → Vr8 m ρ c b = Vr7 m ρ c b :=
  fun b hb => W8_of_ne m ρ c b fun w e => hb (Finset.mem_image.mpr ⟨w, Finset.mem_univ _, e⟩)
/-- After the host stretch hostOps5. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b
theorem W9_keep (c : Dev nD) (r : Ref sig .tc) (h : r ∉ hostOps5_W) : W9 m ρ c r = W8 m ρ c r :=
  StableHlo.after_of_writes_sub hostOps5 _ hostOps5_writes h
/-- After the host stretch hostOps5_1. -/
abbrev W10 : Dev nD → Valuation τ sig (Elt F) := fun c => StableHlo.after hostOps5_1 (W9 m ρ c)
abbrev Vr10 : (c : Dev nD) → (b : Ref sig .tc) → Buf (Elt F) ((c : Thread nD τ).loc b) := fun c b => W10 m ρ c b
theorem W10_keep (c : Dev nD) (r : Ref sig .tc) (h : r ∉ hostOps5_1_W) : W10 m ρ c r = W9 m ρ c r :=
  StableHlo.after_of_writes_sub hostOps5_1 _ hostOps5_1_writes h
/-- After the host stretch hostOps5_2. -/
abbrev W11 : Dev nD → Valuation τ sig (Elt F) := fun c => StableHlo.after hostOps5_2 (W10 m ρ c)
abbrev Vr11 : (c : Dev nD) → (b : Ref sig .tc) → Buf (Elt F) ((c : Thread nD τ).loc b) := fun c b => W11 m ρ c b
theorem W11_keep (c : Dev nD) (r : Ref sig .tc) (h : r ∉ hostOps5_2_W) : W11 m ρ c r = W10 m ρ c r :=
  StableHlo.after_of_writes_sub hostOps5_2 _ hostOps5_2_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr2 m ρ) c
  | ⟨2, _⟩ => fun c => dat2 (Vr4 m ρ) c
  | ⟨3, _⟩ => fun c => dat3 (Vr5 m ρ) c
  | ⟨4, _⟩ => fun c => dat4 (Vr7 m ρ) c
abbrev Vn : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents. -/
abbrev Tlast (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- pallas_call 0 over the thread state: entered from every unscoped buffer at W0, left at W1. Its arrays are split
    out of the unscoped buffers and put back at the exit contents; the generator register goes into the region
    invariant and comes out; nothing is owed; the kernel has no semaphore of its own. -/
def reg0 : Pipeline.RegionSeg (pcfgs (F := F)) adm (pdats m ρ) () defs₀ Vn Lz lvz 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ Lz lvz 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Vr1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at W2, left at W3. Its arrays are split
    out of the unscoped buffers and put back at the exit contents; the generator register goes into the region
    invariant and comes out; nothing is owed; the kernel has no semaphore of its own. -/
def reg1 : Pipeline.RegionSeg (pcfgs (F := F)) adm (pdats m ρ) () defs₀ Vn Lz lvz 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ Lz lvz 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2 over the thread state: entered from every unscoped buffer at W4, left at W5. Its arrays are split
    out of the unscoped buffers and put back at the exit contents; the generator register goes into the region
    invariant and comes out; nothing is owed; the kernel has no semaphore of its own. -/
def reg2 : Pipeline.RegionSeg (pcfgs (F := F)) adm (pdats m ρ) () defs₀ Vn Lz lvz 2 where
  win := launch2.win.to₀
  block_pos := launch2.block_pos
  stage_whole := launch2.stage_whole
  K := PEmpty
  osem k := k.elim
  ho := Pipeline.OwnSemFacts.none _
  hbody c := (body_obligation2 (Vr4 m ρ) c).loose
  hwaits := Pipeline.hwaits_of_owed_zero _ _ _ _ Lz lvz 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Vr4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr4 m ρ) c
    unfold Pipeline.ΦA at h
    rw [show (pdats m ρ 2 c).Φ 0 = (dat2 (Vr4 m ρ) c).Φ 0 from rfl]
    iintro ⟨Hp, -, Hr⟩
    iapply h
    isplitl [Hr]; · iexact Hr
    iexact Hp
  hout c := by
    have h := hout2 (Vr4 m ρ) c
    unfold Pipeline.ΦA at h
    rw [Pipeline.ownSems0_none, show (pdats m ρ 2 c).Φ (Fin.last _) = (dat2 (Vr4 m ρ) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr4 m ρ c) (Vr5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3 over the thread state: entered from every unscoped buffer at W5, left at W6. Its arrays are split
    out of the unscoped buffers and put back at the exit contents; the generator register goes into the region
    invariant and comes out; nothing is owed; the kernel has no semaphore of its own. -/
def reg3 : Pipeline.RegionSeg (pcfgs (F := F)) adm (pdats m ρ) () defs₀ Vn Lz lvz 3 where
  win := launch3.win.to₀
  block_pos := launch3.block_pos
  stage_whole := launch3.stage_whole
  K := PEmpty
  osem k := k.elim
  ho := Pipeline.OwnSemFacts.none _
  hbody c := (body_obligation3 (Vr5 m ρ) c).loose
  hwaits := Pipeline.hwaits_of_owed_zero _ _ _ _ Lz lvz 3 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr5 m ρ c) (Vr6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 4 over the thread state: entered from every unscoped buffer at W7, left at W8. Its arrays are split
    out of the unscoped buffers and put back at the exit contents; the generator register goes into the region
    invariant and comes out; nothing is owed; the kernel has no semaphore of its own. -/
def reg4 : Pipeline.RegionSeg (pcfgs (F := F)) adm (pdats m ρ) () defs₀ Vn Lz lvz 4 where
  win := launch4.win.to₀
  block_pos := launch4.block_pos
  stage_whole := launch4.stage_whole
  K := PEmpty
  osem k := k.elim
  ho := Pipeline.OwnSemFacts.none _
  hbody c := (body_obligation4 (Vr7 m ρ) c).loose
  hwaits := Pipeline.hwaits_of_owed_zero _ _ _ _ Lz lvz 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vr7 m ρ) c
    unfold Pipeline.ΦA at h
    rw [show (pdats m ρ 4 c).Φ 0 = (dat4 (Vr7 m ρ) c).Φ 0 from rfl]
    iintro ⟨Hp, -, Hr⟩
    iapply h
    isplitl [Hr]; · iexact Hr
    iexact Hp
  hout c := by
    have h := hout4 (Vr7 m ρ) c
    unfold Pipeline.ΦA at h
    rw [Pipeline.ownSems0_none, show (pdats m ρ 4 c).Φ (Fin.last _) = (dat4 (Vr7 m ρ) c).Φ (Fin.last cfg4.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr7 m ρ c) (Vr8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev mainSegs : List (Pipeline.Seg (pcfgs (F := F)) adm (pdats m ρ) () defs₀ Vn Lz lvz) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .host (hseg hostOps5 hostOps5_sub hostOps5_fresh (W8 m ρ)),
    .host (hseg hostOps5_1 hostOps5_1_sub hostOps5_1_fresh (W9 m ρ)),
    .host (hseg hostOps5_2 hostOps5_2_sub hostOps5_2_fresh (W10 m ρ)) ]
/-- @main IS the run of the segments. -/
theorem main_run (c : Dev nD) : main (F := F) c = Pipeline.Seg.run (mainSegs m ρ) := (main_chain c).trans (by chain_rfl)

set_option backward.isDefEq.respectTransparency.types false in
/-- THE RUN. From any memory with zero counters every weakly fair execution of @main on the TensorCores terminates,
    nothing faulting, and every final state holds every unscoped buffer at the last boundary's contents W11. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ Vn Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => (show (iprop(StableHlo.held (c : Thread nD τ) (Pipeline.ucRefs τ sig) (W11 m ρ c) ∗ Rr c) : sProp 𝕄)
        ⊢ iprop(Tlast m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-! ## The arguments end as launched: no host stretch and no region writes one -/
theorem W11_main_arg0 (c : Dev nD) : W11 m ρ c (Proc.devRef .tc main_arg0) = m ((c : Thread nD τ).loc main_arg0) :=
  (W11_keep m ρ c main_arg0 (by decide)).trans <| (W10_keep m ρ c main_arg0 (by decide)).trans <| (W9_keep m ρ c main_arg0 (by decide)).trans <| (W8_of_ne m ρ c main_arg0 (by decide)).trans <| (W7_keep m ρ c main_arg0 (by decide)).trans <| (W6_of_ne m ρ c main_arg0 (by decide)).trans <| (W5_of_ne m ρ c main_arg0 (by decide)).trans <| (W4_keep m ρ c main_arg0 (by decide)).trans <| (W3_of_ne m ρ c main_arg0 (by decide)).trans <| (W2_keep m ρ c main_arg0 (by decide)).trans <| (W1_of_ne m ρ c main_arg0 (by decide)).trans rfl
theorem W11_main_arg1 (c : Dev nD) : W11 m ρ c (Proc.devRef .tc main_arg1) = m ((c : Thread nD τ).loc main_arg1) :=
  (W11_keep m ρ c main_arg1 (by decide)).trans <| (W10_keep m ρ c main_arg1 (by decide)).trans <| (W9_keep m ρ c main_arg1 (by decide)).trans <| (W8_of_ne m ρ c main_arg1 (by decide)).trans <| (W7_keep m ρ c main_arg1 (by decide)).trans <| (W6_of_ne m ρ c main_arg1 (by decide)).trans <| (W5_of_ne m ρ c main_arg1 (by decide)).trans <| (W4_keep m ρ c main_arg1 (by decide)).trans <| (W3_of_ne m ρ c main_arg1 (by decide)).trans <| (W2_keep m ρ c main_arg1 (by decide)).trans <| ((W1_arr m ρ c 0).trans (((dat0 (Vr0 m ρ) c).arrAt_in 0 rfl _).trans (A_eq0 (Vr0 m ρ) c 0))).trans rfl
theorem W11_main_arg2 (c : Dev nD) : W11 m ρ c (Proc.devRef .tc main_arg2) = m ((c : Thread nD τ).loc main_arg2) :=
  (W11_keep m ρ c main_arg2 (by decide)).trans <| (W10_keep m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_of_ne m ρ c main_arg2 (by decide)).trans <| (W4_keep m ρ c main_arg2 (by decide)).trans <| (W3_of_ne m ρ c main_arg2 (by decide)).trans <| (W2_keep m ρ c main_arg2 (by decide)).trans <| (W1_of_ne m ρ c main_arg2 (by decide)).trans rfl
theorem W11_main_arg3 (c : Dev nD) : W11 m ρ c (Proc.devRef .tc main_arg3) = m ((c : Thread nD τ).loc main_arg3) :=
  (W11_keep m ρ c main_arg3 (by decide)).trans <| (W10_keep m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_of_ne m ρ c main_arg3 (by decide)).trans <| (W4_keep m ρ c main_arg3 (by decide)).trans <| (W3_of_ne m ρ c main_arg3 (by decide)).trans <| (W2_keep m ρ c main_arg3 (by decide)).trans <| (W1_of_ne m ρ c main_arg3 (by decide)).trans rfl
theorem W11_main_arg4 (c : Dev nD) : W11 m ρ c (Proc.devRef .tc main_arg4) = m ((c : Thread nD τ).loc main_arg4) :=
  (W11_keep m ρ c main_arg4 (by decide)).trans <| (W10_keep m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_of_ne m ρ c main_arg4 (by decide)).trans <| (W4_keep m ρ c main_arg4 (by decide)).trans <| (W3_of_ne m ρ c main_arg4 (by decide)).trans <| (W2_keep m ρ c main_arg4 (by decide)).trans <| (W1_of_ne m ρ c main_arg4 (by decide)).trans rfl
theorem W11_main_arg5 (c : Dev nD) : W11 m ρ c (Proc.devRef .tc main_arg5) = m ((c : Thread nD τ).loc main_arg5) :=
  (W11_keep m ρ c main_arg5 (by decide)).trans <| (W10_keep m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_of_ne m ρ c main_arg5 (by decide)).trans <| (W4_keep m ρ c main_arg5 (by decide)).trans <| (W3_of_ne m ρ c main_arg5 (by decide)).trans <| (W2_keep m ρ c main_arg5 (by decide)).trans <| (W1_of_ne m ρ c main_arg5 (by decide)).trans rfl
theorem W11_main_arg6 (c : Dev nD) : W11 m ρ c (Proc.devRef .tc main_arg6) = m ((c : Thread nD τ).loc main_arg6) :=
  (W11_keep m ρ c main_arg6 (by decide)).trans <| (W10_keep m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_of_ne m ρ c main_arg6 (by decide)).trans <| (W4_keep m ρ c main_arg6 (by decide)).trans <| (W3_of_ne m ρ c main_arg6 (by decide)).trans <| (W2_keep m ρ c main_arg6 (by decide)).trans <| (W1_of_ne m ρ c main_arg6 (by decide)).trans rfl
theorem W11_main_arg7 (c : Dev nD) : W11 m ρ c (Proc.devRef .tc main_arg7) = m ((c : Thread nD τ).loc main_arg7) :=
  (W11_keep m ρ c main_arg7 (by decide)).trans <| (W10_keep m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_of_ne m ρ c main_arg7 (by decide)).trans <| (W4_keep m ρ c main_arg7 (by decide)).trans <| (W3_of_ne m ρ c main_arg7 (by decide)).trans <| (W2_keep m ρ c main_arg7 (by decide)).trans <| (W1_of_ne m ρ c main_arg7 (by decide)).trans rfl
theorem W11_main_arg8 (c : Dev nD) : W11 m ρ c (Proc.devRef .tc main_arg8) = m ((c : Thread nD τ).loc main_arg8) :=
  (W11_keep m ρ c main_arg8 (by decide)).trans <| (W10_keep m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_of_ne m ρ c main_arg8 (by decide)).trans <| (W4_keep m ρ c main_arg8 (by decide)).trans <| (W3_of_ne m ρ c main_arg8 (by decide)).trans <| (W2_keep m ρ c main_arg8 (by decide)).trans <| (W1_of_ne m ρ c main_arg8 (by decide)).trans rfl
theorem W11_main_arg9 (c : Dev nD) : W11 m ρ c (Proc.devRef .tc main_arg9) = m ((c : Thread nD τ).loc main_arg9) :=
  (W11_keep m ρ c main_arg9 (by decide)).trans <| (W10_keep m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_of_ne m ρ c main_arg9 (by decide)).trans <| (W4_keep m ρ c main_arg9 (by decide)).trans <| (W3_of_ne m ρ c main_arg9 (by decide)).trans <| (W2_keep m ρ c main_arg9 (by decide)).trans <| (W1_of_ne m ρ c main_arg9 (by decide)).trans rfl
theorem W11_main_arg10 (c : Dev nD) : W11 m ρ c (Proc.devRef .tc main_arg10) = m ((c : Thread nD τ).loc main_arg10) :=
  (W11_keep m ρ c main_arg10 (by decide)).trans <| (W10_keep m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_of_ne m ρ c main_arg10 (by decide)).trans <| (W4_keep m ρ c main_arg10 (by decide)).trans <| (W3_of_ne m ρ c main_arg10 (by decide)).trans <| (W2_keep m ρ c main_arg10 (by decide)).trans <| (W1_of_ne m ρ c main_arg10 (by decide)).trans rfl

/-- THE FRAME: from any memory with zero counters every weakly fair execution of @main terminates, nothing faulting,
    and every final state has the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c)⟩) (run_all m ρ)

end Run

end Cert.KernelIdeal.Hand

end
-- ==== Proof.GcnCoe.lean ====
/-
  Extended reals that are real numbers. A family of extended reals all of whose values are finite is the
  coercion of a real-valued family; a finite sum, a product and a maximum of coerced reals is the coerced sum,
  product, maximum; and the reciprocal square root of a positive real is the real `1/√r`. These are the
  steps by which an identity between extended-real expressions built from finite data is moved into `ℝ`,
  where distributivity holds without side conditions.
-/
import Idealize.ShloMosaic.PureOps.Ideal

noncomputable section

open scoped BigOperators

namespace Gcn

open Idealize.ShloMosaic

/-- Every value of the family is a real number: neither `-∞` nor `+∞`. -/
def AllReal {ι : Type*} (f : ι → EReal) : Prop := ∀ i, f i ≠ ⊥ ∧ f i ≠ ⊤

/-- The same for a family with two indices. -/
def AllReal₂ {ι κ : Type*} (f : ι → κ → EReal) : Prop := ∀ i j, f i j ≠ ⊥ ∧ f i j ≠ ⊤

/-- A family of finite extended reals is the coercion of a family of reals. -/
theorem AllReal.exists_coe {ι : Type*} {f : ι → EReal} (h : AllReal f) : ∃ g : ι → ℝ, f = fun i => (g i : EReal) :=
  ⟨fun i => (f i).toReal, funext fun i => (EReal.coe_toReal (h i).2 (h i).1).symm⟩

theorem AllReal₂.exists_coe {ι κ : Type*} {f : ι → κ → EReal} (h : AllReal₂ f) :
    ∃ g : ι → κ → ℝ, f = fun i j => (g i j : EReal) :=
  ⟨fun i j => (f i j).toReal, funext fun i => funext fun j => (EReal.coe_toReal (h i j).2 (h i j).1).symm⟩

/-- A coerced real is finite. -/
theorem allReal_coe {ι : Type*} (g : ι → ℝ) : AllReal fun i => (g i : EReal) :=
  fun i => ⟨EReal.coe_ne_bot _, EReal.coe_ne_top _⟩

theorem allReal₂_coe {ι κ : Type*} (g : ι → κ → ℝ) : AllReal₂ fun i j => (g i j : EReal) :=
  fun i j => ⟨EReal.coe_ne_bot _, EReal.coe_ne_top _⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The reciprocal square root of a positive real is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Gcn

end
-- ==== Proof.GcnSpec.lean ====
/-
  A two-layer graph convolution with a symmetrically normalised adjacency matrix, in two arrangements.

  Data: a square matrix `a` over the nodes (the adjacency matrix with self loops), its row sums
  `s i = ∑ j, a i j` and the scales `d i = 1/√(s i)`; node features `y`, a weight matrix `W`, a bias `b`.
  One layer of the *reference arrangement* forms the normalised matrix `â i j = (a i j · d i) · d j` and
  computes `∑ j, â i j · (y W) j c + b c`. One layer of the *kernel arrangement* never forms `â`: it scales
  the rows of the dense product, `t j c = (y W) j c · d j`, and then computes `(∑ j, a i j · t j c) · d i + b c`.

  On the extended reals the two differ in general: moving the factor `d i` out of the sum over `j` is
  distributivity, which fails when `d i` is infinite (a row sum that is zero). When every entry of the data
  is a real number and every row sum is positive, every quantity in sight is a real number, each arrangement
  is the coercion of ONE real expression (`layerR`), and the two agree. Two layers with a `max · 0` between
  them are compared by applying this twice.
-/
import proofs.«124667_j47708496724388_2_alg».proof.Proof.GcnCoe
import Idealize.ShloMosaic.Lib.ValueIdx

noncomputable section

open scoped BigOperators

namespace Gcn

open Idealize.ShloMosaic Idealize.ShloMosaic.ValueIdx

/-! ## The two arrangements of one layer, over a matrix `a` on 8192 nodes -/

section Core
variable (a : Fin 8192 → Fin 8192 → EReal)

/-- Row sum of the matrix: the degree of node `i` (self loop included). -/
def deg (i : Fin 8192) : EReal := ∑ j, a i j

/-- The scale of node `i`: the reciprocal square root of its degree. -/
def dinv (i : Fin 8192) : EReal := Ideal.rsqrt (deg a i)

/-- Kernel arrangement, dense projection: the product `y W` with row `j` scaled by `d j`. -/
def projK {K M : ℕ} (y : Fin 8192 → Fin K → EReal) (W : Fin K → Fin M → EReal) (j : Fin 8192) (c : Fin M) : EReal :=
  (∑ k, y j k * W k c) * dinv a j

/-- Kernel arrangement, aggregation: `(∑ j, a i j · t j c) · d i + b c`. -/
def aggK {M : ℕ} (t : Fin 8192 → Fin M → EReal) (b : Fin M → EReal) (i : Fin 8192) (c : Fin M) : EReal :=
  (∑ j, a i j * t j c) * dinv a i + b c

/-- Reference arrangement: the normalised matrix `(a i j · d i) · d j`. -/
def aNorm (i j : Fin 8192) : EReal := (a i j * dinv a i) * dinv a j

/-- Reference arrangement, dense projection: the plain product `y W`. -/
def projR {K M : ℕ} (y : Fin 8192 → Fin K → EReal) (W : Fin K → Fin M → EReal) (j : Fin 8192) (c : Fin M) : EReal :=
  ∑ k, y j k * W k c

/-- Reference arrangement, aggregation: `∑ j, â i j · t j c + b c`. -/
def aggR {M : ℕ} (t : Fin 8192 → Fin M → EReal) (b : Fin M → EReal) (i : Fin 8192) (c : Fin M) : EReal :=
  (∑ j, aNorm a i j * t j c) + b c

end Core

/-! ## The real expression both arrangements denote -/

/-- The real scale `1/√(s i)`. -/
def dR (A : Fin 8192 → Fin 8192 → ℝ) (i : Fin 8192) : ℝ := (Real.sqrt (∑ j, A i j))⁻¹

/-- One layer over the reals. -/
def layerR {K M : ℕ} (A : Fin 8192 → Fin 8192 → ℝ) (Y : Fin 8192 → Fin K → ℝ) (W : Fin K → Fin M → ℝ) (B : Fin M → ℝ)
    (i : Fin 8192) (c : Fin M) : ℝ :=
  (∑ j, A i j * dR A i * dR A j * (∑ k, Y j k * W k c)) + B c

/-- With positive row sums the scale of a real matrix is the real scale. -/
theorem dinv_coe (A : Fin 8192 → Fin 8192 → ℝ) (hpos : ∀ i, 0 < ∑ j, A i j) (i : Fin 8192) :
    dinv (fun i j => (A i j : EReal)) i = (dR A i : EReal) := by
  unfold dinv deg dR
  rw [← coe_sum, rsqrt_coe_pos (hpos i)]

/-- The kernel arrangement of a layer over real data is the coercion of `layerR`: the factor `d i` enters
    the sum over `j` by distributivity in `ℝ`. -/
theorem aggK_projK_coe {K M : ℕ} (A : Fin 8192 → Fin 8192 → ℝ) (hpos : ∀ i, 0 < ∑ j, A i j) (Y : Fin 8192 → Fin K → ℝ)
    (W : Fin K → Fin M → ℝ) (B : Fin M → ℝ) (i : Fin 8192) (c : Fin M) :
    aggK (fun i j => (A i j : EReal)) (projK (fun i j => (A i j : EReal)) (fun j k => (Y j k : EReal)) (fun k c => (W k c : EReal)))
      (fun c => (B c : EReal)) i c = (layerR A Y W B i c : EReal) := by
  unfold aggK projK
  simp only [dinv_coe A hpos, ← EReal.coe_mul, ← coe_sum, ← EReal.coe_add]
  refine congrArg Real.toEReal ?_
  unfold layerR
  rw [Finset.sum_mul]
  refine congrArg (· + B c) (Finset.sum_congr rfl fun j _ => ?_)
  ring

/-- The reference arrangement of a layer over real data is the coercion of `layerR`. -/
theorem aggR_projR_coe {K M : ℕ} (A : Fin 8192 → Fin 8192 → ℝ) (hpos : ∀ i, 0 < ∑ j, A i j) (Y : Fin 8192 → Fin K → ℝ)
    (W : Fin K → Fin M → ℝ) (B : Fin M → ℝ) (i : Fin 8192) (c : Fin M) :
    aggR (fun i j => (A i j : EReal)) (projR (fun j k => (Y j k : EReal)) (fun k c => (W k c : EReal)))
      (fun c => (B c : EReal)) i c = (layerR A Y W B i c : EReal) := by
  unfold aggR aNorm projR
  simp only [dinv_coe A hpos, ← EReal.coe_mul, ← coe_sum, ← EReal.coe_add]
  rfl

/-! ## Two layers -/

section TwoLayers
variable (a : Fin 8192 → Fin 8192 → EReal) (x : Fin 8192 → Fin 512 → EReal) (W1 : Fin 512 → Fin 512 → EReal)
  (b1 : Fin 512 → EReal) (W2 : Fin 512 → Fin 256 → EReal) (b2 : Fin 256 → EReal)

/-- Hidden features, kernel arrangement: the first layer followed by `max · 0`. -/
def hK (i : Fin 8192) (c : Fin 512) : EReal := max (aggK a (projK a x W1) b1 i c) 0

/-- Hidden features, reference arrangement. -/
def hR (i : Fin 8192) (c : Fin 512) : EReal := max (aggR a (projR x W1) b1 i c) 0

/-- Output node features, kernel arrangement: the second layer (no activation) on the kernel's hidden features. -/
def h2K : Fin 8192 → Fin 256 → EReal := aggK a (projK a (hK a x W1 b1) W2) b2

/-- Output node features, reference arrangement. -/
def h2R : Fin 8192 → Fin 256 → EReal := aggR a (projR (hR a x W1 b1) W2) b2

/-- On real data with positive row sums the two arrangements of the two-layer network agree. -/
theorem h2K_eq_h2R (ha : AllReal₂ a) (hpos : ∀ i, 0 < ∑ j, a i j) (hx : AllReal₂ x) (hW1 : AllReal₂ W1) (hb1 : AllReal b1)
    (hW2 : AllReal₂ W2) (hb2 : AllReal b2) : h2K a x W1 b1 W2 b2 = h2R a x W1 b1 W2 b2 := by
  obtain ⟨A, rfl⟩ := ha.exists_coe
  obtain ⟨X, rfl⟩ := hx.exists_coe
  obtain ⟨V1, rfl⟩ := hW1.exists_coe
  obtain ⟨B1, rfl⟩ := hb1.exists_coe
  obtain ⟨V2, rfl⟩ := hW2.exists_coe
  obtain ⟨B2, rfl⟩ := hb2.exists_coe
  have hposR : ∀ i, 0 < ∑ j, A i j := fun i => by
    have h := hpos i
    rw [← coe_sum] at h
    exact EReal.coe_pos.mp h
  -- both hidden layers are the coercion of one real matrix
  have hk : hK (fun i j => (A i j : EReal)) (fun j k => (X j k : EReal)) (fun k c => (V1 k c : EReal)) (fun c => (B1 c : EReal))
      = fun i c => ((max (layerR A X V1 B1 i c) 0 : ℝ) : EReal) := by
    funext i c
    unfold hK
    rw [aggK_projK_coe A hposR, coe_max, EReal.coe_zero]
  have hr : hR (fun i j => (A i j : EReal)) (fun j k => (X j k : EReal)) (fun k c => (V1 k c : EReal)) (fun c => (B1 c : EReal))
      = fun i c => ((max (layerR A X V1 B1 i c) 0 : ℝ) : EReal) := by
    funext i c
    unfold hR
    rw [aggR_projR_coe A hposR, coe_max, EReal.coe_zero]
  funext i c
  unfold h2K h2R
  rw [hk, hr, aggK_projK_coe A hposR, aggR_projR_coe A hposR]

end TwoLayers

/-! ## The same over the argument arrays -/

/-- A rank-2 array read by coordinates. -/
def ofArr2 {n m : ℕ} (x : (⟨2, ![n, m]⟩ : Shape).Idx → EReal) (i : Fin n) (j : Fin m) : EReal := x (ix2 i j)

/-- A rank-1 array read by its coordinate. -/
def ofArr1 {n : ℕ} (b : (⟨1, ![n]⟩ : Shape).Idx → EReal) (c : Fin n) : EReal := b (ix1 c)

/-- A function of two coordinates as a rank-2 array. -/
def toArr2 {n m : ℕ} (f : Fin n → Fin m → EReal) : (⟨2, ![n, m]⟩ : Shape).Idx → EReal := fun p => f (p 0) (p 1)

theorem toArr2_ix2 {n m : ℕ} (f : Fin n → Fin m → EReal) (i : Fin n) (j : Fin m) : toArr2 f (ix2 i j) = f i j := rfl

/-- The identity matrix: `1` on the diagonal, `0` off it. -/
def eye (i j : Fin 8192) : EReal := if i = j then 1 else 0

/-- The adjacency matrix with self loops, `adj + I`. -/
def aI (adj : (⟨2, ![8192, 8192]⟩ : Shape).Idx → EReal) (i j : Fin 8192) : EReal := adj (ix2 i j) + eye i j

section Arrays
variable (x : (⟨2, ![8192, 512]⟩ : Shape).Idx → EReal) (adj : (⟨2, ![8192, 8192]⟩ : Shape).Idx → EReal)
  (W1 : (⟨2, ![512, 512]⟩ : Shape).Idx → EReal) (b1 : (⟨1, ![512]⟩ : Shape).Idx → EReal)
  (W2 : (⟨2, ![512, 256]⟩ : Shape).Idx → EReal) (b2 : (⟨1, ![256]⟩ : Shape).Idx → EReal)

/-- The output node features of the kernel arrangement, as an array `[8192, 256]`. -/
def h2Ker : (⟨2, ![8192, 256]⟩ : Shape).Idx → EReal :=
  toArr2 (h2K (aI adj) (ofArr2 x) (ofArr2 W1) (ofArr1 b1) (ofArr2 W2) (ofArr1 b2))

/-- The output node features of the reference arrangement, as an array `[8192, 256]`. -/
def h2Ref : (⟨2, ![8192, 256]⟩ : Shape).Idx → EReal :=
  toArr2 (h2R (aI adj) (ofArr2 x) (ofArr2 W1) (ofArr1 b1) (ofArr2 W2) (ofArr1 b2))

/-- The identity matrix has real entries. -/
theorem eye_real (i j : Fin 8192) : eye i j ≠ ⊥ ∧ eye i j ≠ ⊤ := by
  unfold eye; split
  · exact ⟨EReal.coe_ne_bot 1, EReal.coe_ne_top 1⟩
  · exact ⟨EReal.coe_ne_bot 0, EReal.coe_ne_top 0⟩

/-- With a real adjacency matrix, `adj + I` has real entries. -/
theorem aI_real (hadj : AllReal adj) : AllReal₂ (aI adj) := fun i j => by
  obtain ⟨r, hr⟩ : ∃ r : ℝ, adj (ix2 i j) = r := ⟨_, (EReal.coe_toReal (hadj _).2 (hadj _).1).symm⟩
  obtain ⟨e, he⟩ : ∃ e : ℝ, eye i j = e := ⟨_, (EReal.coe_toReal (eye_real i j).2 (eye_real i j).1).symm⟩
  unfold aI
  rw [hr, he, ← EReal.coe_add]
  exact ⟨EReal.coe_ne_bot _, EReal.coe_ne_top _⟩

/-- THE LAW: when every entry of the six float arrays is a real number and every row sum of `adj + I` is
    positive, the kernel's arrangement and the reference's arrangement give the same node features. -/
theorem h2Ker_eq_h2Ref (hx : AllReal x) (hadj : AllReal adj) (hW1 : AllReal W1) (hb1 : AllReal b1) (hW2 : AllReal W2)
    (hb2 : AllReal b2) (hpos : ∀ i : Fin 8192, 0 < ∑ j : Fin 8192, aI adj i j) :
    h2Ker x adj W1 b1 W2 b2 = h2Ref x adj W1 b1 W2 b2 := by
  unfold h2Ker h2Ref
  rw [h2K_eq_h2R (aI adj) (ofArr2 x) (ofArr2 W1) (ofArr1 b1) (ofArr2 W2) (ofArr1 b2) (aI_real adj hadj) hpos
    (fun i j => hx _) (fun i j => hW1 _) (fun c => hb1 _) (fun i j => hW2 _) (fun c => hb2 _)]

end Arrays

end Gcn

end
-- ==== Proof.ValueLib.lean ====
/-
  Two small facts about buffers written by whole-buffer stores, used when reading what a kernel body leaves.
-/
import Idealize.ShloMosaic.Lib.Pipeline.Value
import Idealize.ShloMosaic.Lib.Pipeline.FrameBody

noncomputable section

namespace Cert.KernelIdeal.HandValue

open Idealize.ShloMosaic

/-- The zero offset of a rank-2 buffer, as the constant function. -/
theorem hz2 : (![0, 0] : Fin 2 → Nat) = fun _ => 0 := funext fun a => by fin_cases a <;> rfl

/-- A load through the whole buffer of what a list of stores left, the LAST of them through the whole buffer, reads
    that store's payload. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end Cert.KernelIdeal.HandValue

end
-- ==== Proof.GcnEye.lean ====
/-
  The identity matrix as the programs build it: two coordinate arrays (an iota along each axis, as 32-bit
  words), an equality comparison, and the conversion of the resulting bit to a float. For coordinates below
  `2^32` the words are equal exactly when the coordinates are, and the bit `1` converts to the real `1`, the
  bit `0` to `0`: the entry is `if a = b then 1 else 0`.
-/
import proofs.«124667_j47708496724388_2_alg».proof.Proof.GcnSpec

noncomputable section

namespace Gcn

open Idealize.ShloMosaic Idealize.ShloMosaic.ValueIdx

/-- Two coordinates below `2^32`, as words, compared for equality and converted to a float: `1` when the
    coordinates are equal, `0` otherwise. -/
theorem uitofp_cmpi_eq_ofNat (a b : ℕ) (ha : a < 2 ^ 32) (hb : b < 2 ^ 32) :
    FloatOps.uitofp (F := Ideal) .f32 (IntOp.cmpi .eq (BitVec.ofNat 32 a) (BitVec.ofNat 32 b)) = if a = b then (1 : EReal) else 0 := by
  show (((BitVec.ofBool (BitVec.ofNat 32 a == BitVec.ofNat 32 b)).toNat : ℝ) : EReal) = _
  by_cases h : a = b
  · subst h
    rw [if_pos rfl, beq_self_eq_true]
    simp
  · have hne : (BitVec.ofNat 32 a == BitVec.ofNat 32 b) = false := by
      rw [beq_eq_false_iff_ne]
      intro e
      apply h
      have e' := congrArg BitVec.toNat e
      rw [BitVec.toNat_ofNat, BitVec.toNat_ofNat, Nat.mod_eq_of_lt ha, Nat.mod_eq_of_lt hb] at e'
      exact e'
    rw [if_neg h, hne]
    simp

/-- The entry of the identity matrix as the host program prints it — the row coordinate plus the zero word,
    compared with the column coordinate — is `eye`. -/
theorem eye_printed (i k : Fin 8192) :
    FloatOps.uitofp (F := Ideal) .f32 (IntOp.cmpi .eq (IntOp.addi (BitVec.ofNat 32 i.val) 0#32) (BitVec.ofNat 32 k.val)) = eye i k := by
  have h0 : IntOp.addi (BitVec.ofNat 32 i.val) 0#32 = BitVec.ofNat 32 i.val := by
    unfold IntOp.addi; exact BitVec.add_zero _
  rw [h0, uitofp_cmpi_eq_ofNat i.val k.val (by have := i.isLt; omega) (by have := k.isLt; omega)]
  unfold eye
  by_cases h : i = k
  · rw [if_pos h, if_pos (congrArg Fin.val h)]
  · rw [if_neg h, if_neg (fun e => h (Fin.ext e))]

end Gcn

end
-- ==== Proof.PayK0.lean ====
/-
  The degree kernel's arithmetic at an index. One grid point handles 128 rows of the adjacency matrix: block
  `b` holds rows `128 b … 128 b + 127`. The kernel adds to the block the matching rows of the identity — the
  entry at local row `p`, column `q` is `1` exactly when `128 b + p = q`, decided on 32-bit words, widened and
  converted to a float —, sums each row, takes the reciprocal square root, and stores the sum-free block again
  narrowed to bf16 (the identity on extended reals).
-/
import proofs.«124667_j47708496724388_2_alg».proof.Proof.Gen.KernelIdeal.Skeleton
import proofs.«124667_j47708496724388_2_alg».proof.Proof.GcnEye
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn.Payloads

open Cert.KernelIdeal Cert.KernelIdeal.Gen Idealize.ShloMosaic Idealize.ShloMosaic.ValueIdx

/-- Two numbers below `2^32`, as words, compared for equality; the bit widened to a word and converted as a signed
    integer: `1` when the numbers are equal, `0` otherwise. -/
theorem sitofp_extui_cmpi_eq_ofNat (a q : ℕ) (ha : a < 2 ^ 32) (hq : q < 2 ^ 32) :
    FloatOps.sitofp (F := Ideal) .f32 ((IntOp.cmpi .eq (BitVec.ofNat 32 a) (BitVec.ofNat 32 q)).setWidth 32)
      = if a = q then (1 : EReal) else 0 := by
  show ((((BitVec.ofBool (BitVec.ofNat 32 a == BitVec.ofNat 32 q)).setWidth 32).toInt : ℝ) : EReal) = _
  by_cases h : a = q
  · subst h
    rw [if_pos rfl, beq_self_eq_true]
    have e : ((BitVec.ofBool true).setWidth 32).toInt = 1 := by decide
    rw [e]
    simp
  · have hne : (BitVec.ofNat 32 a == BitVec.ofNat 32 q) = false := by
      rw [beq_eq_false_iff_ne]
      intro e
      apply h
      have e' := congrArg BitVec.toNat e
      rw [BitVec.toNat_ofNat, BitVec.toNat_ofNat, Nat.mod_eq_of_lt ha, Nat.mod_eq_of_lt hq] at e'
      exact e'
    rw [if_neg h, hne]
    have e : ((BitVec.ofBool false).setWidth 32).toInt = 0 := by decide
    rw [e]
    simp

/-- The block's entry of `adj + I`: the loaded entry plus the identity's, decided by the block's row offset. -/
theorem k0_pay1_apply (i : grid0.Coords) (v8 : FVec Ideal S128x8192 .f32) (p : Fin 128) (q : Fin 8192) :
    k0_pay1 (F := Ideal) i v8 (ix2 p q)
      = v8 (ix2 p q) + (if 128 * (i 0).val + p.val = q.val then (1 : EReal) else 0) := by
  have hi : (i 0).val < 64 := (i 0).isLt
  unfold k0_pay1
  show v8 (ix2 p q) + FloatOps.sitofp (F := Ideal) .f32
      ((IntOp.cmpi .eq (IntOp.addi (BitVec.ofNat 32 (0 * 128 + p.val)) (IntOp.muli (BitVec.ofNat 32 (i 0).val) 128#32))
        (BitVec.ofNat 32 (0 * 8192 + q.val))).setWidth 32) = _
  have hw : IntOp.addi (BitVec.ofNat 32 (0 * 128 + p.val)) (IntOp.muli (BitVec.ofNat 32 (i 0).val) 128#32)
      = BitVec.ofNat 32 (128 * (i 0).val + p.val) := by
    unfold IntOp.addi IntOp.muli
    rw [show (128#32 : BitVec 32) = BitVec.ofNat 32 128 from rfl, ← BitVec.ofNat_mul, ← BitVec.ofNat_add]
    exact congrArg (BitVec.ofNat 32) (by omega)
  rw [hw, show 0 * 8192 + q.val = q.val by omega,
    sitofp_extui_cmpi_eq_ofNat _ _ (by have := p.isLt; omega) (by have := q.isLt; omega)]

/-- The row's scale: the reciprocal square root of the row sum of the block of `adj + I`. -/
theorem k0_pay2_apply (i : grid0.Coords) (v8 : FVec Ideal S128x8192 .f32) (p : Fin 128) :
    k0_pay2 (F := Ideal) i v8 (ix2 p (0 : Fin 1)) = Ideal.rsqrt (∑ q : Fin 8192, k0_pay1 (F := Ideal) i v8 (ix2 p q)) := by
  unfold k0_pay2
  generalize k0_pay1 (F := Ideal) i v8 = y
  show Ideal.rsqrt (shapeCast S128x1 (multiReduction .add [1] S128 y 0x00000000#32 reduces_S128x8192_S128 (.inl rfl) rfl)
      shapeCasts_S128_S128x1 (ix2 p (0 : Fin 1))) = _
  refine congrArg Ideal.rsqrt ?_
  refine (shapeCast_apply _ shapeCasts_S128_S128x1 (ix2 p (0 : Fin 1)) (ix1 p) (by
    rw [Shape.rowMajor_val_two, Shape.rowMajor_val_one]; show p.val = p.val * 1 + 0; omega)).trans ?_
  refine (Ideal.multiReduction_add_single y 0x00000000#32 reduces_S128x8192_S128 (.inl rfl) rfl (ix1 p)).trans ?_
  refine Finset.sum_congr rfl fun k _ => congrArg y ?_
  funext a
  match a with
  | ⟨0, _⟩ => exact Fin.ext rfl
  | ⟨1, _⟩ => exact Fin.ext rfl

/-- The stored block of `adj + I`: narrowing to bf16 is the identity on extended reals. -/
theorem k0_pay3_eq (i : grid0.Coords) (v8 : FVec Ideal S128x8192 .f32) :
    k0_pay3 (F := Ideal) i v8 = k0_pay1 (F := Ideal) i v8 := rfl

end Gcn.Payloads

end
-- ==== Proof.Values0.lean ====
/-
  The first call's two output arrays as whole-array functions of the adjacency matrix: band t of A + I is rows
  128·t … 128·t+127 of adj plus the identity's band, and the column holds the reciprocal square root of each row's sum.
  The 64 bands tile both arrays, so each array ends holding its function everywhere.
-/
import proofs.«124667_j47708496724388_2_alg».proof.Proof.Region0
import proofs.«124667_j47708496724388_2_alg».proof.Proof.GcnSpec
import proofs.«124667_j47708496724388_2_alg».proof.Proof.ValueLib
import proofs.«124667_j47708496724388_2_alg».proof.Proof.PayK0
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn

variable (V : (c : Dev nD) → (b : Ref sig .tc) → Buf (Elt Ideal) ((c : Thread nD τ).loc b))

open Gcn.Payloads

/-- What the body leaves in the two output buffers: each is stored whole, once. -/
theorem out0_1_eq (i : grid0.Coords) (x0 : Vec Ideal S128x8192 .f32) : out0_1 i x0 = k0_pay3 (F := Ideal) i x0 := by
  unfold out0_1
  rw [View.canon_unit_zero hz2]
  simp only [View.ld_unit_zero (S := S128x8192) hz2]
theorem out0_2_eq (i : grid0.Coords) (x0 : Vec Ideal S128x8192 .f32) : out0_2 i x0 = k0_pay2 (F := Ideal) i x0 := by
  unfold out0_2
  rw [View.canon_unit_zero hz2]
  simp only [View.ld_unit_zero (S := S128x8192) hz2]

/-- The two arrays the call leaves: A + I, and the column of reciprocal square roots of its row sums. -/
def AIspec (adj : S8192x8192.Idx → EReal) : S8192x8192.Idx → EReal := toArr2 (aI adj)
def DVspec (adj : S8192x8192.Idx → EReal) : S8192x1.Idx → EReal := toArr2 (fun (r : Fin 8192) (_ : Fin 1) => dinv (aI adj) r)

/-- The printed index maps over the 64 grid points: the three windows move together down the rows, one band of 128
    rows per point, and the band's number is the grid coordinate. -/
theorem idx_facts0 : ∀ t : Fin cfg0.N, win0_0.index t (0 : Fin 2) = win0_1.index t (0 : Fin 2) ∧ win0_0.index t (1 : Fin 2) = 0
    ∧ win0_1.index t (1 : Fin 2) = 0 ∧ win0_2.index t (0 : Fin 2) = win0_1.index t (0 : Fin 2) ∧ win0_2.index t (1 : Fin 2) = 0
    ∧ ((grid0.coords t) 0).val = win0_1.index t (0 : Fin 2) ∧ win0_1.index t (0 : Fin 2) ≤ 63 :=
  (by decide +kernel : ∀ t : Fin grid0.N, _)

theorem idx_onto0 : ∀ (q0 : Fin 64), ∃ t : Fin cfg0.N, win0_1.index t = ![q0.val, 0] ∧ win0_2.index t = ![q0.val, 0] :=
  (by decide +kernel : ∀ (q0 : Fin 64), ∃ t : Fin grid0.N, win0_1.index t = ![q0.val, 0] ∧ win0_2.index t = ![q0.val, 0])

/-- One entry of the band the body forms at point t: entry (p, q) is entry (128·t + p, q) of A + I. -/
theorem band_entry (c : Dev nD) (t : Fin cfg0.N) (p : Fin 128) (q : Fin 8192) (r : Fin 8192) (hr : r.val = win0_1.index t (0 : Fin 2) * 128 + p.val) :
    k0_pay1 (F := Ideal) (grid0.coords t) (iblk0 V c 0 t) (ix2 p q) = aI (V c main_arg1) r q := by
  obtain ⟨e0, e1, e2, e3, e4, e5, e6⟩ := idx_facts0 t
  rw [k0_pay1_apply]
  unfold aI
  refine congrArg₂ (· + ·) ?_ ?_
  · show V c main_arg1 (((cfg0.win 0).blk t).view.emb (ix2 p q)) = V c main_arg1 (ix2 r q)
    congr 1; funext a; apply Fin.ext
    match a with
    | ⟨0, _⟩ => show win0_0.index t (0 : Fin 2) * 128 + 1 * p.val = r.val; omega
    | ⟨1, _⟩ => show win0_0.index t (1 : Fin 2) * 8192 + 1 * q.val = q.val; omega
  · unfold eye
    exact if_congr (by rw [Fin.ext_iff]; omega) rfl rfl

theorem flushed0_1_eq (c : Dev nD) (t : Fin cfg0.N) :
    (dat0 V c).flushed 1 t = ((cfg0.win 1).blk t).view.read (Elt Ideal) (AIspec (V c main_arg1)) := by
  show (cfg0.win 1).cut (grid0.coords t) ((dat0 V c).after 1 t) = _
  rw [after0_1, out0_1_eq, k0_pay3_eq]
  obtain ⟨e0, e1, e2, e3, e4, e5, e6⟩ := idx_facts0 t
  funext j
  obtain ⟨p, q, rfl⟩ : ∃ (p : Fin 128) (q : Fin 8192), j = ix2 p q := ⟨j 0, j 1, eq_ix2 j⟩
  show k0_pay1 (F := Ideal) (grid0.coords t) (iblk0 V c 0 t) (ix2 p q) = AIspec (V c main_arg1) (((cfg0.win 1).blk t).view.emb (ix2 p q))
  unfold AIspec toArr2
  have hq : (((cfg0.win 1).blk t).view.emb (ix2 p q)) 1 = q := Fin.ext (by show win0_1.index t (1 : Fin 2) * 8192 + 1 * q.val = q.val; omega)
  rw [band_entry V c t p q ((((cfg0.win 1).blk t).view.emb (ix2 p q)) 0) (by show win0_1.index t (0 : Fin 2) * 128 + 1 * p.val = _; omega)]
  rw [hq]

theorem flushed0_2_eq (c : Dev nD) (t : Fin cfg0.N) :
    (dat0 V c).flushed 2 t = ((cfg0.win 2).blk t).view.read (Elt Ideal) (DVspec (V c main_arg1)) := by
  show (cfg0.win 2).cut (grid0.coords t) ((dat0 V c).after 2 t) = _
  rw [after0_2, out0_2_eq]
  obtain ⟨e0, e1, e2, e3, e4, e5, e6⟩ := idx_facts0 t
  funext j
  obtain ⟨p, z, rfl⟩ : ∃ (p : Fin 128) (z : Fin 1), j = ix2 p z := ⟨j 0, j 1, eq_ix2 j⟩
  obtain rfl : z = 0 := Subsingleton.elim _ _
  show k0_pay2 (F := Ideal) (grid0.coords t) (iblk0 V c 0 t) (ix2 p 0) = DVspec (V c main_arg1) (((cfg0.win 2).blk t).view.emb (ix2 p 0))
  rw [k0_pay2_apply]
  unfold DVspec toArr2 dinv deg
  refine congrArg Ideal.rsqrt (Finset.sum_congr rfl fun q _ => ?_)
  exact band_entry V c t p q _ (by show win0_2.index t (0 : Fin 2) * 128 + 1 * p.val = _; omega)

theorem mem_blk0_1 (t : Fin cfg0.N) (i : S8192x8192.Idx) :
    i ∈ ((cfg0.win 1).blk t).view.set ↔ ∀ a : Fin 2, win0_1.index t a * S128x8192.size a ≤ (i a).val ∧ (i a).val < win0_1.index t a * S128x8192.size a + S128x8192.size a := by
  show i ∈ ((View.whole main_v0_0).slice (win0_1.rect t)).set ↔ _
  rw [View.set_slice_whole, Rect.mem_set_unit]
  exact Iff.rfl
theorem mem_blk0_2 (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v0_1).slice (win0_2.rect t)).set ↔ _
  rw [View.set_slice_whole, Rect.mem_set_unit]
  exact Iff.rfl

/-- The 64 bands tile both arrays: row r lies in band r / 128. -/
theorem cover0_1' (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht, -⟩ := idx_onto0 ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 8192 ≤ (i 1).val ∧ (i 1).val < win0_1.index t (1 : Fin 2) * 8192 + 8192; omega
theorem cover0_2' (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, -, ht⟩ := idx_onto0 ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- THE ARRAYS the call leaves, each one whole-array function of the adjacency matrix the region finds. -/
theorem final0_1 (c : Dev nD) : (dat0 V c).arrAt 1 cfg0.N = AIspec (V c main_arg1) :=
  (dat0 V c).arrAt_eq_of_cover 1 (AIspec (V c main_arg1)) (fun t _ => flushed0_1_eq V c t) cover0_1'
theorem final0_2 (c : Dev nD) : (dat0 V c).arrAt 2 cfg0.N = DVspec (V c main_arg1) :=
  (dat0 V c).arrAt_eq_of_cover 2 (DVspec (V c main_arg1)) (fun t _ => flushed0_2_eq V c t) cover0_2'

end Cert.KernelIdeal.HandValue

end
-- ==== Proof.PayK1.lean ====
/-
  The arithmetic of the five kernels, read at an index. Each kernel body computes, from the blocks it loads,
  the blocks it stores; at one element `(p, q)` of a stored block these are: for the degree kernel, the entry of
  `adj + I` (the identity's entry decided by the block's row offset), the reciprocal square root of a row sum,
  and the same entry again (the narrowing to bf16 is the identity on extended reals); for the two projection
  kernels, "accumulator plus the product's entry" and, at the last step, "accumulator times the row's scale";
  for the two aggregation kernels the same accumulation and, at the last step, "accumulator times the row's
  scale plus the column's bias", followed for the first of them by `max · 0`.
-/
import proofs.«124667_j47708496724388_2_alg».proof.Proof.Gen.KernelIdeal.Skeleton
import proofs.«124667_j47708496724388_2_alg».proof.Proof.GcnEye
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn.Payloads

open Cert.KernelIdeal Cert.KernelIdeal.Gen Idealize.ShloMosaic Idealize.ShloMosaic.ValueIdx

/-! ## The first projection kernel: `t1 = (x W1) · d` -/

/-- The matrix unit's product of a `[2048, 512]` block with a `[512, 512]` block into the zero accumulator, at `(p, q)`:
    the sum over the contracted coordinate of the products. -/
theorem mm1_apply (l : FVec Ideal S2048x512 .bf16) (r : FVec Ideal S512x512 .bf16) (p : Fin 2048) (q : Fin 512) :
    matmul dot_S2048x512_S512x512_S2048x512_1_0_0_1_n_n none l r (constant (F := Ideal) S2048x512 .f32 0x00000000#32) (ix2 p q)
      = ∑ k : Fin 512, l (ix2 p k) * r (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k :=
    funext fun a => Fin.ext (by
      match a with
      | ⟨0, _⟩ =>
        show (dot_S2048x512_S512x512_S2048x512_1_0_0_1_n_n.lhsIdx (ix2 p q) _ 0).val = p.val
        unfold DotDims.lhsIdx
        rw [dif_neg (show ¬(0 : Fin S2048x512.rank) ∈ dot_S2048x512_S512x512_S2048x512_1_0_0_1_n_n.lhsBatch by decide),
          dif_pos (show (0 : Fin S2048x512.rank) ∈ dot_S2048x512_S512x512_S2048x512_1_0_0_1_n_n.lhsNonContracting by decide)]
        rfl
      | ⟨1, _⟩ => exact (dot_S2048x512_S512x512_S2048x512_1_0_0_1_n_n.lhsIdx_val_of_single rfl (ix2 p q) _).trans hk)
  have er : dot_S2048x512_S512x512_S2048x512_1_0_0_1_n_n.rhsIdx (ix2 p q) ((contrEquiv1 dot_S2048x512_S512x512_S2048x512_1_0_0_1_n_n 512 rfl rfl).symm k) = ix2 k q :=
    funext fun a => Fin.ext (by
      match a with
      | ⟨0, _⟩ => exact (dot_S2048x512_S512x512_S2048x512_1_0_0_1_n_n.rhsIdx_val_of_single rfl (ix2 p q) _).trans hk
      | ⟨1, _⟩ =>
        show (dot_S2048x512_S512x512_S2048x512_1_0_0_1_n_n.rhsIdx (ix2 p q) _ 1).val = q.val
        unfold DotDims.rhsIdx
        rw [dif_neg (show ¬(1 : Fin S512x512.rank) ∈ dot_S2048x512_S512x512_S2048x512_1_0_0_1_n_n.rhsBatch by decide),
          dif_pos (show (1 : Fin S512x512.rank) ∈ dot_S2048x512_S512x512_S2048x512_1_0_0_1_n_n.rhsNonContracting by decide)]
        rfl)
  rw [el, er]

/-- The accumulator's initial value is zero. -/
theorem k1_pay1_apply (p : Fin 2048) (q : Fin 512) : k1_pay1 (F := Ideal) (ix2 p q) = 0 := by
  unfold k1_pay1
  rw [shapeCast_self]
  exact Ideal.ofBits_zero_f32

/-- One accumulation step: the accumulator plus the product's entry. -/
theorem k1_pay2_apply (v3 : FVec Ideal S2048x512 .f32) (v4 : FVec Ideal S2048x512 .bf16) (v6 : FVec Ideal S512x512 .bf16)
    (p : Fin 2048) (q : Fin 512) :
    k1_pay2 (F := Ideal) v3 v4 v6 (ix2 p q) = v3 (ix2 p q) + ∑ k : Fin 512, v4 (ix2 p k) * v6 (ix2 k q) := by
  unfold k1_pay2
  rw [shapeCast_self, shapeCast_self, shapeCast_self]
  exact congrArg (v3 (ix2 p q) + ·) (mm1_apply v4 v6 p q)

/-- From the zero accumulator: the product's entry. -/
theorem k1_pay2_zero_apply (v4 : FVec Ideal S2048x512 .bf16) (v6 : FVec Ideal S512x512 .bf16) (p : Fin 2048) (q : Fin 512) :
    k1_pay2 (F := Ideal) (k1_pay1 (F := Ideal)) v4 v6 (ix2 p q) = ∑ k : Fin 512, v4 (ix2 p k) * v6 (ix2 k q) := by
  rw [k1_pay2_apply, k1_pay1_apply, zero_add]

/-- The last step: the accumulator's entry times the row's scale. -/
theorem k1_pay3_apply (v16 : FVec Ideal S2048x512 .f32) (v17 : FVec Ideal S2048x1 .f32) (p : Fin 2048) (q : Fin 512) :
    k1_pay3 (F := Ideal) v16 v17 (ix2 p q) = v16 (ix2 p q) * v17 (ix2 p (0 : Fin 1)) := by
  unfold k1_pay3
  rw [shapeCast_self]
  show v16 (ix2 p q) * broadcastTo S2048x512 v17 broadcasts_S2048x1_S2048x512 (ix2 p q) = _
  refine congrArg (v16 (ix2 p q) * ·) (broadcastTo_apply v17 broadcasts_S2048x1_S2048x512 (ix2 p q) (ix2 p (0 : Fin 1)) fun a => ?_)
  match a with
  | ⟨0, _⟩ => show p.val = if (2048 : ℕ) = 1 then 0 else p.val; rw [if_neg (by decide)]
  | ⟨1, _⟩ => show 0 = if (1 : ℕ) = 1 then 0 else q.val; rw [if_pos rfl]

end Gcn.Payloads

end
-- ==== Proof.Values1.lean ====
/-
  The second call's output as one whole-array function: block t of the output is rows 2048·t … of (x · W1), each row
  scaled by that row's reciprocal square root; the accumulator is zeroed, receives the one block product and is read
  back. The four row blocks tile the array.
-/
import proofs.«124667_j47708496724388_2_alg».proof.Proof.Region1
import proofs.«124667_j47708496724388_2_alg».proof.Proof.GcnSpec
import proofs.«124667_j47708496724388_2_alg».proof.Proof.PayK1
import proofs.«124667_j47708496724388_2_alg».proof.Proof.ValueLib
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn

variable (V : (c : Dev nD) → (b : Ref sig .tc) → Buf (Elt Ideal) ((c : Thread nD τ).loc b))

open Gcn.Payloads

/-- What the body leaves in the output's buffer is the scaled block product of the three input blocks: the
    accumulator is zeroed, receives the one block product, and is read back for the scaling. -/
theorem out1_3_eq (c : Dev nD) (i : grid1.Coords) (arg2 : Memref sig .tc .vmem S2048x512 .bf16) (harg2 : arg2.IsWhole) (arg3 : Memref sig .tc .vmem S512x512 .bf16) (harg3 : arg3.IsWhole) (arg4 : Memref sig .tc .vmem S2048x1 .f32) (harg4 : arg4.IsWhole) (arg5 : Memref sig .tc .vmem S2048x512 .bf16) (harg5 : arg5.IsWhole) (arg6 : Memref sig .tc .vmem S2048x512 .f32) (harg6 : arg6.IsWhole) (hc0 : cond1_0 i) (hc1 : cond1_1 i)
    (x0 : Vec Ideal S2048x512 .bf16) (x1 : Vec Ideal S512x512 .bf16) (x2 : Vec Ideal S2048x1 .f32) :
    out1_3 c i arg2 harg2 arg3 harg3 arg4 harg4 arg5 harg5 arg6 harg6 hc0 hc1 x0 x1 x2 = k1_pay3 (k1_pay2 (k1_pay1 (F := Ideal)) x0 x1) x2 := by
  unfold out1_3
  rw [View.read_writes_eq_canon _ _ _ (cover1_3 c i arg2 harg2 arg3 harg3 arg4 harg4 arg5 harg5 arg6 harg6 hc0 hc1 x0 x1 x2)]
  unfold kernelRun1
  dsimp only
  sl_unfold_words
  rw [View.canon_unit_zero hz2]
  simp only [readCov_cons_whole (S := S2048x512) _ hz2, View.readCov_unit_zero (S := S2048x512) _ hz2, View.readAt_eq_ld, Memref.IsWhole.read_unread, View.ld_unit_zero (S := S2048x512) hz2, View.ld_unit_zero (S := S512x512) hz2, View.ld_unit_zero (S := S2048x1) hz2]

/-- The whole array the call leaves: row r, column q holds (∑ₖ y(r,k)·w(k,q)) · d(r). -/
def T1spec (yb : S8192x512.Idx → EReal) (wb : S512x512.Idx → EReal) (dv : S8192x1.Idx → EReal) : S8192x512.Idx → EReal :=
  toArr2 (fun (r : Fin 8192) (q : Fin 512) => (∑ k : Fin 512, yb (ix2 r k) * wb (ix2 k q)) * dv (ix2 r 0))

/-- The printed index maps over the four grid points: the row block of the output is the row block of the left
    factor and of the column d; the weight block never moves. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 3 :=
  (by decide +kernel : ∀ t : Fin grid1.N, _)

theorem idx_onto1 : ∀ (q0 : Fin 4), ∃ t : Fin cfg1.N, win1_3.index t = ![q0.val, 0] :=
  (by decide +kernel : ∀ (q0 : Fin 4), ∃ t : Fin grid1.N, win1_3.index t = ![q0.val, 0])

/-- What point t writes back is block t of the whole-array function of the arrays as the region finds them. -/
theorem flushed1_eq (c : Dev nD) (t : Fin cfg1.N) :
    (dat1 V c).flushed 3 t = ((cfg1.win 3).blk t).view.read (Elt Ideal) (T1spec (V c main_v1) (V c main_v2) (V c main_v0_1)) := by
  show (cfg1.win 3).cut (grid1.coords t) ((dat1 V c).after 3 t) = _
  rw [after1_3, out1_3_eq]
  obtain ⟨e0, e1, e2, e3, e4, e5, e6, e7⟩ := idx_facts1 t
  funext j
  obtain ⟨p, q, rfl⟩ : ∃ (p : Fin 2048) (q : Fin 512), j = ix2 p q := ⟨j 0, j 1, eq_ix2 j⟩
  show k1_pay3 (F := Ideal) (k1_pay2 k1_pay1 (iblk1 V c 0 t) (iblk1 V c 1 t)) (iblk1 V c 2 t) (ix2 p q) = _
  rw [k1_pay3_apply, k1_pay2_zero_apply]
  show _ = T1spec (V c main_v1) (V c main_v2) (V c main_v0_1) (((cfg1.win 3).blk t).view.emb (ix2 p q))
  unfold T1spec toArr2
  refine congrArg₂ (· * ·) (Finset.sum_congr rfl fun k _ => congrArg₂ (· * ·) ?_ ?_) ?_
  · show V c main_v1 (((cfg1.win 0).blk t).view.emb (ix2 p k)) = V c main_v1 (ix2 _ k)
    congr 1; funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 512 + 1 * k.val = k.val; omega
  · show V c main_v2 (((cfg1.win 1).blk t).view.emb (ix2 k q)) = V c main_v2 (ix2 k _)
    congr 1; funext a; apply Fin.ext
    match a with
    | ⟨0, _⟩ => show win1_1.index t (0 : Fin 2) * 512 + 1 * k.val = k.val; omega
    | ⟨1, _⟩ => show win1_1.index t (1 : Fin 2) * 512 + 1 * q.val = win1_3.index t (1 : Fin 2) * 512 + 1 * q.val; omega
  · show V c main_v0_1 (((cfg1.win 2).blk t).view.emb (ix2 p 0)) = V c main_v0_1 (ix2 _ 0)
    congr 1; funext a; apply Fin.ext
    match a with
    | ⟨0, _⟩ => show win1_2.index t (0 : Fin 2) * 2048 + 1 * p.val = win1_3.index t (0 : Fin 2) * 2048 + 1 * p.val; omega
    | ⟨1, _⟩ => show win1_2.index t (1 : Fin 2) * 1 + 1 * 0 = 0; omega

/-- An index of the array is in point t's block iff each coordinate is in the block's range on its axis. -/
theorem mem_blk1 (t : Fin cfg1.N) (i : S8192x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v4).slice (win1_3.rect t)).set ↔ _
  rw [View.set_slice_whole, Rect.mem_set_unit]
  exact Iff.rfl

/-- The four row blocks tile the array: row r lies in block r / 2048. -/
theorem cover1 (i : S8192x512.Idx) : ∃ t : Fin cfg1.N, (cfg1.win 3).flush t = true ∧ i ∈ ((cfg1.win 3).blk t).view.set := by
  have hi0 : (i 0).val < 8192 := (i 0).isLt
  have hi1 : (i 1).val < 512 := (i 1).isLt
  obtain ⟨t, ht⟩ := idx_onto1 ⟨(i 0).val / 2048, by omega⟩
  have q0 : win1_3.index t (0 : Fin 2) = (i 0).val / 2048 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- THE ARRAY the call leaves: one whole-array function of the arrays the region finds. -/
theorem final1 (c : Dev nD) : (dat1 V c).arrAt 3 cfg1.N = T1spec (V c main_v1) (V c main_v2) (V c main_v0_1) :=
  (dat1 V c).arrAt_eq_of_cover 3 (T1spec (V c main_v1) (V c main_v2) (V c main_v0_1)) (fun t _ => flushed1_eq V c t) cover1

end Cert.KernelIdeal.HandValue

end
-- ==== Proof.PayK2.lean ====
/-
  The first aggregation kernel's arithmetic at an index: `h = max ((∑ j, a i j · t1 j c) · d i + b1 c) 0`. A grid
  point accumulates the product of a `[2048, 1024]` block of `adj + I` with a `[1024, 512]` block of `t1` into a
  `[2048, 512]` accumulator that starts at zero; at the last step the accumulator is scaled by the row's scale
  (a `[2048, 1]` column), the bias (a `[1, 512]` row) is added, and the maximum with zero is taken.
-/
import proofs.«124667_j47708496724388_2_alg».proof.Proof.Gen.KernelIdeal.Skeleton
import proofs.«124667_j47708496724388_2_alg».proof.Proof.GcnEye
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn.Payloads

open Cert.KernelIdeal Cert.KernelIdeal.Gen Idealize.ShloMosaic Idealize.ShloMosaic.ValueIdx

/-- The matrix unit's product of a `[2048, 1024]` block with a `[1024, 512]` block into the zero accumulator, at `(p, q)`:
    the sum over the contracted coordinate of the products. -/
theorem mm2_apply (l : FVec Ideal S2048x1024 .bf16) (r : FVec Ideal S1024x512 .bf16) (p : Fin 2048) (q : Fin 512) :
    matmul dot_S2048x1024_S1024x512_S2048x512_1_0_0_1_n_n none l r (constant (F := Ideal) S2048x512 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 p q) ((contrEquiv1 dot_S2048x1024_S1024x512_S2048x512_1_0_0_1_n_n 1024 rfl rfl).symm k) = ix2 p k :=
    funext fun a => Fin.ext (by
      match a with
      | ⟨0, _⟩ =>
        show (dot_S2048x1024_S1024x512_S2048x512_1_0_0_1_n_n.lhsIdx (ix2 p q) _ 0).val = p.val
        unfold DotDims.lhsIdx
        rw [dif_neg (show ¬(0 : Fin S2048x1024.rank) ∈ dot_S2048x1024_S1024x512_S2048x512_1_0_0_1_n_n.lhsBatch by decide),
          dif_pos (show (0 : Fin S2048x1024.rank) ∈ dot_S2048x1024_S1024x512_S2048x512_1_0_0_1_n_n.lhsNonContracting by decide)]
        rfl
      | ⟨1, _⟩ => exact (dot_S2048x1024_S1024x512_S2048x512_1_0_0_1_n_n.lhsIdx_val_of_single rfl (ix2 p q) _).trans hk)
  have er : dot_S2048x1024_S1024x512_S2048x512_1_0_0_1_n_n.rhsIdx (ix2 p q) ((contrEquiv1 dot_S2048x1024_S1024x512_S2048x512_1_0_0_1_n_n 1024 rfl rfl).symm k) = ix2 k q :=
    funext fun a => Fin.ext (by
      match a with
      | ⟨0, _⟩ => exact (dot_S2048x1024_S1024x512_S2048x512_1_0_0_1_n_n.rhsIdx_val_of_single rfl (ix2 p q) _).trans hk
      | ⟨1, _⟩ =>
        show (dot_S2048x1024_S1024x512_S2048x512_1_0_0_1_n_n.rhsIdx (ix2 p q) _ 1).val = q.val
        unfold DotDims.rhsIdx
        rw [dif_neg (show ¬(1 : Fin S1024x512.rank) ∈ dot_S2048x1024_S1024x512_S2048x512_1_0_0_1_n_n.rhsBatch by decide),
          dif_pos (show (1 : Fin S1024x512.rank) ∈ dot_S2048x1024_S1024x512_S2048x512_1_0_0_1_n_n.rhsNonContracting by decide)]
        rfl)
  rw [el, er]

/-- The accumulator's initial value is zero. -/
theorem k2_pay1_apply (p : Fin 2048) (q : Fin 512) : k2_pay1 (F := Ideal) (ix2 p q) = 0 := by
  unfold k2_pay1
  rw [shapeCast_self]
  exact Ideal.ofBits_zero_f32

/-- One accumulation step: the accumulator plus the product's entry. -/
theorem k2_pay2_apply (v3 : FVec Ideal S2048x512 .f32) (v4 : FVec Ideal S2048x1024 .bf16) (v6 : FVec Ideal S1024x512 .bf16)
    (p : Fin 2048) (q : Fin 512) :
    k2_pay2 (F := Ideal) v3 v4 v6 (ix2 p q) = v3 (ix2 p q) + ∑ k : Fin 1024, v4 (ix2 p k) * v6 (ix2 k q) := by
  unfold k2_pay2
  rw [shapeCast_self, shapeCast_self, shapeCast_self]
  exact congrArg (v3 (ix2 p q) + ·) (mm2_apply v4 v6 p q)

/-- From the zero accumulator: the product's entry. -/
theorem k2_pay2_zero_apply (v4 : FVec Ideal S2048x1024 .bf16) (v6 : FVec Ideal S1024x512 .bf16) (p : Fin 2048) (q : Fin 512) :
    k2_pay2 (F := Ideal) (k2_pay1 (F := Ideal)) v4 v6 (ix2 p q) = ∑ k : Fin 1024, v4 (ix2 p k) * v6 (ix2 k q) := by
  rw [k2_pay2_apply, k2_pay1_apply, zero_add]

/-- The last step: the accumulator's entry times the row's scale, plus the column's bias, then \`max · 0\`. -/
theorem k2_pay3_apply (v16 : FVec Ideal S2048x512 .f32) (v17 : FVec Ideal S2048x1 .f32) (v21 : FVec Ideal S1x512 .f32)
    (p : Fin 2048) (q : Fin 512) :
    k2_pay3 (F := Ideal) v16 v17 v21 (ix2 p q)
      = max (v16 (ix2 p q) * v17 (ix2 p (0 : Fin 1)) + v21 (ix2 (0 : Fin 1) q)) 0 := by
  unfold k2_pay3
  rw [shapeCast_self, shapeCast_self]
  have e1 : broadcastTo S2048x512 v17 broadcasts_S2048x1_S2048x512 (ix2 p q) = v17 (ix2 p (0 : Fin 1)) :=
    (broadcastTo_apply v17 broadcasts_S2048x1_S2048x512 (ix2 p q) (ix2 p (0 : Fin 1)) fun a => by
    match a with
    | ⟨0, _⟩ => show p.val = if (2048 : ℕ) = 1 then 0 else p.val; rw [if_neg (by decide)]
    | ⟨1, _⟩ => show 0 = if (1 : ℕ) = 1 then 0 else q.val; rw [if_pos rfl])
  have e2 : broadcastTo S2048x512 v21 broadcasts_S1x512_S2048x512 (ix2 p q) = v21 (ix2 (0 : Fin 1) q) :=
    (broadcastTo_apply v21 broadcasts_S1x512_S2048x512 (ix2 p q) (ix2 (0 : Fin 1) q) fun a => by
    match a with
    | ⟨0, _⟩ => show 0 = if (1 : ℕ) = 1 then 0 else p.val; rw [if_pos rfl]
    | ⟨1, _⟩ => show q.val = if (512 : ℕ) = 1 then 0 else q.val; rw [if_neg (by decide)])
  show max (v16 (ix2 p q) * broadcastTo S2048x512 v17 broadcasts_S2048x1_S2048x512 (ix2 p q)
      + broadcastTo S2048x512 v21 broadcasts_S1x512_S2048x512 (ix2 p q)) (Ideal.ofBits .f32 0x00000000#32) = _
  rw [e1, e2, Ideal.ofBits_zero_f32]

end Gcn.Payloads

end
-- ==== Proof.SpmmSpec.lean ====
/-
  The whole-array functions the two aggregation calls leave: entry (r, q) is the product of row r of the matrix with
  column q of the features, scaled by the row's factor, plus the bias entry — clamped below at zero for the first
  layer.
-/
import proofs.«124667_j47708496724388_2_alg».proof.KernelIdeal
import proofs.«124667_j47708496724388_2_alg».proof.Proof.GcnSpec

noncomputable section

namespace Cert.KernelIdeal.HandValue

open Cert.KernelIdeal Idealize.ShloMosaic Idealize.ShloMosaic.ValueIdx Gcn

/-- First-layer aggregation with the rectifier. -/
def H2spec (ai : S8192x8192.Idx → EReal) (tb : S8192x512.Idx → EReal) (dv : S8192x1.Idx → EReal) (bias : S1x512.Idx → EReal) :
    S8192x512.Idx → EReal :=
  toArr2 (fun (r : Fin 8192) (q : Fin 512) => max ((∑ j : Fin 8192, ai (ix2 r j) * tb (ix2 j q)) * dv (ix2 r (0 : Fin 1)) + bias (ix2 (0 : Fin 1) q)) 0)

/-- Second-layer aggregation. -/
def A4spec (ai : S8192x8192.Idx → EReal) (tb : S8192x256.Idx → EReal) (dv : S8192x1.Idx → EReal) (bias : S1x256.Idx → EReal) :
    S8192x256.Idx → EReal :=
  toArr2 (fun (r : Fin 8192) (q : Fin 256) => (∑ j : Fin 8192, ai (ix2 r j) * tb (ix2 j q)) * dv (ix2 r (0 : Fin 1)) + bias (ix2 (0 : Fin 1) q))

end Cert.KernelIdeal.HandValue

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.Values2.lean ====
/-
  The third call's output as one whole-array function. The grid is four row bands by eight steps of the contraction
  axis; a scratch accumulator is carried along the eight steps of a band: zeroed at step 0, it receives at step k
  the product of the band's `[2048, 1024]` block k of the matrix with block k of the features, so after step k it
  holds the sum of the first k + 1 block products. Only at step 7 is the output band written: the accumulator —
  by then the full sum over the 8192 columns — scaled by the row's factor, plus the bias, clamped below at zero. The
  four bands tile the array.
-/
import proofs.«124667_j47708496724388_2_alg».proof.Proof.Region2
import proofs.«124667_j47708496724388_2_alg».proof.Proof.GcnSpec
import proofs.«124667_j47708496724388_2_alg».proof.Proof.PayK2
import proofs.«124667_j47708496724388_2_alg».proof.Proof.ValueLib
import proofs.«124667_j47708496724388_2_alg».proof.Proof.SpmmSpec
import proofs.«124667_j47708496724388_2_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn Gcn.Payloads

variable (V : (c : Dev nD) → (b : Ref sig .tc) → Buf (Elt Ideal) ((c : Thread nD τ).loc b))

/-! ## The three buffer contents as payloads -/

theorem zero2_eq : zero2 (F := Ideal) = k2_pay1 (F := Ideal) := by
  unfold zero2
  exact View.canon_unit_zero hz2 _ _

theorem step2_eq (xs : Vec Ideal S2048x512 .f32) (a : Vec Ideal S2048x1024 .bf16) (b : Vec Ideal S1024x512 .bf16) :
    step2 (F := Ideal) xs a b = k2_pay2 (F := Ideal) xs a b := by
  unfold step2
  rw [View.canon_unit_zero hz2]
  simp only [View.ld_unit_zero (S := S2048x512) hz2, View.ld_unit_zero (S := S2048x1024) hz2, View.ld_unit_zero (S := S1024x512) hz2]

theorem out2_eq (acc : Vec Ideal S2048x512 .f32) (d : Vec Ideal S2048x1 .f32) (bias : Vec Ideal S1x512 .f32) :
    out2 (F := Ideal) acc d bias = k2_pay3 (F := Ideal) acc d bias := by
  unfold out2
  rw [View.canon_unit_zero hz2]
  simp only [View.ld_unit_zero (S := S2048x512) hz2, View.ld_unit_zero (S := S2048x1) hz2, View.ld_unit_zero (S := S1x512) hz2]

/-! ## Indices -/

/-- A number as a row or column index of an 8192-long axis (reduced modulo 8192, which changes nothing in range). -/
def fin8192_2 (n : ℕ) : Fin 8192 := ⟨n % 8192, Nat.mod_lt _ (by decide)⟩

/-- The printed index maps over the 32 grid points: point t is band t / 8, step t % 8; the matrix block is
    (band, step), the feature block (step, 0), the scale and output blocks (band, 0), the bias block (0, 0). -/
theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = t.val / 8 ∧ win2_4.index t (1 : Fin 2) = 0 ∧ t.val < 32 :=
  (by decide +kernel : ∀ t : Fin grid2.N, _)

theorem idx_onto2 : ∀ (q0 : Fin 4), ∃ t : Fin cfg2.N, win2_4.index t = ![q0.val, 0] ∧ t.val % 8 = 7 :=
  (by decide +kernel : ∀ (q0 : Fin 4), ∃ t : Fin grid2.N, win2_4.index t = ![q0.val, 0] ∧ t.val % 8 = 7)

/-! ## The blocks read at an index -/

theorem blkA2 (c : Dev nD) (t : Fin cfg2.N) (p : Fin 2048) (k : Fin 1024) :
    iblk2 V c 0 t (ix2 p k)
      = V c main_v0_0 (ix2 (fin8192_2 (2048 * (t.val / 8) + p.val)) (fin8192_2 (1024 * (t.val % 8) + k.val))) := by
  obtain ⟨e0, e1, -, -, -, -, -, -, -, -, ht⟩ := idx_facts2 t
  show V c main_v0_0 (((cfg2.win 0).blk t).view.emb (ix2 p k)) = _
  congr 1; funext a; apply Fin.ext
  match a with
  | ⟨0, _⟩ => show win2_0.index t (0 : Fin 2) * 2048 + 1 * p.val = (2048 * (t.val / 8) + p.val) % 8192; omega
  | ⟨1, _⟩ => show win2_0.index t (1 : Fin 2) * 1024 + 1 * k.val = (1024 * (t.val % 8) + k.val) % 8192; omega

theorem blkB2 (c : Dev nD) (t : Fin cfg2.N) (k : Fin 1024) (q : Fin 512) :
    iblk2 V c 1 t (ix2 k q) = V c main_v4 (ix2 (fin8192_2 (1024 * (t.val % 8) + k.val)) q) := by
  obtain ⟨-, -, e2, e3, -, -, -, -, -, -, ht⟩ := idx_facts2 t
  show V c main_v4 (((cfg2.win 1).blk t).view.emb (ix2 k q)) = _
  congr 1; funext a; apply Fin.ext
  match a with
  | ⟨0, _⟩ => show win2_1.index t (0 : Fin 2) * 1024 + 1 * k.val = (1024 * (t.val % 8) + k.val) % 8192; omega
  | ⟨1, _⟩ => show win2_1.index t (1 : Fin 2) * 512 + 1 * q.val = q.val; omega

theorem blkD2 (c : Dev nD) (t : Fin cfg2.N) (p : Fin 2048) :
    iblk2 V c 2 t (ix2 p (0 : Fin 1)) = V c main_v0_1 (ix2 (fin8192_2 (2048 * (t.val / 8) + p.val)) (0 : Fin 1)) := by
  obtain ⟨-, -, -, -, e4, e5, -, -, -, -, ht⟩ := idx_facts2 t
  show V c main_v0_1 (((cfg2.win 2).blk t).view.emb (ix2 p (0 : Fin 1))) = _
  congr 1; funext a; apply Fin.ext
  match a with
  | ⟨0, _⟩ => show win2_2.index t (0 : Fin 2) * 2048 + 1 * p.val = (2048 * (t.val / 8) + p.val) % 8192; omega
  | ⟨1, _⟩ => show win2_2.index t (1 : Fin 2) * 1 + 1 * 0 = 0; omega

theorem blkBias2 (c : Dev nD) (t : Fin cfg2.N) (q : Fin 512) :
    iblk2 V c 3 t (ix2 (0 : Fin 1) q) = V c main_v5 (ix2 (0 : Fin 1) q) := by
  obtain ⟨-, -, -, -, -, -, e6, e7, -, -, ht⟩ := idx_facts2 t
  show V c main_v5 (((cfg2.win 3).blk t).view.emb (ix2 (0 : Fin 1) q)) = _
  congr 1; funext a; apply Fin.ext
  match a with
  | ⟨0, _⟩ => show win2_3.index t (0 : Fin 2) * 1 + 1 * 0 = 0; omega
  | ⟨1, _⟩ => show win2_3.index t (1 : Fin 2) * 512 + 1 * q.val = q.val; omega

/-! ## The carried accumulator -/

/-- The product of block `kb` of row `r` of the matrix with block `kb` of column `q` of the features. -/
def term2 (A : S8192x8192.Idx → EReal) (T : S8192x512.Idx → EReal) (r : ℕ) (q : Fin 512) (kb : ℕ) : EReal :=
  ∑ jj : Fin 1024, A (ix2 (fin8192_2 r) (fin8192_2 (1024 * kb + jj.val))) * T (ix2 (fin8192_2 (1024 * kb + jj.val)) q)

/-- One accumulation step at a point, read at an index: the accumulator plus the term of the point's step. -/
theorem stepAt2_apply (xs : Vec Ideal S2048x512 .f32) (c : Dev nD) (t : Fin cfg2.N) (p : Fin 2048) (q : Fin 512) :
    k2_pay2 (F := Ideal) xs (iblk2 V c 0 t) (iblk2 V c 1 t) (ix2 p q)
      = xs (ix2 p q) + term2 (V c main_v0_0) (V c main_v4) (2048 * (t.val / 8) + p.val) q (t.val % 8) := by
  rw [k2_pay2_apply]
  refine congrArg (xs (ix2 p q) + ·) ?_
  unfold term2
  refine Finset.sum_congr rfl fun k _ => ?_
  rw [blkA2, blkB2]

/-- The same from the zeroed accumulator. -/
theorem stepZero2_apply (c : Dev nD) (t : Fin cfg2.N) (p : Fin 2048) (q : Fin 512) :
    k2_pay2 (F := Ideal) (k2_pay1 (F := Ideal)) (iblk2 V c 0 t) (iblk2 V c 1 t) (ix2 p q)
      = term2 (V c main_v0_0) (V c main_v4) (2048 * (t.val / 8) + p.val) q (t.val % 8) := by
  rw [stepAt2_apply, k2_pay1_apply, zero_add]

/-- After the point at position n the accumulator holds, at (p, q), the sum of the band's first n % 8 + 1 block
    products. -/
theorem acc2_apply (c : Dev nD) : ∀ (n : ℕ) (hn : n < cfg2.N) (p : Fin 2048) (q : Fin 512),
    accAt2 V c n hn (ix2 p q)
      = ∑ kb ∈ Finset.range (n % 8 + 1), term2 (V c main_v0_0) (V c main_v4) (2048 * (n / 8) + p.val) q kb := by
  intro n
  induction n with
  | zero =>
    intro hn p q
    rw [accAt2_A V c ⟨0, hn⟩ rfl, step2_eq, zero2_eq, stepZero2_apply]
    show _ = ∑ kb ∈ Finset.range 1, _
    rw [Finset.sum_range_one]
    rfl
  | succ n ih =>
    intro hn p q
    by_cases h0 : (n + 1) % 8 = 0
    · rw [accAt2_A V c ⟨n + 1, hn⟩ h0, step2_eq, zero2_eq, stepZero2_apply]
      show term2 _ _ (2048 * ((n + 1) / 8) + p.val) q ((n + 1) % 8) = _
      rw [h0, Finset.sum_range_one]
    · have e : accAt2 V c (n + 1) hn
          = step2 (accAt2 V c n (Nat.lt_of_succ_lt hn)) (iblk2 V c 0 ⟨n + 1, hn⟩) (iblk2 V c 1 ⟨n + 1, hn⟩) := if_neg h0
      rw [e, step2_eq, stepAt2_apply, ih]
      show _ + term2 _ _ (2048 * ((n + 1) / 8) + p.val) q ((n + 1) % 8) = _
      have hd : (n + 1) / 8 = n / 8 := by omega
      have hm : (n + 1) % 8 = n % 8 + 1 := by omega
      rw [hd, hm, Finset.sum_range_succ _ (n % 8 + 1)]

/-- The eight block products of a row make the whole sum over the 8192 columns. -/
theorem blocks2_sum (A : S8192x8192.Idx → EReal) (T : S8192x512.Idx → EReal) (r : ℕ) (q : Fin 512) :
    (∑ kb ∈ Finset.range 8, term2 A T r q kb) = ∑ j : Fin 8192, A (ix2 (fin8192_2 r) j) * T (ix2 j q) := by
  rw [Finset.sum_range, LibBlockSum.sum_blocks 8 1024 (fun j : Fin 8192 => A (ix2 (fin8192_2 r) j) * T (ix2 j q))]
  refine Finset.sum_congr rfl fun kb _ => ?_
  unfold term2
  refine Finset.sum_congr rfl fun jj _ => ?_
  have e : fin8192_2 (1024 * kb.val + jj.val) = ⟨1024 * kb.val + jj.val, by have := kb.isLt; have := jj.isLt; omega⟩ :=
    Fin.ext (Nat.mod_eq_of_lt (by have := kb.isLt; have := jj.isLt; omega))
  rw [e]

/-! ## The whole array -/

/-- What a point of step 7 writes back is its band of the whole-array function of the arrays the region finds. -/
theorem flushed2_eq (c : Dev nD) (t : Fin cfg2.N) (h7 : t.val % 8 = 7) :
    (dat2 V c).flushed 4 t
      = ((cfg2.win 4).blk t).view.read (Elt Ideal) (H2spec (V c main_v0_0) (V c main_v4) (V c main_v0_1) (V c main_v5)) := by
  show (cfg2.win 4).cut (grid2.coords t) ((dat2 V c).after 4 t) = _
  rw [after2_4, out2_eq]
  obtain ⟨-, -, -, -, -, -, -, -, e8, e9, ht⟩ := idx_facts2 t
  funext j
  obtain ⟨p, q, rfl⟩ : ∃ (p : Fin 2048) (q : Fin 512), j = ix2 p q := ⟨j 0, j 1, eq_ix2 j⟩
  show k2_pay3 (F := Ideal) (accAt2 V c t.val t.isLt) (iblk2 V c 2 t) (iblk2 V c 3 t) (ix2 p q) = _
  rw [k2_pay3_apply, acc2_apply, blkD2, blkBias2, h7, blocks2_sum]
  show _ = H2spec (V c main_v0_0) (V c main_v4) (V c main_v0_1) (V c main_v5) (((cfg2.win 4).blk t).view.emb (ix2 p q))
  have he : ((cfg2.win 4).blk t).view.emb (ix2 p q) = ix2 (fin8192_2 (2048 * (t.val / 8) + p.val)) q := by
    funext a; apply Fin.ext
    match a with
    | ⟨0, _⟩ => show win2_4.index t (0 : Fin 2) * 2048 + 1 * p.val = (2048 * (t.val / 8) + p.val) % 8192; omega
    | ⟨1, _⟩ => show win2_4.index t (1 : Fin 2) * 512 + 1 * q.val = q.val; omega
  rw [he]
  rfl

/-- An index of the array is in point t's block iff each coordinate is in the block's range on its axis. -/
theorem mem_blk2 (t : Fin cfg2.N) (i : S8192x512.Idx) :
    i ∈ ((cfg2.win 4).blk t).view.set ↔ ∀ a : Fin 2, win2_4.index t a * S2048x512.size a ≤ (i a).val ∧ (i a).val < win2_4.index t a * S2048x512.size a + S2048x512.size a := by
  show i ∈ ((View.whole main_v6).slice (win2_4.rect t)).set ↔ _
  rw [View.set_slice_whole, Rect.mem_set_unit]
  exact Iff.rfl

/-- The four row bands, each written at its step 7, tile the array: row r lies in band r / 2048. -/
theorem cover2 (i : S8192x512.Idx) : ∃ t : Fin cfg2.N, (cfg2.win 4).flush t = true ∧ i ∈ ((cfg2.win 4).blk t).view.set := by
  have hi0 : (i 0).val < 8192 := (i 0).isLt
  have hi1 : (i 1).val < 512 := (i 1).isLt
  obtain ⟨t, ht, h7⟩ := idx_onto2 ⟨(i 0).val / 2048, by omega⟩
  have q0 : win2_4.index t (0 : Fin 2) = (i 0).val / 2048 := congrFun ht 0
  have q1 : win2_4.index t (1 : Fin 2) = 0 := congrFun ht 1
  refine ⟨t, (flush2_4 t).mpr h7, ?_⟩
  rw [mem_blk2]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 512 ≤ (i 1).val ∧ (i 1).val < win2_4.index t (1 : Fin 2) * 512 + 512; omega

/-- THE ARRAY the call leaves: one whole-array function of the arrays the region finds. -/
theorem final2 (c : Dev nD) :
    (dat2 V c).arrAt 4 cfg2.N = H2spec (V c main_v0_0) (V c main_v4) (V c main_v0_1) (V c main_v5) :=
  (dat2 V c).arrAt_eq_of_cover 4 (H2spec (V c main_v0_0) (V c main_v4) (V c main_v0_1) (V c main_v5))
    (fun t hf => flushed2_eq V c t ((flush2_4 t).mp hf)) cover2

end Cert.KernelIdeal.HandValue

end
-- ==== Proof.PayK3.lean ====
/-
  The second projection kernel's arithmetic at an index: `t2 = (h W2) · d`. A grid point accumulates the product of
  a `[2048, 512]` block of `h` with the `[512, 256]` weights into an accumulator that starts at zero; at the last
  step the accumulator is scaled by the row's scale.
-/
import proofs.«124667_j47708496724388_2_alg».proof.Proof.Gen.KernelIdeal.Skeleton
import proofs.«124667_j47708496724388_2_alg».proof.Proof.GcnEye
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn.Payloads

open Cert.KernelIdeal Cert.KernelIdeal.Gen Idealize.ShloMosaic Idealize.ShloMosaic.ValueIdx

/-- The matrix unit's product of a `[2048, 512]` block with a `[512, 256]` block into the zero accumulator, at `(p, q)`:
    the sum over the contracted coordinate of the products. -/
theorem mm3_apply (l : FVec Ideal S2048x512 .bf16) (r : FVec Ideal S512x256 .bf16) (p : Fin 2048) (q : Fin 256) :
    matmul dot_S2048x512_S512x256_S2048x256_1_0_0_1_n_n none l r (constant (F := Ideal) S2048x256 .f32 0x00000000#32) (ix2 p q)
      = ∑ k : Fin 512, l (ix2 p k) * r (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k :=
    funext fun a => Fin.ext (by
      match a with
      | ⟨0, _⟩ =>
        show (dot_S2048x512_S512x256_S2048x256_1_0_0_1_n_n.lhsIdx (ix2 p q) _ 0).val = p.val
        unfold DotDims.lhsIdx
        rw [dif_neg (show ¬(0 : Fin S2048x512.rank) ∈ dot_S2048x512_S512x256_S2048x256_1_0_0_1_n_n.lhsBatch by decide),
          dif_pos (show (0 : Fin S2048x512.rank) ∈ dot_S2048x512_S512x256_S2048x256_1_0_0_1_n_n.lhsNonContracting by decide)]
        rfl
      | ⟨1, _⟩ => exact (dot_S2048x512_S512x256_S2048x256_1_0_0_1_n_n.lhsIdx_val_of_single rfl (ix2 p q) _).trans hk)
  have er : dot_S2048x512_S512x256_S2048x256_1_0_0_1_n_n.rhsIdx (ix2 p q) ((contrEquiv1 dot_S2048x512_S512x256_S2048x256_1_0_0_1_n_n 512 rfl rfl).symm k) = ix2 k q :=
    funext fun a => Fin.ext (by
      match a with
      | ⟨0, _⟩ => exact (dot_S2048x512_S512x256_S2048x256_1_0_0_1_n_n.rhsIdx_val_of_single rfl (ix2 p q) _).trans hk
      | ⟨1, _⟩ =>
        show (dot_S2048x512_S512x256_S2048x256_1_0_0_1_n_n.rhsIdx (ix2 p q) _ 1).val = q.val
        unfold DotDims.rhsIdx
        rw [dif_neg (show ¬(1 : Fin S512x256.rank) ∈ dot_S2048x512_S512x256_S2048x256_1_0_0_1_n_n.rhsBatch by decide),
          dif_pos (show (1 : Fin S512x256.rank) ∈ dot_S2048x512_S512x256_S2048x256_1_0_0_1_n_n.rhsNonContracting by decide)]
        rfl)
  rw [el, er]

/-- The accumulator's initial value is zero. -/
theorem k3_pay1_apply (p : Fin 2048) (q : Fin 256) : k3_pay1 (F := Ideal) (ix2 p q) = 0 := by
  unfold k3_pay1
  rw [shapeCast_self]
  exact Ideal.ofBits_zero_f32

/-- One accumulation step: the accumulator plus the product's entry. -/
theorem k3_pay2_apply (v3 : FVec Ideal S2048x256 .f32) (v4 : FVec Ideal S2048x512 .bf16) (v6 : FVec Ideal S512x256 .bf16)
    (p : Fin 2048) (q : Fin 256) :
    k3_pay2 (F := Ideal) v3 v4 v6 (ix2 p q) = v3 (ix2 p q) + ∑ k : Fin 512, v4 (ix2 p k) * v6 (ix2 k q) := by
  unfold k3_pay2
  rw [shapeCast_self, shapeCast_self, shapeCast_self]
  exact congrArg (v3 (ix2 p q) + ·) (mm3_apply v4 v6 p q)

/-- From the zero accumulator: the product's entry. -/
theorem k3_pay2_zero_apply (v4 : FVec Ideal S2048x512 .bf16) (v6 : FVec Ideal S512x256 .bf16) (p : Fin 2048) (q : Fin 256) :
    k3_pay2 (F := Ideal) (k3_pay1 (F := Ideal)) v4 v6 (ix2 p q) = ∑ k : Fin 512, v4 (ix2 p k) * v6 (ix2 k q) := by
  rw [k3_pay2_apply, k3_pay1_apply, zero_add]

/-- The last step: the accumulator's entry times the row's scale. -/
theorem k3_pay3_apply (v16 : FVec Ideal S2048x256 .f32) (v17 : FVec Ideal S2048x1 .f32) (p : Fin 2048) (q : Fin 256) :
    k3_pay3 (F := Ideal) v16 v17 (ix2 p q) = v16 (ix2 p q) * v17 (ix2 p (0 : Fin 1)) := by
  unfold k3_pay3
  rw [shapeCast_self]
  show v16 (ix2 p q) * broadcastTo S2048x256 v17 broadcasts_S2048x1_S2048x256 (ix2 p q) = _
  exact congrArg (v16 (ix2 p q) * ·) (broadcastTo_apply v17 broadcasts_S2048x1_S2048x256 (ix2 p q) (ix2 p (0 : Fin 1)) fun a => by
    match a with
    | ⟨0, _⟩ => show p.val = if (2048 : ℕ) = 1 then 0 else p.val; rw [if_neg (by decide)]
    | ⟨1, _⟩ => show 0 = if (1 : ℕ) = 1 then 0 else q.val; rw [if_pos rfl])

end Gcn.Payloads

end
-- ==== Proof.Values3.lean ====
/-
  The fourth call's output as one whole-array function: block t of the output is rows 2048·t … of (h · W2), each row
  scaled by that row's reciprocal square root. The four row blocks tile the array.
-/
import proofs.«124667_j47708496724388_2_alg».proof.Proof.Region3
import proofs.«124667_j47708496724388_2_alg».proof.Proof.GcnSpec
import proofs.«124667_j47708496724388_2_alg».proof.Proof.PayK3
import proofs.«124667_j47708496724388_2_alg».proof.Proof.ValueLib
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn

variable (V : (c : Dev nD) → (b : Ref sig .tc) → Buf (Elt Ideal) ((c : Thread nD τ).loc b))

open Gcn.Payloads

/-- What the body leaves in the output's buffer is the scaled block product of the three input blocks: the
    accumulator is zeroed, receives the one block product, and is read back for the scaling. -/
theorem out3_3_eq (c : Dev nD) (i : grid3.Coords) (arg2 : Memref sig .tc .vmem S2048x512 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x256 .bf16) (harg5 : arg5.IsWhole) (arg6 : Memref sig .tc .vmem S2048x256 .f32) (harg6 : arg6.IsWhole) (hc0 : cond3_0 i) (hc1 : cond3_1 i)
    (x0 : Vec Ideal S2048x512 .bf16) (x1 : Vec Ideal S512x256 .bf16) (x2 : Vec Ideal S2048x1 .f32) :
    out3_3 c i arg2 harg2 arg3 harg3 arg4 harg4 arg5 harg5 arg6 harg6 hc0 hc1 x0 x1 x2 = k3_pay3 (k3_pay2 (k3_pay1 (F := Ideal)) x0 x1) x2 := by
  unfold out3_3
  rw [View.read_writes_eq_canon _ _ _ (cover3_3 c i arg2 harg2 arg3 harg3 arg4 harg4 arg5 harg5 arg6 harg6 hc0 hc1 x0 x1 x2)]
  unfold kernelRun3
  dsimp only
  sl_unfold_words
  rw [View.canon_unit_zero hz2]
  simp only [readCov_cons_whole (S := S2048x256) _ hz2, View.readCov_unit_zero (S := S2048x256) _ hz2, View.readAt_eq_ld, Memref.IsWhole.read_unread, View.ld_unit_zero (S := S2048x512) hz2, View.ld_unit_zero (S := S512x256) hz2, View.ld_unit_zero (S := S2048x1) hz2]

/-- The whole array the call leaves: row r, column q holds (∑ₖ y(r,k)·w(k,q)) · d(r). -/
def T3spec (yb : S8192x512.Idx → EReal) (wb : S512x256.Idx → EReal) (dv : S8192x1.Idx → EReal) : S8192x256.Idx → EReal :=
  toArr2 (fun (r : Fin 8192) (q : Fin 256) => (∑ k : Fin 512, yb (ix2 r k) * wb (ix2 k q)) * dv (ix2 r 0))

/-- The printed index maps over the four grid points: the row block of the output is the row block of the left
    factor and of the column d; the weight block never moves. -/
theorem idx_facts3 : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 ∧ win3_3.index t (0 : Fin 2) ≤ 3 :=
  (by decide +kernel : ∀ t : Fin grid3.N, _)

theorem idx_onto3 : ∀ (q0 : Fin 4), ∃ t : Fin cfg3.N, win3_3.index t = ![q0.val, 0] :=
  (by decide +kernel : ∀ (q0 : Fin 4), ∃ t : Fin grid3.N, win3_3.index t = ![q0.val, 0])

/-- What point t writes back is block t of the whole-array function of the arrays as the region finds them. -/
theorem flushed3_eq (c : Dev nD) (t : Fin cfg3.N) :
    (dat3 V c).flushed 3 t = ((cfg3.win 3).blk t).view.read (Elt Ideal) (T3spec (V c main_v6) (V c main_v3) (V c main_v0_1)) := by
  show (cfg3.win 3).cut (grid3.coords t) ((dat3 V c).after 3 t) = _
  rw [after3_3, out3_3_eq]
  obtain ⟨e0, e1, e2, e3, e4, e5, e6, e7⟩ := idx_facts3 t
  funext j
  obtain ⟨p, q, rfl⟩ : ∃ (p : Fin 2048) (q : Fin 256), j = ix2 p q := ⟨j 0, j 1, eq_ix2 j⟩
  show k3_pay3 (F := Ideal) (k3_pay2 k3_pay1 (iblk3 V c 0 t) (iblk3 V c 1 t)) (iblk3 V c 2 t) (ix2 p q) = _
  rw [k3_pay3_apply, k3_pay2_zero_apply]
  show _ = T3spec (V c main_v6) (V c main_v3) (V c main_v0_1) (((cfg3.win 3).blk t).view.emb (ix2 p q))
  unfold T3spec toArr2
  refine congrArg₂ (· * ·) (Finset.sum_congr rfl fun k _ => congrArg₂ (· * ·) ?_ ?_) ?_
  · show V c main_v6 (((cfg3.win 0).blk t).view.emb (ix2 p k)) = V c main_v6 (ix2 _ k)
    congr 1; funext a; apply Fin.ext
    match a with
    | ⟨0, _⟩ => show win3_0.index t (0 : Fin 2) * 2048 + 1 * p.val = win3_3.index t (0 : Fin 2) * 2048 + 1 * p.val; omega
    | ⟨1, _⟩ => show win3_0.index t (1 : Fin 2) * 512 + 1 * k.val = k.val; omega
  · show V c main_v3 (((cfg3.win 1).blk t).view.emb (ix2 k q)) = V c main_v3 (ix2 k _)
    congr 1; funext a; apply Fin.ext
    match a with
    | ⟨0, _⟩ => show win3_1.index t (0 : Fin 2) * 512 + 1 * k.val = k.val; omega
    | ⟨1, _⟩ => show win3_1.index t (1 : Fin 2) * 256 + 1 * q.val = win3_3.index t (1 : Fin 2) * 256 + 1 * q.val; omega
  · show V c main_v0_1 (((cfg3.win 2).blk t).view.emb (ix2 p 0)) = V c main_v0_1 (ix2 _ 0)
    congr 1; funext a; apply Fin.ext
    match a with
    | ⟨0, _⟩ => show win3_2.index t (0 : Fin 2) * 2048 + 1 * p.val = win3_3.index t (0 : Fin 2) * 2048 + 1 * p.val; omega
    | ⟨1, _⟩ => show win3_2.index t (1 : Fin 2) * 1 + 1 * 0 = 0; omega

/-- An index of the array is in point t's block iff each coordinate is in the block's range on its axis. -/
theorem mem_blk3 (t : Fin cfg3.N) (i : S8192x256.Idx) :
    i ∈ ((cfg3.win 3).blk t).view.set ↔ ∀ a : Fin 2, win3_3.index t a * S2048x256.size a ≤ (i a).val ∧ (i a).val < win3_3.index t a * S2048x256.size a + S2048x256.size a := by
  show i ∈ ((View.whole main_v7).slice (win3_3.rect t)).set ↔ _
  rw [View.set_slice_whole, Rect.mem_set_unit]
  exact Iff.rfl

/-- The four row blocks tile the array: row r lies in block r / 2048. -/
theorem cover3 (i : S8192x256.Idx) : ∃ t : Fin cfg3.N, (cfg3.win 3).flush t = true ∧ i ∈ ((cfg3.win 3).blk t).view.set := by
  have hi0 : (i 0).val < 8192 := (i 0).isLt
  have hi1 : (i 1).val < 256 := (i 1).isLt
  obtain ⟨t, ht⟩ := idx_onto3 ⟨(i 0).val / 2048, by omega⟩
  have q0 : win3_3.index t (0 : Fin 2) = (i 0).val / 2048 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 256 ≤ (i 1).val ∧ (i 1).val < win3_3.index t (1 : Fin 2) * 256 + 256; omega

/-- THE ARRAY the call leaves: one whole-array function of the arrays the region finds. -/
theorem final3 (c : Dev nD) : (dat3 V c).arrAt 3 cfg3.N = T3spec (V c main_v6) (V c main_v3) (V c main_v0_1) :=
  (dat3 V c).arrAt_eq_of_cover 3 (T3spec (V c main_v6) (V c main_v3) (V c main_v0_1)) (fun t _ => flushed3_eq V c t) cover3

end Cert.KernelIdeal.HandValue

end
-- ==== Proof.PayK4.lean ====
/-
  The second aggregation kernel's arithmetic at an index: `h2 = (∑ j, a i j · t2 j c) · d i + b2 c`, with no
  activation: the accumulation of `[2048, 1024]` by `[1024, 256]` products from zero, then the row's scale and
  the column's bias.
-/
import proofs.«124667_j47708496724388_2_alg».proof.Proof.Gen.KernelIdeal.Skeleton
import proofs.«124667_j47708496724388_2_alg».proof.Proof.GcnEye
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn.Payloads

open Cert.KernelIdeal Cert.KernelIdeal.Gen Idealize.ShloMosaic Idealize.ShloMosaic.ValueIdx

/-- The matrix unit's product of a `[2048, 1024]` block with a `[1024, 256]` block into the zero accumulator, at `(p, q)`:
    the sum over the contracted coordinate of the products. -/
theorem mm4_apply (l : FVec Ideal S2048x1024 .bf16) (r : FVec Ideal S1024x256 .bf16) (p : Fin 2048) (q : Fin 256) :
    matmul dot_S2048x1024_S1024x256_S2048x256_1_0_0_1_n_n none l r (constant (F := Ideal) S2048x256 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k :=
    funext fun a => Fin.ext (by
      match a with
      | ⟨0, _⟩ =>
        show (dot_S2048x1024_S1024x256_S2048x256_1_0_0_1_n_n.lhsIdx (ix2 p q) _ 0).val = p.val
        unfold DotDims.lhsIdx
        rw [dif_neg (show ¬(0 : Fin S2048x1024.rank) ∈ dot_S2048x1024_S1024x256_S2048x256_1_0_0_1_n_n.lhsBatch by decide),
          dif_pos (show (0 : Fin S2048x1024.rank) ∈ dot_S2048x1024_S1024x256_S2048x256_1_0_0_1_n_n.lhsNonContracting by decide)]
        rfl
      | ⟨1, _⟩ => exact (dot_S2048x1024_S1024x256_S2048x256_1_0_0_1_n_n.lhsIdx_val_of_single rfl (ix2 p q) _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q :=
    funext fun a => Fin.ext (by
      match a with
      | ⟨0, _⟩ => exact (dot_S2048x1024_S1024x256_S2048x256_1_0_0_1_n_n.rhsIdx_val_of_single rfl (ix2 p q) _).trans hk
      | ⟨1, _⟩ =>
        show (dot_S2048x1024_S1024x256_S2048x256_1_0_0_1_n_n.rhsIdx (ix2 p q) _ 1).val = q.val
        unfold DotDims.rhsIdx
        rw [dif_neg (show ¬(1 : Fin S1024x256.rank) ∈ dot_S2048x1024_S1024x256_S2048x256_1_0_0_1_n_n.rhsBatch by decide),
          dif_pos (show (1 : Fin S1024x256.rank) ∈ dot_S2048x1024_S1024x256_S2048x256_1_0_0_1_n_n.rhsNonContracting by decide)]
        rfl)
  rw [el, er]

/-- The accumulator's initial value is zero. -/
theorem k4_pay1_apply (p : Fin 2048) (q : Fin 256) : k4_pay1 (F := Ideal) (ix2 p q) = 0 := by
  unfold k4_pay1
  rw [shapeCast_self]
  exact Ideal.ofBits_zero_f32

/-- One accumulation step: the accumulator plus the product's entry. -/
theorem k4_pay2_apply (v3 : FVec Ideal S2048x256 .f32) (v4 : FVec Ideal S2048x1024 .bf16) (v6 : FVec Ideal S1024x256 .bf16)
    (p : Fin 2048) (q : Fin 256) :
    k4_pay2 (F := Ideal) v3 v4 v6 (ix2 p q) = v3 (ix2 p q) + ∑ k : Fin 1024, v4 (ix2 p k) * v6 (ix2 k q) := by
  unfold k4_pay2
  rw [shapeCast_self, shapeCast_self, shapeCast_self]
  exact congrArg (v3 (ix2 p q) + ·) (mm4_apply v4 v6 p q)

/-- From the zero accumulator: the product's entry. -/
theorem k4_pay2_zero_apply (v4 : FVec Ideal S2048x1024 .bf16) (v6 : FVec Ideal S1024x256 .bf16) (p : Fin 2048) (q : Fin 256) :
    k4_pay2 (F := Ideal) (k4_pay1 (F := Ideal)) v4 v6 (ix2 p q) = ∑ k : Fin 1024, v4 (ix2 p k) * v6 (ix2 k q) := by
  rw [k4_pay2_apply, k4_pay1_apply, zero_add]

/-- The last step: the accumulator's entry times the row's scale, plus the column's bias. -/
theorem k4_pay3_apply (v16 : FVec Ideal S2048x256 .f32) (v17 : FVec Ideal S2048x1 .f32) (v21 : FVec Ideal S1x256 .f32)
    (p : Fin 2048) (q : Fin 256) :
    k4_pay3 (F := Ideal) v16 v17 v21 (ix2 p q)
      = v16 (ix2 p q) * v17 (ix2 p (0 : Fin 1)) + v21 (ix2 (0 : Fin 1) q) := by
  unfold k4_pay3
  rw [shapeCast_self, shapeCast_self]
  have e1 : broadcastTo S2048x256 v17 broadcasts_S2048x1_S2048x256 (ix2 p q) = v17 (ix2 p (0 : Fin 1)) :=
    (broadcastTo_apply v17 broadcasts_S2048x1_S2048x256 (ix2 p q) (ix2 p (0 : Fin 1)) fun a => by
    match a with
    | ⟨0, _⟩ => show p.val = if (2048 : ℕ) = 1 then 0 else p.val; rw [if_neg (by decide)]
    | ⟨1, _⟩ => show 0 = if (1 : ℕ) = 1 then 0 else q.val; rw [if_pos rfl])
  have e2 : broadcastTo S2048x256 v21 broadcasts_S1x256_S2048x256 (ix2 p q) = v21 (ix2 (0 : Fin 1) q) :=
    (broadcastTo_apply v21 broadcasts_S1x256_S2048x256 (ix2 p q) (ix2 (0 : Fin 1) q) fun a => by
    match a with
    | ⟨0, _⟩ => show 0 = if (1 : ℕ) = 1 then 0 else p.val; rw [if_pos rfl]
    | ⟨1, _⟩ => show q.val = if (256 : ℕ) = 1 then 0 else q.val; rw [if_neg (by decide)])
  show v16 (ix2 p q) * broadcastTo S2048x256 v17 broadcasts_S2048x1_S2048x256 (ix2 p q)
      + broadcastTo S2048x256 v21 broadcasts_S1x256_S2048x256 (ix2 p q) = _
  rw [e1, e2]

end Gcn.Payloads

end
-- ==== Proof.Values4.lean ====
/-
  The fifth call's output as one whole-array function. The grid is four row bands by eight steps of the contraction
  axis; a scratch accumulator is carried along the eight steps of a band: zeroed at step 0, it receives at step k
  the product of the band's `[2048, 1024]` block k of the matrix with block k of the features, so after step k it
  holds the sum of the first k + 1 block products. Only at step 7 is the output band written: the accumulator —
  by then the full sum over the 8192 columns — scaled by the row's factor, plus the bias. The
  four bands tile the array.
-/
import proofs.«124667_j47708496724388_2_alg».proof.Proof.Region4
import proofs.«124667_j47708496724388_2_alg».proof.Proof.GcnSpec
import proofs.«124667_j47708496724388_2_alg».proof.Proof.PayK4
import proofs.«124667_j47708496724388_2_alg».proof.Proof.ValueLib
import proofs.«124667_j47708496724388_2_alg».proof.Proof.SpmmSpec
import proofs.«124667_j47708496724388_2_alg».proof.Proof.LibBlockSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn Gcn.Payloads

variable (V : (c : Dev nD) → (b : Ref sig .tc) → Buf (Elt Ideal) ((c : Thread nD τ).loc b))

/-! ## The three buffer contents as payloads -/

theorem zero4_eq : zero4 (F := Ideal) = k4_pay1 (F := Ideal) := by
  unfold zero4
  exact View.canon_unit_zero hz2 _ _

theorem step4_eq (xs : Vec Ideal S2048x256 .f32) (a : Vec Ideal S2048x1024 .bf16) (b : Vec Ideal S1024x256 .bf16) :
    step4 (F := Ideal) xs a b = k4_pay2 (F := Ideal) xs a b := by
  unfold step4
  rw [View.canon_unit_zero hz2]
  simp only [View.ld_unit_zero (S := S2048x256) hz2, View.ld_unit_zero (S := S2048x1024) hz2, View.ld_unit_zero (S := S1024x256) hz2]

theorem out4_eq (acc : Vec Ideal S2048x256 .f32) (d : Vec Ideal S2048x1 .f32) (bias : Vec Ideal S1x256 .f32) :
    out4 (F := Ideal) acc d bias = k4_pay3 (F := Ideal) acc d bias := by
  unfold out4
  rw [View.canon_unit_zero hz2]
  simp only [View.ld_unit_zero (S := S2048x256) hz2, View.ld_unit_zero (S := S2048x1) hz2, View.ld_unit_zero (S := S1x256) hz2]

/-! ## Indices -/

/-- A number as a row or column index of an 8192-long axis (reduced modulo 8192, which changes nothing in range). -/
def fin8192_4 (n : ℕ) : Fin 8192 := ⟨n % 8192, Nat.mod_lt _ (by decide)⟩

/-- The printed index maps over the 32 grid points: point t is band t / 8, step t % 8; the matrix block is
    (band, step), the feature block (step, 0), the scale and output blocks (band, 0), the bias block (0, 0). -/
theorem idx_facts4 : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0
    ∧ win4_3.index t (0 : Fin 2) = 0 ∧ win4_3.index t (1 : Fin 2) = 0
    ∧ win4_4.index t (0 : Fin 2) = t.val / 8 ∧ win4_4.index t (1 : Fin 2) = 0 ∧ t.val < 32 :=
  (by decide +kernel : ∀ t : Fin grid4.N, _)

theorem idx_onto4 : ∀ (q0 : Fin 4), ∃ t : Fin cfg4.N, win4_4.index t = ![q0.val, 0] ∧ t.val % 8 = 7 :=
  (by decide +kernel : ∀ (q0 : Fin 4), ∃ t : Fin grid4.N, win4_4.index t = ![q0.val, 0] ∧ t.val % 8 = 7)

/-! ## The blocks read at an index -/

theorem blkA4 (c : Dev nD) (t : Fin cfg4.N) (p : Fin 2048) (k : Fin 1024) :
    iblk4 V c 0 t (ix2 p k)
      = V c main_v0_0 (ix2 (fin8192_4 (2048 * (t.val / 8) + p.val)) (fin8192_4 (1024 * (t.val % 8) + k.val))) := by
  obtain ⟨e0, e1, -, -, -, -, -, -, -, -, ht⟩ := idx_facts4 t
  show V c main_v0_0 (((cfg4.win 0).blk t).view.emb (ix2 p k)) = _
  congr 1; funext a; apply Fin.ext
  match a with
  | ⟨0, _⟩ => show win4_0.index t (0 : Fin 2) * 2048 + 1 * p.val = (2048 * (t.val / 8) + p.val) % 8192; omega
  | ⟨1, _⟩ => show win4_0.index t (1 : Fin 2) * 1024 + 1 * k.val = (1024 * (t.val % 8) + k.val) % 8192; omega

theorem blkB4 (c : Dev nD) (t : Fin cfg4.N) (k : Fin 1024) (q : Fin 256) :
    iblk4 V c 1 t (ix2 k q) = V c main_v7 (ix2 (fin8192_4 (1024 * (t.val % 8) + k.val)) q) := by
  obtain ⟨-, -, e2, e3, -, -, -, -, -, -, ht⟩ := idx_facts4 t
  show V c main_v7 (((cfg4.win 1).blk t).view.emb (ix2 k q)) = _
  congr 1; funext a; apply Fin.ext
  match a with
  | ⟨0, _⟩ => show win4_1.index t (0 : Fin 2) * 1024 + 1 * k.val = (1024 * (t.val % 8) + k.val) % 8192; omega
  | ⟨1, _⟩ => show win4_1.index t (1 : Fin 2) * 256 + 1 * q.val = q.val; omega

theorem blkD4 (c : Dev nD) (t : Fin cfg4.N) (p : Fin 2048) :
    iblk4 V c 2 t (ix2 p (0 : Fin 1)) = V c main_v0_1 (ix2 (fin8192_4 (2048 * (t.val / 8) + p.val)) (0 : Fin 1)) := by
  obtain ⟨-, -, -, -, e4, e5, -, -, -, -, ht⟩ := idx_facts4 t
  show V c main_v0_1 (((cfg4.win 2).blk t).view.emb (ix2 p (0 : Fin 1))) = _
  congr 1; funext a; apply Fin.ext
  match a with
  | ⟨0, _⟩ => show win4_2.index t (0 : Fin 2) * 2048 + 1 * p.val = (2048 * (t.val / 8) + p.val) % 8192; omega
  | ⟨1, _⟩ => show win4_2.index t (1 : Fin 2) * 1 + 1 * 0 = 0; omega

theorem blkBias4 (c : Dev nD) (t : Fin cfg4.N) (q : Fin 256) :
    iblk4 V c 3 t (ix2 (0 : Fin 1) q) = V c main_v8 (ix2 (0 : Fin 1) q) := by
  obtain ⟨-, -, -, -, -, -, e6, e7, -, -, ht⟩ := idx_facts4 t
  show V c main_v8 (((cfg4.win 3).blk t).view.emb (ix2 (0 : Fin 1) q)) = _
  congr 1; funext a; apply Fin.ext
  match a with
  | ⟨0, _⟩ => show win4_3.index t (0 : Fin 2) * 1 + 1 * 0 = 0; omega
  | ⟨1, _⟩ => show win4_3.index t (1 : Fin 2) * 256 + 1 * q.val = q.val; omega

/-! ## The carried accumulator -/

/-- The product of block `kb` of row `r` of the matrix with block `kb` of column `q` of the features. -/
def term4 (A : S8192x8192.Idx → EReal) (T : S8192x256.Idx → EReal) (r : ℕ) (q : Fin 256) (kb : ℕ) : EReal :=
  ∑ jj : Fin 1024, A (ix2 (fin8192_4 r) (fin8192_4 (1024 * kb + jj.val))) * T (ix2 (fin8192_4 (1024 * kb + jj.val)) q)

/-- One accumulation step at a point, read at an index: the accumulator plus the term of the point's step. -/
theorem stepAt4_apply (xs : Vec Ideal S2048x256 .f32) (c : Dev nD) (t : Fin cfg4.N) (p : Fin 2048) (q : Fin 256) :
    k4_pay2 (F := Ideal) xs (iblk4 V c 0 t) (iblk4 V c 1 t) (ix2 p q)
      = xs (ix2 p q) + term4 (V c main_v0_0) (V c main_v7) (2048 * (t.val / 8) + p.val) q (t.val % 8) := by
  rw [k4_pay2_apply]
  refine congrArg (xs (ix2 p q) + ·) ?_
  unfold term4
  refine Finset.sum_congr rfl fun k _ => ?_
  rw [blkA4, blkB4]

/-- The same from the zeroed accumulator. -/
theorem stepZero4_apply (c : Dev nD) (t : Fin cfg4.N) (p : Fin 2048) (q : Fin 256) :
    k4_pay2 (F := Ideal) (k4_pay1 (F := Ideal)) (iblk4 V c 0 t) (iblk4 V c 1 t) (ix2 p q)
      = term4 (V c main_v0_0) (V c main_v7) (2048 * (t.val / 8) + p.val) q (t.val % 8) := by
  rw [stepAt4_apply, k4_pay1_apply, zero_add]

/-- After the point at position n the accumulator holds, at (p, q), the sum of the band's first n % 8 + 1 block
    products. -/
theorem acc4_apply (c : Dev nD) : ∀ (n : ℕ) (hn : n < cfg4.N) (p : Fin 2048) (q : Fin 256),
    accAt4 V c n hn (ix2 p q)
      = ∑ kb ∈ Finset.range (n % 8 + 1), term4 (V c main_v0_0) (V c main_v7) (2048 * (n / 8) + p.val) q kb := by
  intro n
  induction n with
  | zero =>
    intro hn p q
    rw [accAt4_A V c ⟨0, hn⟩ rfl, step4_eq, zero4_eq, stepZero4_apply]
    show _ = ∑ kb ∈ Finset.range 1, _
    rw [Finset.sum_range_one]
    rfl
  | succ n ih =>
    intro hn p q
    by_cases h0 : (n + 1) % 8 = 0
    · rw [accAt4_A V c ⟨n + 1, hn⟩ h0, step4_eq, zero4_eq, stepZero4_apply]
      show term4 _ _ (2048 * ((n + 1) / 8) + p.val) q ((n + 1) % 8) = _
      rw [h0, Finset.sum_range_one]
    · have e : accAt4 V c (n + 1) hn
          = step4 (accAt4 V c n (Nat.lt_of_succ_lt hn)) (iblk4 V c 0 ⟨n + 1, hn⟩) (iblk4 V c 1 ⟨n + 1, hn⟩) := if_neg h0
      rw [e, step4_eq, stepAt4_apply, ih]
      show _ + term4 _ _ (2048 * ((n + 1) / 8) + p.val) q ((n + 1) % 8) = _
      have hd : (n + 1) / 8 = n / 8 := by omega
      have hm : (n + 1) % 8 = n % 8 + 1 := by omega
      rw [hd, hm, Finset.sum_range_succ _ (n % 8 + 1)]

/-- The eight block products of a row make the whole sum over the 8192 columns. -/
theorem blocks4_sum (A : S8192x8192.Idx → EReal) (T : S8192x256.Idx → EReal) (r : ℕ) (q : Fin 256) :
    (∑ kb ∈ Finset.range 8, term4 A T r q kb) = ∑ j : Fin 8192, A (ix2 (fin8192_4 r) j) * T (ix2 j q) := by
  rw [Finset.sum_range, LibBlockSum.sum_blocks 8 1024 (fun j : Fin 8192 => A (ix2 (fin8192_4 r) j) * T (ix2 j q))]
  refine Finset.sum_congr rfl fun kb _ => ?_
  unfold term4
  refine Finset.sum_congr rfl fun jj _ => ?_
  have e : fin8192_4 (1024 * kb.val + jj.val) = ⟨1024 * kb.val + jj.val, by have := kb.isLt; have := jj.isLt; omega⟩ :=
    Fin.ext (Nat.mod_eq_of_lt (by have := kb.isLt; have := jj.isLt; omega))
  rw [e]

/-! ## The whole array -/

/-- What a point of step 7 writes back is its band of the whole-array function of the arrays the region finds. -/
theorem flushed4_eq (c : Dev nD) (t : Fin cfg4.N) (h7 : t.val % 8 = 7) :
    (dat4 V c).flushed 4 t
      = ((cfg4.win 4).blk t).view.read (Elt Ideal) (A4spec (V c main_v0_0) (V c main_v7) (V c main_v0_1) (V c main_v8)) := by
  show (cfg4.win 4).cut (grid4.coords t) ((dat4 V c).after 4 t) = _
  rw [after4_4, out4_eq]
  obtain ⟨-, -, -, -, -, -, -, -, e8, e9, ht⟩ := idx_facts4 t
  funext j
  obtain ⟨p, q, rfl⟩ : ∃ (p : Fin 2048) (q : Fin 256), j = ix2 p q := ⟨j 0, j 1, eq_ix2 j⟩
  show k4_pay3 (F := Ideal) (accAt4 V c t.val t.isLt) (iblk4 V c 2 t) (iblk4 V c 3 t) (ix2 p q) = _
  rw [k4_pay3_apply, acc4_apply, blkD4, blkBias4, h7, blocks4_sum]
  show _ = A4spec (V c main_v0_0) (V c main_v7) (V c main_v0_1) (V c main_v8) (((cfg4.win 4).blk t).view.emb (ix2 p q))
  have he : ((cfg4.win 4).blk t).view.emb (ix2 p q) = ix2 (fin8192_4 (2048 * (t.val / 8) + p.val)) q := by
    funext a; apply Fin.ext
    match a with
    | ⟨0, _⟩ => show win4_4.index t (0 : Fin 2) * 2048 + 1 * p.val = (2048 * (t.val / 8) + p.val) % 8192; omega
    | ⟨1, _⟩ => show win4_4.index t (1 : Fin 2) * 256 + 1 * q.val = q.val; omega
  rw [he]
  rfl

/-- An index of the array is in point t's block iff each coordinate is in the block's range on its axis. -/
theorem mem_blk4 (t : Fin cfg4.N) (i : S8192x256.Idx) :
    i ∈ ((cfg4.win 4).blk t).view.set ↔ ∀ a : Fin 2, win4_4.index t a * S2048x256.size a ≤ (i a).val ∧ (i a).val < win4_4.index t a * S2048x256.size a + S2048x256.size a := by
  show i ∈ ((View.whole main_v9).slice (win4_4.rect t)).set ↔ _
  rw [View.set_slice_whole, Rect.mem_set_unit]
  exact Iff.rfl

/-- The four row bands, each written at its step 7, tile the array: row r lies in band r / 2048. -/
theorem cover4 (i : S8192x256.Idx) : ∃ t : Fin cfg4.N, (cfg4.win 4).flush t = true ∧ i ∈ ((cfg4.win 4).blk t).view.set := by
  have hi0 : (i 0).val < 8192 := (i 0).isLt
  have hi1 : (i 1).val < 256 := (i 1).isLt
  obtain ⟨t, ht, h7⟩ := idx_onto4 ⟨(i 0).val / 2048, by omega⟩
  have q0 : win4_4.index t (0 : Fin 2) = (i 0).val / 2048 := congrFun ht 0
  have q1 : win4_4.index t (1 : Fin 2) = 0 := congrFun ht 1
  refine ⟨t, (flush4_4 t).mpr h7, ?_⟩
  rw [mem_blk4]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 256 ≤ (i 1).val ∧ (i 1).val < win4_4.index t (1 : Fin 2) * 256 + 256; omega

/-- THE ARRAY the call leaves: one whole-array function of the arrays the region finds. -/
theorem final4 (c : Dev nD) :
    (dat4 V c).arrAt 4 cfg4.N = A4spec (V c main_v0_0) (V c main_v7) (V c main_v0_1) (V c main_v8) :=
  (dat4 V c).arrAt_eq_of_cover 4 (A4spec (V c main_v0_0) (V c main_v7) (V c main_v0_1) (V c main_v8))
    (fun t hf => flushed4_eq V c t ((flush4_4 t).mp hf)) cover4

end Cert.KernelIdeal.HandValue

end
-- ==== Proof.RefValue.lean ====
/-
  The reference program's result, read as mathematics. Its first twenty-six operations compute the node
  features of the two-layer network in the reference arrangement (the normalised adjacency matrix formed
  explicitly, then two rounds of "dense product, aggregation, bias"): stage by stage, at an index, they are
  the functions of `GcnSpec`. Everything after the node features — the per-graph sums and counts (two
  accumulating scatters by the graph index), the division by `max count 1`, and the two dense layers of the
  classifier head — is carried as ONE function `tail` of the node features and the remaining arguments, and is
  never opened: the result is `tail` of the reference arrangement's node features.
-/
import proofs.«124667_j47708496724388_2_alg».proof.Proof.Gen.ReferenceIdeal.Read
import proofs.«124667_j47708496724388_2_alg».proof.Proof.GcnEye

noncomputable section

open scoped BigOperators

namespace Gcn.RefValue

open Cert.ReferenceIdeal Cert.ReferenceIdeal.Gen Cert.ReferenceIdeal.Read
open Idealize.ShloMosaic Idealize.ShloMosaic.TcCoe Idealize.SL.Sem Idealize.ShloMosaic.ValueIdx

/-! ## The host tail, as one function of the node features -/

/-- Mean pooling per graph and the classifier head, applied to node features `h2`: the sums of `h2`'s rows and
    the counts of nodes per graph (accumulating scatters by `batch` into zeros), the quotient by
    `max count 1`, then `max (pooled · Wc1 + bc1) 0` and `· Wc2 + bc2`. -/
def tail (h2 : FVec Ideal S8192x256 .f32) (batch : IVec S8192 32) (Wc1 : FVec Ideal S256x512 .f32)
    (bc1 : FVec Ideal S512 .f32) (Wc2 : FVec Ideal S512x10 .f32) (bc2 : FVec Ideal S10 .f32) : FVec Ideal S64x10 .f32 :=
  addf
    (Host.dotGeneral (F := Ideal) dot_S64x512_S512x10_S64x10_1_0_0_1_n_n none
      (maximumf
        (addf
          (Host.dotGeneral (F := Ideal) dot_S64x256_S256x512_S64x512_1_0_0_1_n_n none
            (Host.divf (F := Ideal)
              (Host.scatterAdd (F := Ideal) scatter_S64x256_S8192x1_S8192x256_1_0_0_1
                (broadcastInDim S64x256 ![] bcast_S_S64x256 (constant (F := Ideal) S_ .f32 0x00000000#32))
                (broadcastInDim S8192x1 ![0] bcast_S8192_S8192x1_0 batch) h2)
              (broadcastInDim S64x256 ![0, 1] bcast_S64x1_S64x256_0_1
                (broadcastInDim S64x1 ![0] bcast_S64_S64x1_0
                  (maximumf
                    (Host.scatterAdd (F := Ideal) scatter_S64_S8192x1_S8192_n_0_0_1
                      (broadcastInDim S64 ![] bcast_S_S64 (constant (F := Ideal) S_ .f32 0x00000000#32))
                      (broadcastInDim S8192x1 ![0] bcast_S8192_S8192x1_0 batch)
                      (broadcastInDim S8192 ![] bcast_S_S8192 (constant (F := Ideal) S_ .f32 0x3F800000#32)))
                    (broadcastInDim S64 ![] bcast_S_S64 (constant (F := Ideal) S_ .f32 0x3F800000#32))))))
            Wc1)
          (broadcastInDim S64x512 ![0, 1] bcast_S1x512_S64x512_0_1 (broadcastInDim S1x512 ![1] bcast_S512_S1x512_1 bc1)))
        (broadcastInDim S64x512 ![] bcast_S_S64x512 (constant (F := Ideal) S_ .f32 0x00000000#32)))
      Wc2)
    (broadcastInDim S64x10 ![0, 1] bcast_S1x10_S64x10_0_1 (broadcastInDim S1x10 ![1] bcast_S10_S1x10_1 bc2))

section
variable (x0 : (⟨S8192x512, .f32⟩ : BufTy).Contents (Elt Ideal)) (x1 : (⟨S8192x8192, .f32⟩ : BufTy).Contents (Elt Ideal))
  (x2 : (⟨S8192, .i32⟩ : BufTy).Contents (Elt Ideal)) (x3 : (⟨S512x512, .f32⟩ : BufTy).Contents (Elt Ideal))
  (x4 : (⟨S512, .f32⟩ : BufTy).Contents (Elt Ideal)) (x5 : (⟨S512x256, .f32⟩ : BufTy).Contents (Elt Ideal))
  (x6 : (⟨S256, .f32⟩ : BufTy).Contents (Elt Ideal)) (x7 : (⟨S256x512, .f32⟩ : BufTy).Contents (Elt Ideal))
  (x8 : (⟨S512, .f32⟩ : BufTy).Contents (Elt Ideal)) (x9 : (⟨S512x10, .f32⟩ : BufTy).Contents (Elt Ideal))
  (x10 : (⟨S10, .f32⟩ : BufTy).Contents (Elt Ideal))

/-- The last stage of the reference is the tail applied to its twenty-sixth stage, the node features. -/
theorem val46_eq_tail :
    val_main_v46 (F := Ideal) x0 x1 x2 x3 x4 x5 x6 x7 x8 x9 x10
      = tail (val_main_v25 (F := Ideal) x0 x1 x3 x4 x5 x6) x2 x7 x8 x9 x10 := rfl

/-! ## The first twenty-six stages at an index -/

/-- `adj + I`: the entry at `(i, j)`. -/
theorem aI_read (i j : Fin 8192) : val_main_v6 (F := Ideal) x1 (ix2 i j) = aI x1 i j := by
  unfold aI
  rw [val_main_v6_apply, val_main_v5_apply, val_main_v4_apply, val_main_v3_apply, val_main_v2_apply, val_main_c_apply,
    val_main_v0_apply, val_main_v1_apply]
  exact congrArg (x1 (ix2 i j) + ·) (eye_printed i j)

/-- The row sums: the degree of node `i` (the sum's initial value is the zero pattern). -/
theorem deg_read (i : Fin 8192) : val_main_v7 (F := Ideal) x1 (ix1 i) = deg (aI x1) i := by
  rw [val_main_v7_apply, val_main_cst_apply]
  show Ideal.ofBits .f32 0x00000000#32 + _ = _
  rw [Ideal.ofBits_zero_f32, zero_add]
  unfold deg
  refine Finset.sum_congr rfl fun k _ => ?_
  have e : idx_main_v7 (ix1 i) k = ix2 i k := funext fun a => by match a with | ⟨0, _⟩ => rfl | ⟨1, _⟩ => rfl
  rw [e, aI_read]

/-- The scale of node `i`. -/
theorem dinv_read (i : Fin 8192) : val_main_v8 (F := Ideal) x1 (ix1 i) = dinv (aI x1) i := by
  rw [val_main_v8_apply, deg_read]
  rfl

/-- The normalised matrix: `(a i j · d i) · d j`. -/
theorem aNorm_read (i j : Fin 8192) : val_main_v14 (F := Ideal) x1 (ix2 i j) = aNorm (aI x1) i j := by
  rw [val_main_v14_apply, val_main_v11_apply, val_main_v10_apply, val_main_v9_apply, val_main_v13_apply, val_main_v12_apply,
    aI_read]
  have e1 : idx_main_v9 (idx_main_v10 (ix2 i j)) = ix1 i := funext fun a => by match a with | ⟨0, _⟩ => rfl
  have e2 : idx_main_v12 (idx_main_v13 (ix2 i j)) = ix1 j := funext fun a => by match a with | ⟨0, _⟩ => rfl
  rw [e1, e2, dinv_read, dinv_read]
  rfl

/-- The first dense product `x W1`. -/
theorem xw_read (j : Fin 8192) (c : Fin 512) :
    val_main_v15 (F := Ideal) x0 x3 (ix2 j c) = projR (ofArr2 x0) (ofArr2 x3) j c := by
  rw [val_main_v15_apply]
  unfold projR ofArr2
  refine Finset.sum_congr rfl fun k _ => ?_
  have el : lidx_main_v15 (ix2 j c) k = ix2 j k := funext fun a => by match a with | ⟨0, _⟩ => rfl | ⟨1, _⟩ => rfl
  have er : ridx_main_v15 (ix2 j c) k = ix2 k c := funext fun a => by match a with | ⟨0, _⟩ => rfl | ⟨1, _⟩ => rfl
  rw [el, er]

/-- The hidden features: aggregation with the normalised matrix, bias, `max · 0`. -/
theorem hR_read (i : Fin 8192) (c : Fin 512) :
    val_main_v20 (F := Ideal) x0 x1 x3 x4 (ix2 i c) = hR (aI x1) (ofArr2 x0) (ofArr2 x3) (ofArr1 x4) i c := by
  rw [val_main_v20_apply, val_main_v19_apply, val_main_v16_apply, val_main_v18_apply, val_main_v17_apply,
    val_main_call0_v0_apply, val_main_call0_cst_apply]
  have hsum : (∑ k : Fin 8192, val_main_v14 (F := Ideal) x1 (lidx_main_v16 (ix2 i c) k)
        * val_main_v15 (F := Ideal) x0 x3 (ridx_main_v16 (ix2 i c) k))
      = ∑ j : Fin 8192, aNorm (aI x1) i j * projR (ofArr2 x0) (ofArr2 x3) j c :=
    Finset.sum_congr rfl fun k _ => by
      have el : lidx_main_v16 (ix2 i c) k = ix2 i k := funext fun a => by match a with | ⟨0, _⟩ => rfl | ⟨1, _⟩ => rfl
      have er : ridx_main_v16 (ix2 i c) k = ix2 k c := funext fun a => by match a with | ⟨0, _⟩ => rfl | ⟨1, _⟩ => rfl
      rw [el, er, aNorm_read, xw_read]
  have hb : x4 (idx_main_v17 (idx_main_v18 (ix2 i c))) = ofArr1 x4 c :=
    congrArg x4 (funext fun a => by match a with | ⟨0, _⟩ => rfl)
  rw [hsum, hb]
  show max (_ + _) (Ideal.ofBits .f32 0x00000000#32) = _
  rw [Ideal.ofBits_zero_f32]
  rfl

/-- The second dense product `h W2`. -/
theorem hw_read (j : Fin 8192) (c : Fin 256) :
    val_main_v21 (F := Ideal) x0 x1 x3 x4 x5 (ix2 j c)
      = projR (hR (aI x1) (ofArr2 x0) (ofArr2 x3) (ofArr1 x4)) (ofArr2 x5) j c := by
  rw [val_main_v21_apply]
  unfold projR
  refine Finset.sum_congr rfl fun k _ => ?_
  have el : lidx_main_v21 (ix2 j c) k = ix2 j k := funext fun a => by match a with | ⟨0, _⟩ => rfl | ⟨1, _⟩ => rfl
  have er : ridx_main_v21 (ix2 j c) k = ix2 k c := funext fun a => by match a with | ⟨0, _⟩ => rfl | ⟨1, _⟩ => rfl
  rw [el, er, hR_read]
  rfl

/-- The node features: the second aggregation and bias, no activation. -/
theorem h2R_read (i : Fin 8192) (c : Fin 256) :
    val_main_v25 (F := Ideal) x0 x1 x3 x4 x5 x6 (ix2 i c)
      = h2R (aI x1) (ofArr2 x0) (ofArr2 x3) (ofArr1 x4) (ofArr2 x5) (ofArr1 x6) i c := by
  rw [val_main_v25_apply, val_main_v22_apply, val_main_v24_apply, val_main_v23_apply]
  have hsum : (∑ k : Fin 8192, val_main_v14 (F := Ideal) x1 (lidx_main_v22 (ix2 i c) k)
        * val_main_v21 (F := Ideal) x0 x1 x3 x4 x5 (ridx_main_v22 (ix2 i c) k))
      = ∑ j : Fin 8192, aNorm (aI x1) i j * projR (hR (aI x1) (ofArr2 x0) (ofArr2 x3) (ofArr1 x4)) (ofArr2 x5) j c :=
    Finset.sum_congr rfl fun k _ => by
      have el : lidx_main_v22 (ix2 i c) k = ix2 i k := funext fun a => by match a with | ⟨0, _⟩ => rfl | ⟨1, _⟩ => rfl
      have er : ridx_main_v22 (ix2 i c) k = ix2 k c := funext fun a => by match a with | ⟨0, _⟩ => rfl | ⟨1, _⟩ => rfl
      rw [el, er, aNorm_read, hw_read]
  have hb : x6 (idx_main_v23 (idx_main_v24 (ix2 i c))) = ofArr1 x6 c :=
    congrArg x6 (funext fun a => by match a with | ⟨0, _⟩ => rfl)
  rw [hsum, hb]
  rfl

/-- The twenty-sixth stage is the reference arrangement's node features, as an array. -/
theorem val25_eq_h2Ref : val_main_v25 (F := Ideal) x0 x1 x3 x4 x5 x6 = h2Ref x0 x1 x3 x4 x5 x6 := by
  funext p
  obtain ⟨i, c, rfl⟩ : ∃ (i : Fin 8192) (c : Fin 256), p = ix2 i c := ⟨p 0, p 1, eq_ix2 p⟩
  rw [h2R_read]
  rfl

/-- THE REFERENCE'S VALUE: its last stage is the tail of the reference arrangement's node features. -/
theorem val46_eq : val_main_v46 (F := Ideal) x0 x1 x2 x3 x4 x5 x6 x7 x8 x9 x10
    = tail (h2Ref x0 x1 x3 x4 x5 x6) x2 x7 x8 x9 x10 := by
  rw [val46_eq_tail, val25_eq_h2Ref]

end

/-- The same for the run's result term, from a launch memory `m` on device `c`. -/
theorem res_eq (m : (ℓ : Loc nD τ sig) → Buf (Elt Ideal) ℓ) (c : Dev nD) :
    Cert.ReferenceIdeal.Value.res_main_v46 m c
      = tail (h2Ref (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6)))
          (m ((c.tc : Thread nD τ).loc main_arg2)) (m ((c.tc : Thread nD τ).loc main_arg7))
          (m ((c.tc : Thread nD τ).loc main_arg8)) (m ((c.tc : Thread nD τ).loc main_arg9))
          (m ((c.tc : Thread nD τ).loc main_arg10)) := by
  rw [val_main_v46_eq, val46_eq]

end Gcn.RefValue

end
-- ==== Proof.PreFacts.lean ====
/-
  What the precondition says of the argument arrays. The printed predicate is a conjunction of eleven
  `all`-reductions: for each of the ten float arrays, "every entry has absolute value below `+∞`", and for
  the adjacency matrix, "every row sum of `adj + I` is above `0`". Read back: every entry of every float
  array is a real number, and every row sum of `adj + I` (the sum over the second coordinate, from the
  initial value `0`) is positive — the hypotheses under which the two arrangements of the network agree.
-/
import proofs.«124667_j47708496724388_2_alg».proof.Pre_finite_inputs
import proofs.«124667_j47708496724388_2_alg».proof.Proof.GcnEye
import Idealize.ShloMosaic.Lib.ReduceAll
import Idealize.ShloMosaic.Lib.IdealHost

noncomputable section

open scoped BigOperators

namespace Gcn.PreFacts

open Idealize.ShloMosaic Idealize.ShloMosaic.ValueIdx Cert.Pre_finite_inputs

/-- The scalar shape has one index. -/
instance : Subsingleton S_.Idx := ⟨fun a b => funext fun d => d.elim0⟩

/-- The f32 pattern `0x7F800000` is `+∞`. -/
theorem ofBits_inf : Ideal.ofBits .f32 0x7F800000#32 = ⊤ := by simp [Ideal.ofBits, Ideal.ieee]

/-- A comparison bit that is `1` says the comparison holds. -/
theorem ofBool_eq_one (b : Bool) : BitVec.ofBool b = 1#1 ↔ b = true := by cases b <;> decide

/-- An extended real whose absolute value is below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  have h' : max x (-x) < ⊤ := by
    have h1 : decide (max x (-x) < Ideal.ofBits .f32 0x7F800000#32) = true := (ofBool_eq_one _).mp h
    rw [ofBits_inf] at h1
    exact of_decide_eq_true h1
  refine ⟨?_, ?_⟩
  · rintro rfl; simp at h'
  · rintro rfl; simp at h'

/-- One conjunct of the predicate, read back: an `all` over "|x| < +∞" says every entry of `x` is real. -/
theorem allReal_of_all {s : Shape} {axes : List (Fin s.rank)} (x : FVec Ideal s .f32) (hb : S_.BroadcastsInDim s ![])
    (hr : s.ReducesTo axes S_) (hS : 0 < S_.numel)
    (h : Host.reduce IntOp.andi (cmpf .olt (Host.absf (F := Ideal) x) (broadcastInDim s ![] hb (constant (F := Ideal) S_ .f32 0x7F800000#32)))
      (constantI S_ 1 1#1) hr hS ix0 = 1#1) : AllReal x := fun i =>
  real_of_abs_lt (x i) (Host.reduce_andi_all _ _ hr hS ix0 h i)

/-- A sum over the second axis of a `[8192, 8192]` array, at row `i`: the initial value plus the sum of the
    row's entries. -/
theorem rowsum_apply (y : FVec Ideal S8192x8192 .f32) (init : FVec Ideal S_ .f32) (hr : S8192x8192.ReducesTo [1] S8192)
    (hS : 0 < S_.numel) (i : Fin 8192) :
    Host.reduceAdd y init hr hS (ix1 i) = init (Shape.Idx.first hS) + ∑ k : Fin 8192, y (ix2 i k) := by
  simp only [Host.reduceAdd, Ideal.hostReduceAdd_def]
  rw [Ideal.hostReduceAdd_single hr (by decide)]
  refine congrArg (_ + ·) (Finset.sum_congr rfl fun k _ => ?_)
  exact congrArg y (funext fun a => Fin.ext (by match a with | ⟨0, _⟩ => rfl | ⟨1, _⟩ => rfl))

/-- The last conjunct of the predicate, read back: every row sum of `adj + I` is positive. -/
theorem rowsum_pos_of_all (adj : FVec Ideal S8192x8192 .f32) (hb0 : S_.BroadcastsInDim S8192x8192 ![])
    (hr : S8192x8192.ReducesTo [1] S8192) (hS : 0 < S_.numel) (hb1 : S_.BroadcastsInDim S8192 ![]) (hr0 : S8192.ReducesTo [0] S_)
    (h : Host.reduce IntOp.andi
      (cmpf .ogt
        (Host.reduceAdd (F := Ideal)
          (addf adj (uitofp .f32 (cmpi .eq (addi (iotaInDim S8192x8192 32 0) (broadcastInDim S8192x8192 ![] hb0 (constantI S_ 32 0#32)))
            (iotaInDim S8192x8192 32 1))))
          (constant (F := Ideal) S_ .f32 0x00000000#32) hr hS)
        (broadcastInDim S8192 ![] hb1 (constant (F := Ideal) S_ .f32 0x00000000#32)))
      (constantI S_ 1 1#1) hr0 hS ix0 = 1#1) :
    ∀ i : Fin 8192, 0 < ∑ j : Fin 8192, aI adj i j := by
  intro i
  have e := Host.reduce_andi_all _ _ hr0 hS ix0 h (ix1 i)
  generalize hy : addf adj (uitofp .f32 (cmpi .eq (addi (iotaInDim S8192x8192 32 0) (broadcastInDim S8192x8192 ![] hb0 (constantI S_ 32 0#32)))
            (iotaInDim S8192x8192 32 1))) = y at e
  have e1 : decide (Ideal.ofBits .f32 0x00000000#32
      < Host.reduceAdd (F := Ideal) y (constant (F := Ideal) S_ .f32 0x00000000#32) hr hS (ix1 i)) = true :=
    (ofBool_eq_one _).mp e
  have e2 := of_decide_eq_true e1
  rw [rowsum_apply] at e2
  have e3 : (0 : EReal) < 0 + ∑ k : Fin 8192, y (ix2 i k) := by
    have hc : constant (F := Ideal) S_ .f32 0x00000000#32 (Shape.Idx.first hS) = 0 := Ideal.ofBits_zero_f32
    rw [hc, Ideal.ofBits_zero_f32] at e2
    exact e2
  rw [zero_add] at e3
  refine lt_of_lt_of_eq e3 (Finset.sum_congr rfl fun k _ => ?_)
  subst hy
  show adj (ix2 i k) + FloatOps.uitofp (F := Ideal) .f32 (IntOp.cmpi .eq (IntOp.addi (BitVec.ofNat 32 i.val) 0#32) (BitVec.ofNat 32 k.val)) = _
  rw [eye_printed]
  rfl

/-- A conjunction of two one-bit words that is `1` at the one index: both are. -/
theorem andi_split {a b : IVec S_ 1} (h : andi a b ix0 = 1#1) : a ix0 = 1#1 ∧ b ix0 = 1#1 := IntOp.andi_eq_one.mp h

/-- THE PRECONDITION READ BACK: if the printed predicate answers `1` on the argument arrays, every entry of
    each of the ten float arrays is a real number and every row sum of `adj + I` is positive. -/
theorem facts_of_pre [Cert.Pre_finite_inputs.Facts] (a0 : FVec Ideal S8192x512 .f32) (a1 : FVec Ideal S8192x8192 .f32)
    (a2 : IVec S8192 32) (a3 : FVec Ideal S512x512 .f32) (a4 : FVec Ideal S512 .f32) (a5 : FVec Ideal S512x256 .f32)
    (a6 : FVec Ideal S256 .f32) (a7 : FVec Ideal S256x512 .f32) (a8 : FVec Ideal S512 .f32) (a9 : FVec Ideal S512x10 .f32)
    (a10 : FVec Ideal S10 .f32)
    (h : Cert.Pre_finite_inputs.fn (F := Ideal) a0 a1 a2 a3 a4 a5 a6 a7 a8 a9 a10 = fun _ => 1#1) :
    AllReal a0 ∧ AllReal a1 ∧ AllReal a3 ∧ AllReal a4 ∧ AllReal a5 ∧ AllReal a6 ∧ AllReal a7 ∧ AllReal a8 ∧ AllReal a9
      ∧ AllReal a10 ∧ ∀ i : Fin 8192, 0 < ∑ j : Fin 8192, aI a1 i j := by
  have e := congrFun h ix0
  dsimp only [fn, fn_part1, fn_part2, fn_part3] at e
  obtain ⟨e, hrow⟩ := andi_split e
  obtain ⟨e, h10⟩ := andi_split e
  obtain ⟨e, h9⟩ := andi_split e
  obtain ⟨e, h8⟩ := andi_split e
  obtain ⟨e, h7⟩ := andi_split e
  obtain ⟨e, h6⟩ := andi_split e
  obtain ⟨e, h5⟩ := andi_split e
  obtain ⟨e, h4⟩ := andi_split e
  obtain ⟨e, h3⟩ := andi_split e
  obtain ⟨h0, h1⟩ := andi_split e
  exact ⟨allReal_of_all a0 _ _ _ h0, allReal_of_all a1 _ _ _ h1, allReal_of_all a3 _ _ _ h3, allReal_of_all a4 _ _ _ h4,
    allReal_of_all a5 _ _ _ h5, allReal_of_all a6 _ _ _ h6, allReal_of_all a7 _ _ _ h7, allReal_of_all a8 _ _ _ h8,
    allReal_of_all a9 _ _ _ h9, allReal_of_all a10 _ _ _ h10, rowsum_pos_of_all a1 _ _ _ _ _ hrow⟩

end Gcn.PreFacts

end
-- ==== Proof.RefSide.lean ====
/-
  The reference's half of the comparison, and the comparison itself given the kernel's run. The common result
  is the host tail applied to the kernel arrangement's node features of the argument arrays. The reference
  program ends with the tail of the REFERENCE arrangement's node features; under the precondition every float
  entry is real and every row sum of `adj + I` is positive, so the two arrangements agree, and on memories that
  agree on the arguments the reference's result is the common result. What remains for the comparison is the
  kernel program's run ending at the common result.
-/
import proofs.«124667_j47708496724388_2_alg».proof.Defs
import proofs.«124667_j47708496724388_2_alg».proof.Proof.Gen.KernelIdeal
import proofs.«124667_j47708496724388_2_alg».proof.Proof.Gen.Pre_finite_inputs
import proofs.«124667_j47708496724388_2_alg».proof.Proof.RefValue
import proofs.«124667_j47708496724388_2_alg».proof.Proof.PreFacts

noncomputable section

namespace Gcn.RefSide

open Idealize.ShloMosaic Idealize.ShloMosaic.TcCoe Idealize.SL.Sem

/-- The result both programs end with: the host tail of the kernel arrangement's node features, over the kernel
    program's argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v30) :=
  Gcn.RefValue.tail
    (Gcn.h2Ker (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10))

/-! ## The two programs' shape records for the host tail are the same records -/

theorem dot_head1_eq : Cert.KernelIdeal.dot_S64x256_S256x512_S64x512_1_0_0_1_n_n = Cert.ReferenceIdeal.dot_S64x256_S256x512_S64x512_1_0_0_1_n_n := rfl
theorem dot_head2_eq : Cert.KernelIdeal.dot_S64x512_S512x10_S64x10_1_0_0_1_n_n = Cert.ReferenceIdeal.dot_S64x512_S512x10_S64x10_1_0_0_1_n_n := rfl
theorem scatter_sums_eq : Cert.KernelIdeal.scatter_S64x256_S8192x1_S8192x256_1_0_0_1 = Cert.ReferenceIdeal.scatter_S64x256_S8192x1_S8192x256_1_0_0_1 := rfl
theorem scatter_counts_eq : Cert.KernelIdeal.scatter_S64_S8192x1_S8192_n_0_0_1 = Cert.ReferenceIdeal.scatter_S64_S8192x1_S8192_n_0_0_1 := rfl

/-- The reference program runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- THE COMPARISON, given the kernel program's run: if under the precondition the kernel program ends with
    `result m c` in its result buffer and its arguments unchanged, the two programs end with equal results. -/
theorem algebraic_of
    (hker : ∀ (m : (ℓ : Loc Cert.KernelIdeal.nD Cert.KernelIdeal.τ Cert.KernelIdeal.sig) → Buf (Elt Ideal) ℓ) (g : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = result m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))) :
    Cert.algebraic_KernelIdeal_ReferenceIdeal := by
  intro m g m' g' hpre hagree
  refine ⟨fun c => result m c, hker m g hpre, ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5, e6, e7, e8, e9, e10⟩ := hagree c
  obtain ⟨hx, hadj, hW1, hb1, hW2, hb2, -, -, -, -, hpos⟩ := Gcn.PreFacts.facts_of_pre _ _ _ _ _ _ _ _ _ _ _ (hpre c)
  rw [Gcn.RefValue.res_eq, e0, e1, e2, e3, e4, e5, e6, e7, e8, e9, e10]
  rw [← Gcn.h2Ker_eq_h2Ref _ _ _ _ _ _ hx hadj hW1 hb1 hW2 hb2 hpos]
  rfl

end Gcn.RefSide

end
-- ==== Proof.KerTail.lean ====
/-
  The kernel program's host operations after its last kernel are the reference's host tail: the same
  twenty-seven operations (pooling sums and counts, the quotient, the two dense layers of the head) applied to
  the node-feature array the last kernel wrote. Read at the result buffer, the contents after these operations
  are `tail` of the node features and the remaining arguments, whatever the contents before them.
-/
import proofs.«124667_j47708496724388_2_alg».proof.Proof.Gen.KernelIdeal.Launch
import proofs.«124667_j47708496724388_2_alg».proof.Proof.RefSide

noncomputable section

namespace Gcn.KerTail

open Idealize.ShloMosaic Idealize.ShloMosaic.TcCoe Idealize.SL.Sem Idealize.ShloMosaic.StableHlo
open Cert.KernelIdeal Cert.KernelIdeal.Gen

set_option maxRecDepth 8192 in
set_option maxHeartbeats 1000000 in
/-- The result buffer after the three last stretches of host operations, from any contents `V`. -/
theorem tail_eq (V : Valuation τ sig (Elt Ideal)) :
    after (hostOps5_2 (F := Ideal)) (after (hostOps5_1 (F := Ideal)) (after (hostOps5 (F := Ideal)) V)) (Proc.devRef .tc main_v30)
      = Gcn.RefValue.tail (V (Proc.devRef .tc main_v9)) (V (Proc.devRef .tc main_arg2)) (V (Proc.devRef .tc main_arg7))
          (V (Proc.devRef .tc main_arg8)) (V (Proc.devRef .tc main_arg9)) (V (Proc.devRef .tc main_arg10)) := by
  after_results_simp
  rfl

/-- The same with the three stretches as one flattened list. -/
theorem tail_eq_flatten (V : Valuation τ sig (Elt Ideal)) :
    after (List.flatten [hostOps5 (F := Ideal), hostOps5_1 (F := Ideal), hostOps5_2 (F := Ideal)]) V (Proc.devRef .tc main_v30)
      = Gcn.RefValue.tail (V (Proc.devRef .tc main_v9)) (V (Proc.devRef .tc main_arg2)) (V (Proc.devRef .tc main_arg7))
          (V (Proc.devRef .tc main_arg8)) (V (Proc.devRef .tc main_arg9)) (V (Proc.devRef .tc main_arg10)) := by
  rw [List.flatten_cons, List.flatten_cons, List.flatten_cons, List.flatten_nil, List.append_nil, StableHlo.after_append,
    StableHlo.after_append]
  exact tail_eq V

end Gcn.KerTail

end
-- ==== Proof.KerCompose.lean ====
/-
  The five calls composed. Each call leaves one whole-array function of the arrays it reads: `adj + I` and the
  column of scales; the scaled dense product; the aggregation with bias and `max · 0`; the second scaled dense
  product; the second aggregation with bias. Substituting each into the next — the bias vectors enter recast
  from `[n]` to `[1, n]`, which reads the same entries — gives, index by index, the kernel arrangement of the
  two-layer network: the composition IS `h2Ker`.
-/
import proofs.«124667_j47708496724388_2_alg».proof.Proof.Values0
import proofs.«124667_j47708496724388_2_alg».proof.Proof.Values1
import proofs.«124667_j47708496724388_2_alg».proof.Proof.Values3
import proofs.«124667_j47708496724388_2_alg».proof.Proof.SpmmSpec
import Idealize.ShloMosaic.Lib.Pipeline.Value
import Idealize.ShloMosaic.Lib.ValueLayout

noncomputable section

open scoped BigOperators

namespace Cert.KernelIdeal.HandValue

open Cert.KernelIdeal Idealize.ShloMosaic Idealize.ShloMosaic.ValueIdx Gcn

/-- A bias vector `[512]` recast to a row `[1, 512]`, read at `(0, q)`: the vector at `q`. -/
theorem row_apply (b : S512.Idx → EReal) (h : S512.ShapeCasts S1x512) (q : Fin 512) :
    shapeCast S1x512 b h (ix2 (0 : Fin 1) q) = b (ix1 q) :=
  shapeCast_a_1a_apply b h 0 q

/-- The same for a bias vector `[256]`. -/
theorem row_apply256 (b : S256.Idx → EReal) (h : S256.ShapeCasts S1x256) (q : Fin 256) :
    shapeCast S1x256 b h (ix2 (0 : Fin 1) q) = b (ix1 q) :=
  shapeCast_a_1a_apply b h 0 q

/-- THE COMPOSITION of the five calls' whole-array functions is the kernel arrangement of the network. -/
theorem compose_eq (x : S8192x512.Idx → EReal) (adj : S8192x8192.Idx → EReal) (W1 : S512x512.Idx → EReal)
    (b1 : S512.Idx → EReal) (W2 : S512x256.Idx → EReal) (b2 : S256.Idx → EReal)
    (h1 : S512.ShapeCasts S1x512) (h2 : S256.ShapeCasts S1x256) :
    A4spec (AIspec adj)
        (T3spec (H2spec (AIspec adj) (T1spec x W1 (DVspec adj)) (DVspec adj) (shapeCast S1x512 b1 h1)) W2 (DVspec adj))
        (DVspec adj) (shapeCast S1x256 b2 h2)
      = Gcn.h2Ker x adj W1 b1 W2 b2 := by
  funext idx
  obtain ⟨r, q, rfl⟩ : ∃ (r : Fin 8192) (q : Fin 256), idx = ix2 r q := ⟨idx 0, idx 1, eq_ix2 idx⟩
  simp only [A4spec, T3spec, H2spec, T1spec, AIspec, DVspec, toArr2_ix2, row_apply, row_apply256]
  rfl

end Cert.KernelIdeal.HandValue

end
-- ==== Proof.KernelValue.lean ====
/-
  The kernel program's result, read through @main: each pallas_call's output array as one whole-array function of
  the arrays it finds, each of those traced back through the host stretches and the earlier calls to the argument
  arrays. The last call's output is the kernel arrangement of the two-layer graph convolution of the arguments; the
  host operations after it are the pooling and the classifier head.
-/
import proofs.«124667_j47708496724388_2_alg».proof.Proof.Run
import proofs.«124667_j47708496724388_2_alg».proof.Proof.Values0
import proofs.«124667_j47708496724388_2_alg».proof.Proof.Values1
import proofs.«124667_j47708496724388_2_alg».proof.Proof.Values2
import proofs.«124667_j47708496724388_2_alg».proof.Proof.Values3
import proofs.«124667_j47708496724388_2_alg».proof.Proof.Values4
import proofs.«124667_j47708496724388_2_alg».proof.Proof.KerTail
import proofs.«124667_j47708496724388_2_alg».proof.Proof.KerCompose
import Idealize.ShloMosaic.Lib.StableHlo.Run
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Gcn

variable (m : (ℓ : Loc nD τ sig) → Buf (Elt Ideal) ℓ) (ρ : Dev nD → PrngReg)

/-! ## After the first call: A + I and the column of reciprocal square roots -/

theorem W1_ai (c : Dev nD) : W1 m ρ c main_v0_0 = AIspec (m ((c : Thread nD τ).loc main_arg1)) :=
  (W1_arr m ρ c 1).trans (final0_1 (Vr0 m ρ) c)
theorem W1_dv (c : Dev nD) : W1 m ρ c main_v0_1 = DVspec (m ((c : Thread nD τ).loc main_arg1)) :=
  (W1_arr m ρ c 2).trans (final0_2 (Vr0 m ρ) c)

/-! ## The casts of x, W1, W2: the identity on the extended reals -/

theorem W2_xb (c : Dev nD) : W2 m ρ c main_v1 = (m ((c : Thread nD τ).loc main_arg0)) := by
  show StableHlo.after hostOps1 (W1 m ρ c) (Proc.devRef .tc main_v1) = _
  after_results
  exact (W1_of_ne m ρ c main_arg0 (by decide))
theorem W2_w1b (c : Dev nD) : W2 m ρ c main_v2 = (m ((c : Thread nD τ).loc main_arg3)) := by
  show StableHlo.after hostOps1 (W1 m ρ c) (Proc.devRef .tc main_v2) = _
  after_results
  exact (W1_of_ne m ρ c main_arg3 (by decide))
theorem W2_w2b (c : Dev nD) : W2 m ρ c main_v3 = (m ((c : Thread nD τ).loc main_arg5)) := by
  show StableHlo.after hostOps1 (W1 m ρ c) (Proc.devRef .tc main_v3) = _
  after_results
  exact (W1_of_ne m ρ c main_arg5 (by decide))

/-! ## After the second call: t1 -/

theorem W3_t1 (c : Dev nD) : W3 m ρ c main_v4 = T1spec (m ((c : Thread nD τ).loc main_arg0)) (m ((c : Thread nD τ).loc main_arg3)) (DVspec (m ((c : Thread nD τ).loc main_arg1))) := by
  refine (W3_arr m ρ c 3).trans ((final1 (Vr2 m ρ) c).trans ?_)
  show T1spec (W2 m ρ c main_v1) (W2 m ρ c main_v2) (W2 m ρ c main_v0_1) = _
  rw [W2_xb, W2_w1b, show W2 m ρ c main_v0_1 = W1 m ρ c main_v0_1 from (W2_keep m ρ c main_v0_1 (by decide)), W1_dv]

/-! ## The bias rows -/

theorem W4_b1row (c : Dev nD) : W4 m ρ c main_v5 = shapeCast S1x512 (m ((c : Thread nD τ).loc main_arg4)) shapeCasts_S512_S1x512 := by
  show StableHlo.after hostOps2 (W3 m ρ c) (Proc.devRef .tc main_v5) = _
  after_results
  exact congrArg (fun v => shapeCast S1x512 v shapeCasts_S512_S1x512) ((W3_of_ne m ρ c main_arg4 (by decide)).trans <| (W2_keep m ρ c main_arg4 (by decide)).trans <| (W1_of_ne m ρ c main_arg4 (by decide)))
theorem W7_b2row (c : Dev nD) : W7 m ρ c main_v8 = shapeCast S1x256 (m ((c : Thread nD τ).loc main_arg6)) shapeCasts_S256_S1x256 := by
  show StableHlo.after hostOps4 (W6 m ρ c) (Proc.devRef .tc main_v8) = _
  after_results
  exact congrArg (fun v => shapeCast S1x256 v shapeCasts_S256_S1x256) ((W6_of_ne m ρ c main_arg6 (by decide)).trans <| (W5_of_ne m ρ c main_arg6 (by decide)).trans <| (W4_keep m ρ c main_arg6 (by decide)).trans <| (W3_of_ne m ρ c main_arg6 (by decide)).trans <| (W2_keep m ρ c main_arg6 (by decide)).trans <| (W1_of_ne m ρ c main_arg6 (by decide)))

/-! ## After the third call: h -/

theorem W5_h (c : Dev nD) : W5 m ρ c main_v6
    = H2spec (AIspec (m ((c : Thread nD τ).loc main_arg1))) (T1spec (m ((c : Thread nD τ).loc main_arg0)) (m ((c : Thread nD τ).loc main_arg3)) (DVspec (m ((c : Thread nD τ).loc main_arg1)))) (DVspec (m ((c : Thread nD τ).loc main_arg1))) (shapeCast S1x512 (m ((c : Thread nD τ).loc main_arg4)) shapeCasts_S512_S1x512) := by
  refine (W5_arr m ρ c 4).trans ((final2 (Vr4 m ρ) c).trans ?_)
  show H2spec (W4 m ρ c main_v0_0) (W4 m ρ c main_v4) (W4 m ρ c main_v0_1) (W4 m ρ c main_v5) = _
  rw [W4_b1row, show W4 m ρ c main_v0_0 = W1 m ρ c main_v0_0 from (W4_keep m ρ c main_v0_0 (by decide)).trans <| (W3_of_ne m ρ c main_v0_0 (by decide)).trans <| (W2_keep m ρ c main_v0_0 (by decide)), W1_ai,
    show W4 m ρ c main_v4 = W3 m ρ c main_v4 from (W4_keep m ρ c main_v4 (by decide)), W3_t1,
    show W4 m ρ c main_v0_1 = W1 m ρ c main_v0_1 from (W4_keep m ρ c main_v0_1 (by decide)).trans <| ((W3_arr m ρ c 2).trans (((dat1 (Vr2 m ρ) c).arrAt_in 2 rfl _).trans (A_eq1 (Vr2 m ρ) c 2))).trans <| (W2_keep m ρ c main_v0_1 (by decide)), W1_dv]

/-! ## After the fourth call: t2 -/

theorem W6_t2 (c : Dev nD) : W6 m ρ c main_v7
    = T3spec (H2spec (AIspec (m ((c : Thread nD τ).loc main_arg1))) (T1spec (m ((c : Thread nD τ).loc main_arg0)) (m ((c : Thread nD τ).loc main_arg3)) (DVspec (m ((c : Thread nD τ).loc main_arg1)))) (DVspec (m ((c : Thread nD τ).loc main_arg1))) (shapeCast S1x512 (m ((c : Thread nD τ).loc main_arg4)) shapeCasts_S512_S1x512)) (m ((c : Thread nD τ).loc main_arg5)) (DVspec (m ((c : Thread nD τ).loc main_arg1))) := by
  refine (W6_arr m ρ c 3).trans ((final3 (Vr5 m ρ) c).trans ?_)
  show T3spec (W5 m ρ c main_v6) (W5 m ρ c main_v3) (W5 m ρ c main_v0_1) = _
  rw [W5_h, show W5 m ρ c main_v3 = W2 m ρ c main_v3 from (W5_of_ne m ρ c main_v3 (by decide)).trans <| (W4_keep m ρ c main_v3 (by decide)).trans <| (W3_of_ne m ρ c main_v3 (by decide)), W2_w2b,
    show W5 m ρ c main_v0_1 = W1 m ρ c main_v0_1 from ((W5_arr m ρ c 2).trans (((dat2 (Vr4 m ρ) c).arrAt_in 2 rfl _).trans (A_eq2 (Vr4 m ρ) c 2))).trans <| (W4_keep m ρ c main_v0_1 (by decide)).trans <| ((W3_arr m ρ c 2).trans (((dat1 (Vr2 m ρ) c).arrAt_in 2 rfl _).trans (A_eq1 (Vr2 m ρ) c 2))).trans <| (W2_keep m ρ c main_v0_1 (by decide)), W1_dv]

/-! ## After the fifth call: h2 -/

theorem W8_h2raw (c : Dev nD) : W8 m ρ c main_v9
    = A4spec (AIspec (m ((c : Thread nD τ).loc main_arg1))) (T3spec (H2spec (AIspec (m ((c : Thread nD τ).loc main_arg1))) (T1spec (m ((c : Thread nD τ).loc main_arg0)) (m ((c : Thread nD τ).loc main_arg3)) (DVspec (m ((c : Thread nD τ).loc main_arg1)))) (DVspec (m ((c : Thread nD τ).loc main_arg1))) (shapeCast S1x512 (m ((c : Thread nD τ).loc main_arg4)) shapeCasts_S512_S1x512)) (m ((c : Thread nD τ).loc main_arg5)) (DVspec (m ((c : Thread nD τ).loc main_arg1))))
        (DVspec (m ((c : Thread nD τ).loc main_arg1))) (shapeCast S1x256 (m ((c : Thread nD τ).loc main_arg6)) shapeCasts_S256_S1x256) := by
  refine (W8_arr m ρ c 4).trans ((final4 (Vr7 m ρ) c).trans ?_)
  show A4spec (W7 m ρ c main_v0_0) (W7 m ρ c main_v7) (W7 m ρ c main_v0_1) (W7 m ρ c main_v8) = _
  rw [W7_b2row, show W7 m ρ c main_v0_0 = W1 m ρ c main_v0_0 from (W7_keep m ρ c main_v0_0 (by decide)).trans <| (W6_of_ne m ρ c main_v0_0 (by decide)).trans <| ((W5_arr m ρ c 0).trans (((dat2 (Vr4 m ρ) c).arrAt_in 0 rfl _).trans (A_eq2 (Vr4 m ρ) c 0))).trans <| (W4_keep m ρ c main_v0_0 (by decide)).trans <| (W3_of_ne m ρ c main_v0_0 (by decide)).trans <| (W2_keep m ρ c main_v0_0 (by decide)), W1_ai,
    show W7 m ρ c main_v7 = W6 m ρ c main_v7 from (W7_keep m ρ c main_v7 (by decide)), W6_t2,
    show W7 m ρ c main_v0_1 = W1 m ρ c main_v0_1 from (W7_keep m ρ c main_v0_1 (by decide)).trans <| ((W6_arr m ρ c 2).trans (((dat3 (Vr5 m ρ) c).arrAt_in 2 rfl _).trans (A_eq3 (Vr5 m ρ) c 2))).trans <| ((W5_arr m ρ c 2).trans (((dat2 (Vr4 m ρ) c).arrAt_in 2 rfl _).trans (A_eq2 (Vr4 m ρ) c 2))).trans <| (W4_keep m ρ c main_v0_1 (by decide)).trans <| ((W3_arr m ρ c 2).trans (((dat1 (Vr2 m ρ) c).arrAt_in 2 rfl _).trans (A_eq1 (Vr2 m ρ) c 2))).trans <| (W2_keep m ρ c main_v0_1 (by decide)), W1_dv]

/-- The last call's output is the kernel arrangement of the two-layer graph convolution of the arguments. -/
theorem W8_h2 (c : Dev nD) : W8 m ρ c main_v9 = h2Ker (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W8_h2raw]
  exact compose_eq _ _ _ _ _ _ _ _

/-! ## The result buffer -/

theorem W8_arg2 (c : Dev nD) : W8 m ρ c main_arg2 = (m ((c : Thread nD τ).loc main_arg2)) := (W8_of_ne m ρ c main_arg2 (by decide)).trans <| (W7_keep m ρ c main_arg2 (by decide)).trans <| (W6_of_ne m ρ c main_arg2 (by decide)).trans <| (W5_of_ne m ρ c main_arg2 (by decide)).trans <| (W4_keep m ρ c main_arg2 (by decide)).trans <| (W3_of_ne m ρ c main_arg2 (by decide)).trans <| (W2_keep m ρ c main_arg2 (by decide)).trans <| (W1_of_ne m ρ c main_arg2 (by decide))
theorem W8_arg7 (c : Dev nD) : W8 m ρ c main_arg7 = (m ((c : Thread nD τ).loc main_arg7)) := (W8_of_ne m ρ c main_arg7 (by decide)).trans <| (W7_keep m ρ c main_arg7 (by decide)).trans <| (W6_of_ne m ρ c main_arg7 (by decide)).trans <| (W5_of_ne m ρ c main_arg7 (by decide)).trans <| (W4_keep m ρ c main_arg7 (by decide)).trans <| (W3_of_ne m ρ c main_arg7 (by decide)).trans <| (W2_keep m ρ c main_arg7 (by decide)).trans <| (W1_of_ne m ρ c main_arg7 (by decide))
theorem W8_arg8 (c : Dev nD) : W8 m ρ c main_arg8 = (m ((c : Thread nD τ).loc main_arg8)) := (W8_of_ne m ρ c main_arg8 (by decide)).trans <| (W7_keep m ρ c main_arg8 (by decide)).trans <| (W6_of_ne m ρ c main_arg8 (by decide)).trans <| (W5_of_ne m ρ c main_arg8 (by decide)).trans <| (W4_keep m ρ c main_arg8 (by decide)).trans <| (W3_of_ne m ρ c main_arg8 (by decide)).trans <| (W2_keep m ρ c main_arg8 (by decide)).trans <| (W1_of_ne m ρ c main_arg8 (by decide))
theorem W8_arg9 (c : Dev nD) : W8 m ρ c main_arg9 = (m ((c : Thread nD τ).loc main_arg9)) := (W8_of_ne m ρ c main_arg9 (by decide)).trans <| (W7_keep m ρ c main_arg9 (by decide)).trans <| (W6_of_ne m ρ c main_arg9 (by decide)).trans <| (W5_of_ne m ρ c main_arg9 (by decide)).trans <| (W4_keep m ρ c main_arg9 (by decide)).trans <| (W3_of_ne m ρ c main_arg9 (by decide)).trans <| (W2_keep m ρ c main_arg9 (by decide)).trans <| (W1_of_ne m ρ c main_arg9 (by decide))
theorem W8_arg10 (c : Dev nD) : W8 m ρ c main_arg10 = (m ((c : Thread nD τ).loc main_arg10)) := (W8_of_ne m ρ c main_arg10 (by decide)).trans <| (W7_keep m ρ c main_arg10 (by decide)).trans <| (W6_of_ne m ρ c main_arg10 (by decide)).trans <| (W5_of_ne m ρ c main_arg10 (by decide)).trans <| (W4_keep m ρ c main_arg10 (by decide)).trans <| (W3_of_ne m ρ c main_arg10 (by decide)).trans <| (W2_keep m ρ c main_arg10 (by decide)).trans <| (W1_of_ne m ρ c main_arg10 (by decide))

/-- The result buffer at the end of @main: the pooling and classifier head of the node features. -/
theorem W11_result (c : Dev nD) : W11 m ρ c main_v30 = Gcn.RefSide.result m c := by
  show StableHlo.after hostOps5_2 (StableHlo.after hostOps5_1 (StableHlo.after hostOps5 (W8 m ρ c))) (Proc.devRef .tc main_v30) = _
  rw [Gcn.KerTail.tail_eq (W8 m ρ c)]
  show Gcn.RefValue.tail (W8 m ρ c main_v9) (W8 m ρ c main_arg2) (W8 m ρ c main_arg7) (W8 m ρ c main_arg8) (W8 m ρ c main_arg9) (W8 m ρ c main_arg10) = _
  rw [W8_h2, W8_arg2, W8_arg7, W8_arg8, W8_arg9, W8_arg10]
  rfl

/-- THE KERNEL PROGRAM'S RUN, read: every weakly fair execution terminates with the result buffer at the pooling and
    classifier head of the kernel arrangement's node features, the arguments unchanged. -/
theorem run_result : θ_run defs (onTc (τ := τ) (main (F := Ideal))) ⟨m, fun _ => 0, ρ⟩ (fun r => ∀ c : Dev nD,
      r.2.mem ((c.tc : Thread nD τ).loc main_v30) = Gcn.RefSide.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v30 (by decide))).trans (W11_result m ρ c),
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c),
    (h c _ (mem_uc main_arg8 (by decide))).trans (W11_main_arg8 m ρ c),
    (h c _ (mem_uc main_arg9 (by decide))).trans (W11_main_arg9 m ρ c),
    (h c _ (mem_uc main_arg10 (by decide))).trans (W11_main_arg10 m ρ c)⟩) (run_all m ρ)

end Cert.KernelIdeal.HandValue

end
-- ==== Proof.lean ====
/-
  Two programs compute a two-layer graph convolution over 8192 nodes followed by mean pooling per graph and a
  two-layer classifier head. The reference normalises the adjacency matrix, Â = D^{-1/2}(A + I)D^{-1/2}, and applies it
  twice; the kernel never forms Â: it keeps A + I and the column d = D^{-1/2} (one pass over A), scales the projected
  features by d before each aggregation and the aggregated rows by d after it, d(i)·∑ⱼ (A+I)(i,j)·(d(j)·y(j)) in place of
  ∑ⱼ Â(i,j)·y(j), accumulating each aggregation over eight blocks of 1024 columns. On the extended reals the two agree
  when every entry is a real number and every row sum of A + I is positive (then d is a positive real and the factor
  moves across the finite sum); the precondition says exactly that. The host operations after the node features are the
  same in both programs. Each program runs to the end, faults nowhere and leaves its arguments unchanged.
-/
import proofs.«124667_j47708496724388_2_alg».proof.Defs
import proofs.«124667_j47708496724388_2_alg».proof.Proof.Gen.Kernel
import proofs.«124667_j47708496724388_2_alg».proof.Proof.Gen.KernelIdeal
import proofs.«124667_j47708496724388_2_alg».proof.Proof.Gen.ReferenceIdeal
import proofs.«124667_j47708496724388_2_alg».proof.Proof.Gen.Pre_finite_inputs
import proofs.«124667_j47708496724388_2_alg».proof.Proof.KRun
import proofs.«124667_j47708496724388_2_alg».proof.Proof.Run
import proofs.«124667_j47708496724388_2_alg».proof.Proof.KernelValue
import proofs.«124667_j47708496724388_2_alg».proof.Proof.RefSide
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Gcn.RefSide.frame_ri,
  trivial,
  Gcn.RefSide.algebraic_of fun m g _ => Cert.KernelIdeal.HandValue.run_result m g⟩

end Cert.Proof

end
